-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4000 : Shape := ⟨2, ![256, 4000]⟩
abbrev S512000x7 : Shape := ⟨2, ![512000, 7]⟩
abbrev S8388608x2 : Shape := ⟨2, ![8388608, 2]⟩
abbrev S2000x7 : Shape := ⟨2, ![2000, 7]⟩
abbrev S2000x2 : Shape := ⟨2, ![2000, 2]⟩
abbrev S2 : Shape := ⟨1, ![2]⟩
abbrev S2x8388608 : Shape := ⟨2, ![2, 8388608]⟩
abbrev S2000 : Shape := ⟨1, ![2000]⟩
abbrev S_ : Shape := ⟨0, ![]⟩

class Facts : Prop where
  bcast_S_S256x4000 : S_.BroadcastsInDim S256x4000 (![] : Fin 0 → Fin S256x4000.rank)
  reducesTo_S256x4000_S_d0_1 : S256x4000.ReducesTo [0, 1] S_
  h_S_ : 0 < S_.numel
  bcast_S_S512000x7 : S_.BroadcastsInDim S512000x7 (![] : Fin 0 → Fin S512000x7.rank)
  reducesTo_S512000x7_S_d0_1 : S512000x7.ReducesTo [0, 1] S_
  bcast_S_S8388608x2 : S_.BroadcastsInDim S8388608x2 (![] : Fin 0 → Fin S8388608x2.rank)
  reducesTo_S8388608x2_S_d0_1 : S8388608x2.ReducesTo [0, 1] S_
  bcast_S_S2000x7 : S_.BroadcastsInDim S2000x7 (![] : Fin 0 → Fin S2000x7.rank)
  reducesTo_S2000x7_S_d0_1 : S2000x7.ReducesTo [0, 1] S_
  bcast_S_S2000x2 : S_.BroadcastsInDim S2000x2 (![] : Fin 0 → Fin S2000x2.rank)
  reducesTo_S2000x2_S_d0_1 : S2000x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2000x2 .f32) (main_arg8 : FVec F S2 .f32) (main_arg9 : FVec F S2 .f32) (main_v33 : IVec S_ 1) : IVec S_ 1 :=
  let main_v34 : FVec F S2000x2 .f32 := Host.absf main_arg7
  let main_cst_12 : FVec F S_ .f32 := constant S_ .f32 0x7F800000#32
  let main_v35 : FVec F S2000x2 .f32 := broadcastInDim S2000x2 ![] bcast_S_S2000x2 main_cst_12
  let main_v36 : IVec S2000x2 1 := cmpf .olt main_v34 main_v35
  let main_c_13 : IVec S_ 1 := constantI S_ 1 1#1
  let main_v37 : IVec S_ 1 := (fun x v => Host.reduce IntOp.andi x v reducesTo_S2000x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S2000x7 .f32) (main_arg5 : FVec F S2000x7 .f32) (main_arg6 : FVec F S2000x2 .f32) (main_arg7 : FVec F S2000x2 .f32) (main_arg8 : FVec F S2 .f32) (main_arg9 : FVec F S2 .f32) (main_v13 : IVec S_ 1) (main_v16 : IVec S8388608x2 1) : IVec S_ 1 :=
  let main_c_5 : IVec S_ 1 := constantI S_ 1 1#1
  let main_v17 : IVec S_ 1 := (fun x v => Host.reduce IntOp.andi x v reducesTo_S8388608x2_S_d0_1 h_S_) main_v16 main_c_5
  let main_v18 : IVec S_ 1 := andi main_v13 main_v17
  let main_v19 : FVec F S2000x7 .f32 := Host.absf main_arg4
  let main_cst_6 : FVec F S_ .f32 := constant S_ .f32 0x7F800000#32
  let main_v20 : FVec F S2000x7 .f32 := broadcastInDim S2000x7 ![] bcast_S_S2000x7 main_cst_6
  let main_v21 : IVec S2000x7 1 := cmpf .olt main_v19 main_v20
  let main_c_7 : IVec S_ 1 := constantI S_ 1 1#1
  let main_v22 : IVec S_ 1 := (fun x v => Host.reduce IntOp.andi x v reducesTo_S2000x7_S_d0_1 h_S_) main_v21 main_c_7
  let main_v23 : IVec S_ 1 := andi main_v18 main_v22
  let main_v24 : FVec F S2000x7 .f32 := Host.absf main_arg5
  let main_cst_8 : FVec F S_ .f32 := constant S_ .f32 0x7F800000#32
  let main_v25 : FVec F S2000x7 .f32 := broadcastInDim S2000x7 ![] bcast_S_S2000x7 main_cst_8
  let main_v26 : IVec S2000x7 1 := cmpf .olt main_v24 main_v25
  let main_c_9 : IVec S_ 1 := constantI S_ 1 1#1
  let main_v27 : IVec S_ 1 := (fun x v => Host.reduce IntOp.andi x v reducesTo_S2000x7_S_d0_1 h_S_) main_v26 main_c_9
  let main_v28 : IVec S_ 1 := andi main_v23 main_v27
  let main_v29 : FVec F S2000x2 .f32 := Host.absf main_arg6
  let main_cst_10 : FVec F S_ .f32 := constant S_ .f32 0x7F800000#32
  let main_v30 : FVec F S2000x2 .f32 := broadcastInDim S2000x2 ![] bcast_S_S2000x2 main_cst_10
  let main_v31 : IVec S2000x2 1 := cmpf .olt main_v29 main_v30
  let main_c_11 : IVec S_ 1 := constantI S_ 1 1#1
  let main_v32 : IVec S_ 1 := (fun x v => Host.reduce IntOp.andi x v reducesTo_S2000x2_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x4000 .f32) (main_arg1 : FVec F S256x4000 .f32) (main_arg2 : FVec F S512000x7 .f32) (main_arg3 : FVec F S8388608x2 .f32) (main_arg4 : FVec F S2000x7 .f32) (main_arg5 : FVec F S2000x7 .f32) (main_arg6 : FVec F S2000x2 .f32) (main_arg7 : FVec F S2000x2 .f32) (main_arg8 : FVec F S2 .f32) (main_arg9 : FVec F S2 .f32) (main_arg10 : IVec S2x8388608 32) (main_arg11 : IVec S2000 1) : IVec S_ 1 :=
  let main_v0 : FVec F S256x4000 .f32 := Host.absf main_arg0
  let main_cst : FVec F S_ .f32 := constant S_ .f32 0x7F800000#32
  let main_v1 : FVec F S256x4000 .f32 := broadcastInDim S256x4000 ![] bcast_S_S256x4000 main_cst
  let main_v2 : IVec S256x4000 1 := cmpf .olt main_v0 main_v1
  let main_c : IVec S_ 1 := constantI S_ 1 1#1
  let main_v3 : IVec S_ 1 := (fun x v => Host.reduce IntOp.andi x v reducesTo_S256x4000_S_d0_1 h_S_) main_v2 main_c
  let main_v4 : FVec F S256x4000 .f32 := Host.absf main_arg1
  let main_cst_0 : FVec F S_ .f32 := constant S_ .f32 0x7F800000#32
  let main_v5 : FVec F S256x4000 .f32 := broadcastInDim S256x4000 ![] bcast_S_S256x4000 main_cst_0
  let main_v6 : IVec S256x4000 1 := cmpf .olt main_v4 main_v5
  let main_c_1 : IVec S_ 1 := constantI S_ 1 1#1
  let main_v7 : IVec S_ 1 := (fun x v => Host.reduce IntOp.andi x v reducesTo_S256x4000_S_d0_1 h_S_) main_v6 main_c_1
  let main_v8 : IVec S_ 1 := andi main_v3 main_v7
  let main_v9 : FVec F S512000x7 .f32 := Host.absf main_arg2
  let main_cst_2 : FVec F S_ .f32 := constant S_ .f32 0x7F800000#32
  let main_v10 : FVec F S512000x7 .f32 := broadcastInDim S512000x7 ![] bcast_S_S512000x7 main_cst_2
  let main_v11 : IVec S512000x7 1 := cmpf .olt main_v9 main_v10
  let main_c_3 : IVec S_ 1 := constantI S_ 1 1#1
  let main_v12 : IVec S_ 1 := (fun x v => Host.reduce IntOp.andi x v reducesTo_S512000x7_S_d0_1 h_S_) main_v11 main_c_3
  let main_v13 : IVec S_ 1 := andi main_v8 main_v12
  let main_v14 : FVec F S8388608x2 .f32 := Host.absf main_arg3
  let main_cst_4 : FVec F S_ .f32 := constant S_ .f32 0x7F800000#32
  let main_v15 : FVec F S8388608x2 .f32 := broadcastInDim S8388608x2 ![] bcast_S_S8388608x2 main_cst_4
  let main_v16 : IVec S8388608x2 1 := cmpf .olt main_v14 main_v15
  fn_part1 (F := F) main_arg4 main_arg5 main_arg6 main_arg7 main_arg8 main_arg9 main_v13 main_v16
-- ==== Kernel.lean ====
abbrev S256x4000 : Shape := ⟨2, ![256, 4000]⟩
abbrev S512000x7 : Shape := ⟨2, ![512000, 7]⟩
abbrev S8388608x2 : Shape := ⟨2, ![8388608, 2]⟩
abbrev S2000x7 : Shape := ⟨2, ![2000, 7]⟩
abbrev S2000x2 : Shape := ⟨2, ![2000, 2]⟩
abbrev S2 : Shape := ⟨1, ![2]⟩
abbrev S2x8388608 : Shape := ⟨2, ![2, 8388608]⟩
abbrev S2000 : Shape := ⟨1, ![2000]⟩
abbrev S4000 : Shape := ⟨1, ![4000]⟩
abbrev S1x4000 : Shape := ⟨2, ![1, 4000]⟩
abbrev S1x1 : Shape := ⟨2, ![1, 1]⟩
abbrev S256 : Shape := ⟨1, ![256]⟩
abbrev S256x1 : Shape := ⟨2, ![256, 1]⟩
abbrev S1 : Shape := ⟨1, ![1]⟩
abbrev S_ : Shape := ⟨0, ![]⟩
abbrev S1x2000x1x2 : Shape := ⟨4, ![1, 2000, 1, 2]⟩
abbrev S256x2000x1x2 : Shape := ⟨4, ![256, 2000, 1, 2]⟩
abbrev S512000x2 : Shape := ⟨2, ![512000, 2]⟩
abbrev S512000x4 : Shape := ⟨2, ![512000, 4]⟩
abbrev S1x8388608 : Shape := ⟨2, ![1, 8388608]⟩
abbrev S8388608 : Shape := ⟨1, ![8388608]⟩
abbrev S4x512000 : Shape := ⟨2, ![4, 512000]⟩
abbrev S8388608x1 : Shape := ⟨2, ![8388608, 1]⟩
abbrev S4x8388608 : Shape := ⟨2, ![4, 8388608]⟩
abbrev S2x1 : Shape := ⟨2, ![2, 1]⟩
abbrev S4x131072 : Shape := ⟨2, ![4, 131072]⟩
abbrev S2x131072 : Shape := ⟨2, ![2, 131072]⟩
abbrev S131072 : Shape := ⟨1, ![131072]⟩
abbrev S1x131072 : Shape := ⟨2, ![1, 131072]⟩
abbrev S512000 : Shape := ⟨1, ![512000]⟩
abbrev S512000x1 : Shape := ⟨2, ![512000, 1]⟩
abbrev S1x2000 : Shape := ⟨2, ![1, 2000]⟩
abbrev S256x2000 : Shape := ⟨2, ![256, 2000]⟩

abbrev nBuf : Space → Nat
  | .hbm => 104
  | .vmem => 16
  | .smem => 0
  | _ => 0

abbrev bufTy : (tb : Table) → Fin (tcTables nBuf tb) → BufTy
  | .hbm, ⟨0, _⟩ => ⟨S256x4000, .f32⟩
  | .hbm, ⟨1, _⟩ => ⟨S256x4000, .f32⟩
  | .hbm, ⟨2, _⟩ => ⟨S512000x7, .f32⟩
  | .hbm, ⟨3, _⟩ => ⟨S8388608x2, .f32⟩
  | .hbm, ⟨4, _⟩ => ⟨S2000x7, .f32⟩
  | .hbm, ⟨5, _⟩ => ⟨S2000x7, .f32⟩
  | .hbm, ⟨6, _⟩ => ⟨S2000x2, .f32⟩
  | .hbm, ⟨7, _⟩ => ⟨S2000x2, .f32⟩
  | .hbm, ⟨8, _⟩ => ⟨S2, .f32⟩
  | .hbm, ⟨9, _⟩ => ⟨S2, .f32⟩
  | .hbm, ⟨10, _⟩ => ⟨S2x8388608, .i32⟩
  | .hbm, ⟨11, _⟩ => ⟨S2000, .i1⟩
  | .hbm, ⟨12, _⟩ => ⟨S4000, .f32⟩
  | .hbm, ⟨13, _⟩ => ⟨S1x4000, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2000x2, .f32⟩
  | .hbm, ⟨19, _⟩ => ⟨S1x2000x1x2, .f32⟩
  | .hbm, ⟨20, _⟩ => ⟨S256x2000x1x2, .f32⟩
  | .hbm, ⟨21, _⟩ => ⟨S512000x2, .f32⟩
  | .hbm, ⟨22, _⟩ => ⟨S2000x2, .f32⟩
  | .hbm, ⟨23, _⟩ => ⟨S1x2000x1x2, .f32⟩
  | .hbm, ⟨24, _⟩ => ⟨S256x2000x1x2, .f32⟩
  | .hbm, ⟨25, _⟩ => ⟨S512000x2, .f32⟩
  | .hbm, ⟨26, _⟩ => ⟨S1x2000x1x2, .f32⟩
  | .hbm, ⟨27, _⟩ => ⟨S256x2000x1x2, .f32⟩
  | .hbm, ⟨28, _⟩ => ⟨S512000x2, .f32⟩
  | .hbm, ⟨29, _⟩ => ⟨S1x2000x1x2, .f32⟩
  | .hbm, ⟨30, _⟩ => ⟨S256x2000x1x2, .f32⟩
  | .hbm, ⟨31, _⟩ => ⟨S512000x2, .f32⟩
  | .hbm, ⟨32, _⟩ => ⟨S512000x2, .f32⟩
  | .hbm, ⟨33, _⟩ => ⟨S512000x2, .f32⟩
  | .hbm, ⟨34, _⟩ => ⟨S512000x2, .f32⟩
  | .hbm, ⟨35, _⟩ => ⟨S512000x2, .f32⟩
  | .hbm, ⟨36, _⟩ => ⟨S512000x2, .f32⟩
  | .hbm, ⟨37, _⟩ => ⟨S512000x2, .f32⟩
  | .hbm, ⟨38, _⟩ => ⟨S_, .f32⟩
  | .hbm, ⟨39, _⟩ => ⟨S512000x2, .f32⟩
  | .hbm, ⟨40, _⟩ => ⟨S512000x2, .f32⟩
  | .hbm, ⟨41, _⟩ => ⟨S512000x4, .f32⟩
  | .hbm, ⟨42, _⟩ => ⟨S1x8388608, .i32⟩
  | .hbm, ⟨43, _⟩ => ⟨S8388608, .i32⟩
  | .hbm, ⟨44, _⟩ => ⟨S1x8388608, .i32⟩
  | .hbm, ⟨45, _⟩ => ⟨S8388608, .i32⟩
  | .hbm, ⟨46, _⟩ => ⟨S4x512000, .f32⟩
  | .hbm, ⟨47, _⟩ => ⟨S_, .i32⟩
  | .hbm, ⟨48, _⟩ => ⟨S8388608, .i32⟩
  | .hbm, ⟨49, _⟩ => ⟨S8388608, .i1⟩
  | .hbm, ⟨50, _⟩ => ⟨S_, .i32⟩
  | .hbm, ⟨51, _⟩ => ⟨S8388608, .i32⟩
  | .hbm, ⟨52, _⟩ => ⟨S8388608, .i32⟩
  | .hbm, ⟨53, _⟩ => ⟨S8388608, .i32⟩
  | .hbm, ⟨54, _⟩ => ⟨S8388608x1, .i32⟩
  | .hbm, ⟨55, _⟩ => ⟨S4x8388608, .f32⟩
  | .hbm, ⟨56, _⟩ => ⟨S_, .i32⟩
  | .hbm, ⟨57, _⟩ => ⟨S8388608, .i32⟩
  | .hbm, ⟨58, _⟩ => ⟨S8388608, .i1⟩
  | .hbm, ⟨59, _⟩ => ⟨S_, .i32⟩
  | .hbm, ⟨60, _⟩ => ⟨S8388608, .i32⟩
  | .hbm, ⟨61, _⟩ => ⟨S8388608, .i32⟩
  | .hbm, ⟨62, _⟩ => ⟨S8388608, .i32⟩
  | .hbm, ⟨63, _⟩ => ⟨S8388608x1, .i32⟩
  | .hbm, ⟨64, _⟩ => ⟨S4x8388608, .f32⟩
  | .hbm, ⟨65, _⟩ => ⟨S2x8388608, .f32⟩
  | .hbm, ⟨66, _⟩ => ⟨S2x1, .f32⟩
  | .hbm, ⟨67, _⟩ => ⟨S2x1, .f32⟩
  | .hbm, ⟨68, _⟩ => ⟨S8388608, .f32⟩
  | .hbm, ⟨69, _⟩ => ⟨S8388608, .f32⟩
  | .hbm, ⟨70, _⟩ => ⟨S_, .f32⟩
  | .hbm, ⟨71, _⟩ => ⟨S512000, .f32⟩
  | .hbm, ⟨72, _⟩ => ⟨S8388608x1, .i32⟩
  | .hbm, ⟨73, _⟩ => ⟨S512000, .f32⟩
  | .hbm, ⟨74, _⟩ => ⟨S_, .f32⟩
  | .hbm, ⟨75, _⟩ => ⟨S512000, .f32⟩
  | .hbm, ⟨76, _⟩ => ⟨S8388608x1, .i32⟩
  | .hbm, ⟨77, _⟩ => ⟨S512000, .f32⟩
  | .hbm, ⟨78, _⟩ => ⟨S512000, .f32⟩
  | .hbm, ⟨79, _⟩ => ⟨S512000x1, .f32⟩
  | .hbm, ⟨80, _⟩ => ⟨S512000, .f32⟩
  | .hbm, ⟨81, _⟩ => ⟨S512000, .f32⟩
  | .hbm, ⟨82, _⟩ => ⟨S512000, .f32⟩
  | .hbm, ⟨83, _⟩ => ⟨S512000x1, .f32⟩
  | .hbm, ⟨84, _⟩ => ⟨S512000, .f32⟩
  | .hbm, ⟨85, _⟩ => ⟨S512000, .f32⟩
  | .hbm, ⟨86, _⟩ => ⟨S512000, .f32⟩
  | .hbm, ⟨87, _⟩ => ⟨S512000, .f32⟩
  | .hbm, ⟨88, _⟩ => ⟨S512000, .f32⟩
  | .hbm, ⟨89, _⟩ => ⟨S1x2000, .i1⟩
  | .hbm, ⟨90, _⟩ => ⟨S256x2000, .i1⟩
  | .hbm, ⟨91, _⟩ => ⟨S512000, .i1⟩
  | .hbm, ⟨92, _⟩ => ⟨S512000, .f32⟩
  | .hbm, ⟨93, _⟩ => ⟨S512000, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S256x4000, .f32⟩
  | .local _ .vmem, ⟨1, _⟩ => ⟨S256x4000, .f32⟩
  | .local _ .vmem, ⟨2, _⟩ => ⟨S1x4000, .f32⟩
  | .local _ .vmem, ⟨3, _⟩ => ⟨S1x1, .f32⟩
  | .local _ .vmem, ⟨4, _⟩ => ⟨S4x131072, .f32⟩
  | .local _ .vmem, ⟨5, _⟩ => ⟨S4x131072, .f32⟩
  | .local _ .vmem, ⟨6, _⟩ => ⟨S4x131072, .f32⟩
  | .local _ .vmem, ⟨7, _⟩ => ⟨S4x131072, .f32⟩
  | .local _ .vmem, ⟨8, _⟩ => ⟨S2x131072, .f32⟩
  | .local _ .vmem, ⟨9, _⟩ => ⟨S2x131072, .f32⟩
  | .local _ .vmem, ⟨10, _⟩ => ⟨S2x1, .f32⟩
  | .local _ .vmem, ⟨11, _⟩ => ⟨S2x1, .f32⟩
  | .local _ .vmem, ⟨12, _⟩ => ⟨S131072, .f32⟩
  | .local _ .vmem, ⟨13, _⟩ => ⟨S131072, .f32⟩
  | .local _ .vmem, ⟨14, _⟩ => ⟨S131072, .f32⟩
  | .local _ .vmem, ⟨15, _⟩ => ⟨S131072, .f32⟩
  | _, _ => ⟨S256x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_c_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_2 : Ref sig .tc := ⟨.hbm, 56, rfl⟩
abbrev main_v40 : Ref sig .tc := ⟨.hbm, 57, rfl⟩
abbrev main_v41 : Ref sig .tc := ⟨.hbm, 58, rfl⟩
abbrev main_c_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50_0 : Ref sig .tc := ⟨.hbm, 68, rfl⟩
abbrev main_v50_1 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_6 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_cst_9 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S131072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S131072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S2000x2_S4000 : S2000x2.ShapeCasts S4000
  shapeCasts_S4000_S1x4000 : S4000.ShapeCasts S1x4000
  inb_S256x4000_S256x4000_0_0 : ∀ a, (![0, 0] : Fin 2 → Nat) a + S256x4000.size a ≤ S256x4000.size a
  h_S256x4000 : 0 < S256x4000.numel
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  broadcasts_S1x4000_S256x4000 : S1x4000.Broadcasts S256x4000
  reduces_S256x4000_S256 : S256x4000.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  slices_S2000x7_S2000x2_0_0 : S2000x7.Slices ![0, 0] S2000x2
  shapeCasts_S2000x2_S1x2000x1x2 : S2000x2.ShapeCasts S1x2000x1x2
  bcast_S1x2000x1x2_S256x2000x1x2_0_1_2_3 : S1x2000x1x2.BroadcastsInDim S256x2000x1x2 (![0, 1, 2, 3] : Fin 4 → Fin S256x2000x1x2.rank)
  shapeCasts_S256x2000x1x2_S512000x2 : S256x2000x1x2.ShapeCasts S512000x2
  shapeCasts_S256x4000_S512000x2 : S256x4000.ShapeCasts S512000x2
  slices_S512000x7_S512000x2_0_0 : S512000x7.Slices ![0, 0] S512000x2
  bcast_S_S512000x2 : S_.BroadcastsInDim S512000x2 (![] : Fin 0 → Fin S512000x2.rank)
  concatenates_S512000x2_S512000x2_S512000x4_d1 : Shape.Concatenates [S512000x2, S512000x2] S512000x4 1
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  transposes_S512000x4_S4x512000_1_0 : S512000x4.Transposes [1, 0] S4x512000
  bcast_S_S8388608 : S_.BroadcastsInDim S8388608 (![] : Fin 0 → Fin S8388608.rank)
  bcast_S8388608_S8388608x1_0 : S8388608.BroadcastsInDim S8388608x1 (![0] : Fin 1 → Fin S8388608x1.rank)
  transposes_S8388608x2_S2x8388608_1_0 : S8388608x2.Transposes [1, 0] S2x8388608
  shapeCasts_S2_S2x1 : S2.ShapeCasts S2x1
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  inb_S2x131072_S2x131072_0_0 : ∀ a, (![0, 0] : Fin 2 → Nat) a + S2x131072.size a ≤ S2x131072.size a
  h_S2x131072 : 0 < S2x131072.numel
  shapeCasts_S2x131072_S2x131072 : S2x131072.ShapeCasts S2x131072
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x131072 : S2x1.Broadcasts S2x131072
  slices_S2x131072_o0_0_S1x131072 : S2x131072.Slices ![0, 0] S1x131072
  shapeCasts_S1x131072_S131072 : S1x131072.ShapeCasts S131072
  slices_S2x131072_o1_0_S1x131072 : S2x131072.Slices ![1, 0] S1x131072
  slices_S4x131072_o0_0_S1x131072 : S4x131072.Slices ![0, 0] S1x131072
  slices_S4x131072_o1_0_S1x131072 : S4x131072.Slices ![1, 0] S1x131072
  inb_S131072_S131072_0 : ∀ a, (![0] : Fin 1 → Nat) a + S131072.size a ≤ S131072.size a
  h_S131072 : 0 < S131072.numel
  bcast_S_S512000 : S_.BroadcastsInDim S512000 (![] : Fin 0 → Fin S512000.rank)
  slices_S512000x4_S512000x1_0_2 : S512000x4.Slices ![0, 2] S512000x1
  shapeCasts_S512000x1_S512000 : S512000x1.ShapeCasts S512000
  slices_S512000x4_S512000x1_0_3 : S512000x4.Slices ![0, 3] S512000x1
  shapeCasts_S2000_S1x2000 : S2000.ShapeCasts S1x2000
  bcast_S1x2000_S256x2000_0_1 : S1x2000.BroadcastsInDim S256x2000 (![0, 1] : Fin 2 → Fin S256x2000.rank)
  shapeCasts_S256x2000_S512000 : S256x2000.ShapeCasts S512000
  reducesTo_S512000_S_d0 : S512000.ReducesTo [0] S_
  h_S_ : 0 < S_.numel
  gather_S4x512000_S8388608x1_S4x8388608_0_1_n_n_1_1_41_wf : GatherDims.WF S4x512000 S8388608x1 S4x8388608 [0] [1] [] [1] [] 1 ![4, 1]
  scatter_S512000_S8388608x1_S8388608_n_0_0_1_wf : ScatterDims.WF S512000 S8388608x1 S8388608 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4000.size a ≤ S256x4000.size a
  hwx0_0 : ∀ i : grid0.Coords, EltTy.bits .f32 = 32 ∨ (Rect.block (s := S256x4000) S256x4000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4000.size a ≤ S256x4000.size a
  hwx0_1 : ∀ i : grid0.Coords, EltTy.bits .f32 = 32 ∨ (Rect.block (s := S256x4000) S256x4000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4000.size a ≤ S1x4000.size a
  hwx0_2 : ∀ i : grid0.Coords, EltTy.bits .f32 = 32 ∨ (Rect.block (s := S1x4000) S1x4000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x131072.size a ≤ S4x8388608.size a
  hwx1_0 : ∀ i : grid1.Coords, EltTy.bits .f32 = 32 ∨ (Rect.block (s := S4x8388608) S4x131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x131072.size a ≤ S4x8388608.size a
  hwx1_1 : ∀ i : grid1.Coords, EltTy.bits .f32 = 32 ∨ (Rect.block (s := S4x8388608) S4x131072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x131072.size a ≤ S2x8388608.size a
  hwx1_2 : ∀ i : grid1.Coords, EltTy.bits .f32 = 32 ∨ (Rect.block (s := S2x8388608) S2x131072.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1.size a ≤ S2x1.size a
  hwx1_3 : ∀ i : grid1.Coords, EltTy.bits .f32 = 32 ∨ (Rect.block (s := S2x1) S2x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x1.size a ≤ S2x1.size a
  hwx1_4 : ∀ i : grid1.Coords, EltTy.bits .f32 = 32 ∨ (Rect.block (s := S2x1) S2x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S131072.size a ≤ S8388608.size a
  hwx1_5 : ∀ i : grid1.Coords, EltTy.bits .f32 = 32 ∨ (Rect.block (s := S8388608) S131072.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S131072.size a ≤ S8388608.size a
  hwx1_6 : ∀ i : grid1.Coords, EltTy.bits .f32 = 32 ∨ (Rect.block (s := S8388608) S131072.size (cc1_transform_6 i) (hinb1_6 i)).WholeWords (EltTy.packing .f32)

variable [Facts₀]

def gather_S4x512000_S8388608x1_S4x8388608_0_1_n_n_1_1_41 : GatherDims S4x512000 S8388608x1 S4x8388608 where
  offsetDims := [0]
  collapsedSliceDims := [1]
  operandBatchingDims := []
  startIndicesBatchingDims := []
  startIndexMap := [1]
  indexVectorDim := 1
  sliceSizes := ![4, 1]
  wf := gather_S4x512000_S8388608x1_S4x8388608_0_1_n_n_1_1_41_wf
def scatter_S512000_S8388608x1_S8388608_n_0_0_1 : ScatterDims S512000 S8388608x1 S8388608 where
  updateWindowDims := []
  insertedWindowDims := [0]
  scatterDimsToOperandDims := [0]
  indexVectorDim := 1
  wf := scatter_S512000_S8388608x1_S8388608_n_0_0_1_wf

abbrev win0_0 : Pipeline.Window sig grid0 :=
  Pipeline.Window.ofSpec (Memref.whole main_arg0) S256x4000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S4x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2x131072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50_0) S131072.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v50_1) S131072.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x4000 : Shape := ⟨2, ![256, 4000]⟩
abbrev S512000x7 : Shape := ⟨2, ![512000, 7]⟩
abbrev S8388608x2 : Shape := ⟨2, ![8388608, 2]⟩
abbrev S2000x7 : Shape := ⟨2, ![2000, 7]⟩
abbrev S2000x2 : Shape := ⟨2, ![2000, 2]⟩
abbrev S2 : Shape := ⟨1, ![2]⟩
abbrev S2x8388608 : Shape := ⟨2, ![2, 8388608]⟩
abbrev S2000 : Shape := ⟨1, ![2000]⟩
abbrev S256x2000x2 : Shape := ⟨3, ![256, 2000, 2]⟩
abbrev S1x2000x2 : Shape := ⟨3, ![1, 2000, 2]⟩
abbrev S_ : Shape := ⟨0, ![]⟩
abbrev S256x2000x7 : Shape := ⟨3, ![256, 2000, 7]⟩
abbrev S512000x2 : Shape := ⟨2, ![512000, 2]⟩
abbrev S512000x4 : Shape := ⟨2, ![512000, 4]⟩
abbrev S1x2 : Shape := ⟨2, ![1, 2]⟩
abbrev S1x8388608 : Shape := ⟨2, ![1, 8388608]⟩
abbrev S8388608 : Shape := ⟨1, ![8388608]⟩
abbrev S8388608x1 : Shape := ⟨2, ![8388608, 1]⟩
abbrev S8388608x4 : Shape := ⟨2, ![8388608, 4]⟩
abbrev S512000x1 : Shape := ⟨2, ![512000, 1]⟩
abbrev S512000 : Shape := ⟨1, ![512000]⟩
abbrev S1x2000 : Shape := ⟨2, ![1, 2000]⟩
abbrev S256x2000 : Shape := ⟨2, ![256, 2000]⟩

abbrev nBuf : Space → Nat
  | .hbm => 172
  | .vmem => 0
  | .smem => 0
  | _ => 0

abbrev hbmTy0_0 (i : Nat) : BufTy := match i % 128 with
  | 0 => ⟨S256x4000, .f32⟩
  | 1 => ⟨S256x4000, .f32⟩
  | 2 => ⟨S512000x7, .f32⟩
  | 3 => ⟨S8388608x2, .f32⟩
  | 4 => ⟨S2000x7, .f32⟩
  | 5 => ⟨S2000x7, .f32⟩
  | 6 => ⟨S2000x2, .f32⟩
  | 7 => ⟨S2000x2, .f32⟩
  | 8 => ⟨S2, .f32⟩
  | 9 => ⟨S2, .f32⟩
  | 10 => ⟨S2x8388608, .i32⟩
  | 11 => ⟨S2000, .i1⟩
  | 12 => ⟨S256x2000x2, .f32⟩
  | 13 => ⟨S1x2000x2, .f32⟩
  | 14 => ⟨S256x2000x2, .f32⟩
  | 15 => ⟨S256x2000x2, .f32⟩
  | 16 => ⟨S1x2000x2, .f32⟩
  | 17 => ⟨S256x2000x2, .f32⟩
  | 18 => ⟨S256x2000x2, .f32⟩
  | 19 => ⟨S256x2000x2, .f32⟩
  | 20 => ⟨S1x2000x2, .f32⟩
  | 21 => ⟨S256x2000x2, .f32⟩
  | 22 => ⟨S256x2000x2, .f32⟩
  | 23 => ⟨S1x2000x2, .f32⟩
  | 24 => ⟨S256x2000x2, .f32⟩
  | 25 => ⟨S256x2000x2, .f32⟩
  | 26 => ⟨S256x2000x2, .f32⟩
  | 27 => ⟨S256x2000x2, .f32⟩
  | 28 => ⟨S_, .f32⟩
  | 29 => ⟨S_, .f32⟩
  | 30 => ⟨S_, .f32⟩
  | 31 => ⟨S_, .f32⟩
  | 32 => ⟨S256x2000x7, .f32⟩
  | 33 => ⟨S256x2000x2, .f32⟩
  | 34 => ⟨S2000x2, .f32⟩
  | 35 => ⟨S1x2000x2, .f32⟩
  | 36 => ⟨S256x2000x2, .f32⟩
  | 37 => ⟨S256x2000x2, .f32⟩
  | 38 => ⟨S2000x2, .f32⟩
  | 39 => ⟨S1x2000x2, .f32⟩
  | 40 => ⟨S256x2000x2, .f32⟩
  | 41 => ⟨S256x2000x2, .f32⟩
  | 42 => ⟨S512000x2, .f32⟩
  | 43 => ⟨S_, .f32⟩
  | 44 => ⟨S512000x2, .f32⟩
  | 45 => ⟨S512000x2, .f32⟩
  | 46 => ⟨S512000x2, .f32⟩
  | 47 => ⟨S512000x4, .f32⟩
  | 48 => ⟨S1x2, .f32⟩
  | 49 => ⟨S8388608x2, .f32⟩
  | 50 => ⟨S8388608x2, .f32⟩
  | 51 => ⟨S1x2, .f32⟩
  | 52 => ⟨S8388608x2, .f32⟩
  | 53 => ⟨S8388608x2, .f32⟩
  | 54 => ⟨S1x8388608, .i32⟩
  | 55 => ⟨S8388608, .i32⟩
  | 56 => ⟨S1x8388608, .i32⟩
  | 57 => ⟨S8388608, .i32⟩
  | 58 => ⟨S_, .i32⟩
  | 59 => ⟨S8388608, .i32⟩
  | 60 => ⟨S8388608, .i1⟩
  | 61 => ⟨S_, .i32⟩
  | 62 => ⟨S8388608, .i32⟩
  | 63 => ⟨S8388608, .i32⟩
  | 64 => ⟨S8388608, .i32⟩
  | 65 => ⟨S8388608x1, .i32⟩
  | 66 => ⟨S8388608x4, .f32⟩
  | 67 => ⟨S_, .i32⟩
  | 68 => ⟨S8388608, .i32⟩
  | 69 => ⟨S8388608, .i1⟩
  | 70 => ⟨S_, .i32⟩
  | 71 => ⟨S8388608, .i32⟩
  | 72 => ⟨S8388608, .i32⟩
  | 73 => ⟨S8388608, .i32⟩
  | 74 => ⟨S8388608x1, .i32⟩
  | 75 => ⟨S8388608x4, .f32⟩
  | 76 => ⟨S8388608x1, .f32⟩
  | 77 => ⟨S8388608, .f32⟩
  | 78 => ⟨S8388608x1, .f32⟩
  | 79 => ⟨S8388608, .f32⟩
  | 80 => ⟨S8388608, .f32⟩
  | 81 => ⟨S8388608, .f32⟩
  | 82 => ⟨S8388608, .f32⟩
  | 83 => ⟨S8388608, .f32⟩
  | 84 => ⟨S8388608, .f32⟩
  | 85 => ⟨S8388608, .f32⟩
  | 86 => ⟨S8388608x1, .f32⟩
  | 87 => ⟨S8388608, .f32⟩
  | 88 => ⟨S8388608x1, .f32⟩
  | 89 => ⟨S8388608, .f32⟩
  | 90 => ⟨S_, .f32⟩
  | 91 => ⟨S8388608, .f32⟩
  | 92 => ⟨S8388608, .f32⟩
  | 93 => ⟨S8388608x1, .f32⟩
  | 94 => ⟨S8388608, .f32⟩
  | 95 => ⟨S8388608x1, .f32⟩
  | 96 => ⟨S8388608, .f32⟩
  | 97 => ⟨S_, .f32⟩
  | 98 => ⟨S8388608, .f32⟩
  | 99 => ⟨S8388608, .f32⟩
  | 100 => ⟨S8388608, .f32⟩
  | 101 => ⟨S8388608, .f32⟩
  | 102 => ⟨S8388608, .f32⟩
  | 103 => ⟨S8388608, .f32⟩
  | 104 => ⟨S8388608, .f32⟩
  | 105 => ⟨S8388608, .f32⟩
  | 106 => ⟨S8388608, .f32⟩
  | 107 => ⟨S8388608, .f32⟩
  | 108 => ⟨S8388608, .f32⟩
  | 109 => ⟨S8388608, .f32⟩
  | 110 => ⟨S8388608, .f32⟩
  | 111 => ⟨S8388608, .f32⟩
  | 112 => ⟨S8388608, .f32⟩
  | 113 => ⟨S8388608, .f32⟩
  | 114 => ⟨S8388608, .f32⟩
  | 115 => ⟨S8388608, .f32⟩
  | 116 => ⟨S8388608, .f32⟩
  | 117 => ⟨S8388608, .f32⟩
  | 118 => ⟨S8388608, .f32⟩
  | 119 => ⟨S8388608, .f32⟩
  | 120 => ⟨S8388608, .f32⟩
  | 121 => ⟨S8388608, .f32⟩
  | 122 => ⟨S8388608, .f32⟩
  | 123 => ⟨S8388608, .f32⟩
  | 124 => ⟨S8388608, .f32⟩
  | 125 => ⟨S8388608, .f32⟩
  | 126 => ⟨S8388608, .f32⟩
  | 127 => ⟨S8388608, .f32⟩
  | _ => ⟨S256x4000, .f32⟩

abbrev hbmTy0_1 (i : Nat) : BufTy := match i % 128 with
  | 0 => ⟨S8388608, .f32⟩
  | 1 => ⟨S8388608, .f32⟩
  | 2 => ⟨S8388608, .f32⟩
  | 3 => ⟨S8388608, .f32⟩
  | 4 => ⟨S8388608, .f32⟩
  | 5 => ⟨S8388608, .f32⟩
  | 6 => ⟨S8388608, .f32⟩
  | 7 => ⟨S8388608x1, .f32⟩
  | 8 => ⟨S8388608x1, .f32⟩
  | 9 => ⟨S8388608x2, .f32⟩
  | 10 => ⟨S_, .f32⟩
  | 11 => ⟨S512000x2, .f32⟩
  | 12 => ⟨S8388608x1, .i32⟩
  | 13 => ⟨S512000x2, .f32⟩
  | 14 => ⟨S512000x1, .f32⟩
  | 15 => ⟨S512000, .f32⟩
  | 16 => ⟨S512000, .f32⟩
  | 17 => ⟨S512000x1, .f32⟩
  | 18 => ⟨S512000, .f32⟩
  | 19 => ⟨S512000, .f32⟩
  | 20 => ⟨S512000x1, .f32⟩
  | 21 => ⟨S512000, .f32⟩
  | 22 => ⟨S512000, .f32⟩
  | 23 => ⟨S512000x1, .f32⟩
  | 24 => ⟨S512000, .f32⟩
  | 25 => ⟨S512000, .f32⟩
  | 26 => ⟨S512000, .f32⟩
  | 27 => ⟨S512000, .f32⟩
  | 28 => ⟨S512000, .f32⟩
  | 29 => ⟨S1x2000, .i1⟩
  | 30 => ⟨S256x2000, .i1⟩
  | 31 => ⟨S512000, .i1⟩
  | 32 => ⟨S512000, .f32⟩
  | 33 => ⟨S512000, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S256x4000, .f32⟩

abbrev hbmTy (i : Nat) : BufTy := match i / 128 with
  | 0 => hbmTy0_0 i
  | 1 => hbmTy0_1 i
  | _ => ⟨S256x4000, .f32⟩

abbrev bufTy : (tb : Table) → Fin (tcTables nBuf tb) → BufTy
  | .hbm, ⟨i, _⟩ => hbmTy i
  | _, _ => ⟨S256x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_v44 : Ref sig .tc := ⟨.hbm, 60, rfl⟩
abbrev main_c_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_3 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_5 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_7 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_8 : Ref sig .tc := ⟨.hbm, 162, rfl⟩
abbrev main_v140 : Ref sig .tc := ⟨.hbm, 163, rfl⟩
abbrev main_cst_9 : Ref sig .tc := ⟨.hbm, 164, rfl⟩
abbrev main_v141 : Ref sig .tc := ⟨.hbm, 165, rfl⟩
abbrev main_v142 : Ref sig .tc := ⟨.hbm, 166, rfl⟩
abbrev main_cst_10 : Ref sig .tc := ⟨.hbm, 167, rfl⟩
abbrev main_v143 : Ref sig .tc := ⟨.hbm, 168, rfl⟩
abbrev main_cst_11 : Ref sig .tc := ⟨.hbm, 169, rfl⟩
abbrev main_v144 : Ref sig .tc := ⟨.hbm, 170, rfl⟩
abbrev main_v145 : Ref sig .tc := ⟨.hbm, 171, rfl⟩

abbrev nD : Nat := 1
abbrev τ : Topo := Topo.v7x

variable {F : FTy → Type} [FloatOps F]

class Facts₀ : Prop where
  shapeCasts_S256x4000_S256x2000x2 : S256x4000.ShapeCasts S256x2000x2
  bcast_S2000x2_S1x2000x2_1_2 : S2000x2.BroadcastsInDim S1x2000x2 (![1, 2] : Fin 2 → Fin S1x2000x2.rank)
  bcast_S1x2000x2_S256x2000x2_0_1_2 : S1x2000x2.BroadcastsInDim S256x2000x2 (![0, 1, 2] : Fin 3 → Fin S256x2000x2.rank)
  reducesTo_S256x2000x2_S_d0_1_2 : S256x2000x2.ReducesTo [0, 1, 2] S_
  h_S_ : 0 < S_.numel
  shapeCasts_S512000x7_S256x2000x7 : S512000x7.ShapeCasts S256x2000x7
  slices_S256x2000x7_S256x2000x2_0_0_0 : S256x2000x7.Slices ![0, 0, 0] S256x2000x2
  slices_S2000x7_S2000x2_0_0 : S2000x7.Slices ![0, 0] S2000x2
  shapeCasts_S256x2000x2_S512000x2 : S256x2000x2.ShapeCasts S512000x2
  bcast_S_S512000x2 : S_.BroadcastsInDim S512000x2 (![] : Fin 0 → Fin S512000x2.rank)
  concatenates_S512000x2_S512000x2_S512000x4_d1 : Shape.Concatenates [S512000x2, S512000x2] S512000x4 1
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  slices_S8388608x4_S8388608x1_0_0 : S8388608x4.Slices ![0, 0] S8388608x1
  slices_S8388608x4_S8388608x1_0_1 : S8388608x4.Slices ![0, 1] S8388608x1
  concatenates_S8388608x1_S8388608x1_S8388608x2_d1 : Shape.Concatenates [S8388608x1, S8388608x1] S8388608x2 1
  slices_S512000x2_S512000x1_0_0 : S512000x2.Slices ![0, 0] S512000x1
  shapeCasts_S512000x1_S512000 : S512000x1.ShapeCasts S512000
  slices_S512000x4_S512000x1_0_2 : S512000x4.Slices ![0, 2] S512000x1
  slices_S512000x2_S512000x1_0_1 : S512000x2.Slices ![0, 1] S512000x1
  slices_S512000x4_S512000x1_0_3 : S512000x4.Slices ![0, 3] S512000x1
  shapeCasts_S2000_S1x2000 : S2000.ShapeCasts S1x2000
  bcast_S1x2000_S256x2000_0_1 : S1x2000.BroadcastsInDim S256x2000 (![0, 1] : Fin 2 → Fin S256x2000.rank)
  shapeCasts_S256x2000_S512000 : S256x2000.ShapeCasts S512000
  reducesTo_S512000_S_d0 : S512000.ReducesTo [0] S_
  gather_S512000x4_S8388608x1_S8388608x4_1_0_n_n_0_1_14_wf : GatherDims.WF S512000x4 S8388608x1 S8388608x4 [1] [0] [] [0] [] 1 ![1, 4]
  scatter_S512000x2_S8388608x1_S8388608x2_1_0_0_1_wf : ScatterDims.WF S512000x2 S8388608x1 S8388608x2 [1] [0] [0] 1

variable [Facts₀]

def gather_S512000x4_S8388608x1_S8388608x4_1_0_n_n_0_1_14 : GatherDims S512000x4 S8388608x1 S8388608x4 where
  offsetDims := [1]
  collapsedSliceDims := [0]
  operandBatchingDims := []
  startIndicesBatchingDims := []
  startIndexMap := [0]
  indexVectorDim := 1
  sliceSizes := ![1, 4]
  wf := gather_S512000x4_S8388608x1_S8388608x4_1_0_n_n_0_1_14_wf
def scatter_S512000x2_S8388608x1_S8388608x2_1_0_0_1 : ScatterDims S512000x2 S8388608x1 S8388608x2 where
  updateWindowDims := [1]
  insertedWindowDims := [0]
  scatterDimsToOperandDims := [0]
  indexVectorDim := 1
  wf := scatter_S512000x2_S8388608x1_S8388608x2_1_0_0_1_wf

class Facts : Prop extends Facts₀ where

variable [Facts]
-- ==== Proof.Frames.lean ====
/-
  The three frame claims. Each program, run from a memory whose float inputs are finite, terminates without a fault
  and leaves its twelve argument arrays as they were. For the two kernel programs this is the generated frame of the
  two-region pipeline; the reference has no kernel, and its frame is its run with the result forgotten.
-/
import proofs.«118159_j69690139345431_2_alg».proof.Defs
import proofs.«118159_j69690139345431_2_alg».proof.Proof.Gen.Kernel.Frame
import proofs.«118159_j69690139345431_2_alg».proof.Proof.Gen.KernelIdeal.Frame
import proofs.«118159_j69690139345431_2_alg».proof.Proof.RefRunPatched
import proofs.«118159_j69690139345431_2_alg».proof.Proof.Gen.Pre_finite_inputs

noncomputable section

open Idealize.ShloMosaic Idealize.ShloMosaic.TcCoe Idealize.SL.Sem

namespace Cert.Proof.Frames

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

end Cert.Proof.Frames

end
-- ==== Proof.KRun.lean ====
/-
  The idealized kernel program's run, with its result named.

  The program is five stretches: two host reshapes, the mean-squared-error region, the host operations that build the
  node table, gather the edges' end buses and lay the operands out edge-major, the per-edge power-flow region, and the
  host operations that scatter the flows back onto the buses and reduce to the loss. The buffer contents at each
  boundary are a fold from the launch memory: a host stretch applies its operations, a region replaces its output
  arrays by what its write-backs leave and keeps every other buffer. Every weakly fair execution terminates without a
  fault in a state where every unscoped buffer holds the last boundary's contents; in particular the result buffer holds
  the fold's value there, and the twelve argument arrays, which nothing writes, hold what they held at launch.
-/
import proofs.«118159_j69690139345431_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v78) = W5 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v78 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.RunValue

end
-- ==== Proof.KTerms.lean ====
/-
  The idealized kernel program's host stages as functions of arrays.

  Around its two regions the program computes, on the host: the scale row for the error term (the [2000,2] table of
  target scales read as a row of 4000); the node table x_phys : [512000,4] (per node: voltage magnitude, voltage angle
  in degrees, active and reactive injection in per-unit) from the predictions, the inputs and the per-bus statistics
  repeated over the 256 snapshots; the two rows of edge end points; the node table transposed and its columns gathered
  at the (wrapped) end points, giving the [4, E] operands of the per-edge region; the edge attributes transposed and the
  two statistics stood up as columns; and, after the region, the flows scattered back onto the buses, the power
  imbalance per bus, its masked mean, and the weighted sum with the error term. Each definition below is one of these
  stages, written with the program's own operations and dimension facts in the program's order.
-/
import proofs.«118159_j69690139345431_2_alg».proof.KernelIdeal

noncomputable section

namespace Cert.KernelIdeal.Terms

open Cert.KernelIdeal Idealize.ShloMosaic
open Cert.KernelIdeal.Facts₀ Cert.KernelIdeal.Facts

variable {F : FTy → Type} [FloatOps F] [Facts]

/-- The target scales [2000,2] read as a row [1,4000]. -/
def scaleRow (a7 : FVec F S2000x2 .f32) : FVec F S1x4000 .f32 :=
  shapeCast S1x4000 (shapeCast S4000 a7 shapeCasts_S2000x2_S4000) shapeCasts_S4000_S1x4000

/-- A per-bus table [2000,2] repeated over the 256 snapshots: [512000,2]. -/
def tile (a : FVec F S2000x2 .f32) : FVec F S512000x2 .f32 :=
  shapeCast S512000x2
    (broadcastInDim S256x2000x1x2 ![0, 1, 2, 3] bcast_S1x2000x1x2_S256x2000x1x2_0_1_2_3
      (shapeCast S1x2000x1x2 a shapeCasts_S2000x2_S1x2000x1x2))
    shapeCasts_S256x2000x1x2_S512000x2

/-- The first two columns of a [2000,7] statistics table. -/
def cut7 (a : FVec F S2000x7 .f32) : FVec F S2000x2 .f32 :=
  extractStridedSlice S2000x2 ![0, 0] a slices_S2000x7_S2000x2_0_0

/-- Voltage magnitude and angle per node: prediction · scale + offset. -/
def volt (a0 : FVec F S256x4000 .f32) (a6 a7 : FVec F S2000x2 .f32) : FVec F S512000x2 .f32 :=
  addf (mulf (shapeCast S512000x2 a0 shapeCasts_S256x4000_S512000x2) (tile a7)) (tile a6)

/-- Active and reactive injection per node, in per-unit: (input · scale + offset) / 100. -/
def inj (a2 : FVec F S512000x7 .f32) (a4 a5 : FVec F S2000x7 .f32) : FVec F S512000x2 .f32 :=
  Host.divf
    (addf (mulf (extractStridedSlice S512000x2 ![0, 0] a2 slices_S512000x7_S512000x2_0_0) (tile (cut7 a5))) (tile (cut7 a4)))
    (broadcastInDim S512000x2 ![] bcast_S_S512000x2 (constant S_ .f32 0x42C80000#32))

/-- The node table [512000,4]: voltage columns, then injection columns. -/
def node (a0 : FVec F S256x4000 .f32) (a2 : FVec F S512000x7 .f32) (a4 a5 : FVec F S2000x7 .f32)
    (a6 a7 : FVec F S2000x2 .f32) : FVec F S512000x4 .f32 :=
  concatenate S512000x4 1 [⟨S512000x2, volt a0 a6 a7⟩, ⟨S512000x2, inj a2 a4 a5⟩]
    concatenates_S512000x2_S512000x2_S512000x4_d1

/-- The edges' first end points (the aggregation targets). -/
def ends0 (a10 : IVec S2x8388608 32) : IVec S8388608 32 :=
  shapeCast S8388608 (extractStridedSlice S1x8388608 ![0, 0] a10 slices_S2x8388608_S1x8388608_0_0)
    shapeCasts_S1x8388608_S8388608

/-- The edges' second end points. -/
def ends1 (a10 : IVec S2x8388608 32) : IVec S8388608 32 :=
  shapeCast S8388608 (extractStridedSlice S1x8388608 ![1, 0] a10 slices_S2x8388608_S1x8388608_1_0)
    shapeCasts_S1x8388608_S8388608

/-- A negative node number counted from the end: idx < 0 ? idx + 512000 : idx. -/
def wrap (idx : IVec S8388608 32) : IVec S8388608 32 :=
  select (cmpi .slt idx (broadcastInDim S8388608 ![] bcast_S_S8388608 (constantI S_ 32 0#32)))
    (addi idx (broadcastInDim S8388608 ![] bcast_S_S8388608 (constantI S_ 32 512000#32))) idx

/-- A vector of node numbers stood up as a column [E,1]. -/
def col (idx : IVec S8388608 32) : IVec S8388608x1 32 :=
  broadcastInDim S8388608x1 ![0] bcast_S8388608_S8388608x1_0 idx

/-- The node table's columns at the edges' end points: [4, E]. -/
def atEnds (x : FVec F S512000x4 .f32) (idx : IVec S8388608 32) : FVec F S4x8388608 .f32 :=
  Host.gather gather_S4x512000_S8388608x1_S4x8388608_0_1_n_n_1_1_41
    (transpose S4x512000 [1, 0] x transposes_S512000x4_S4x512000_1_0) (col (wrap idx))

/-- The edge attributes edge-major: [2, E]. -/
def attrT (a3 : FVec F S8388608x2 .f32) : FVec F S2x8388608 .f32 :=
  transpose S2x8388608 [1, 0] a3 transposes_S8388608x2_S2x8388608_1_0

/-- A pair of statistics stood up as a column [2,1]. -/
def pairCol (a : FVec F S2 .f32) : FVec F S2x1 .f32 := shapeCast S2x1 a shapeCasts_S2_S2x1

/-- The error term: the region's [1,1] sum as a scalar, over the number of entries. -/
def mseOf (s : FVec F S1x1 .f32) : FVec F S_ .f32 :=
  Host.divf (shapeCast S_ s shapeCasts_S1x1_S_) (constant S_ .f32 0x497A0000#32)

/-- Flows summed onto their target buses. -/
def agg (idx : IVec S8388608 32) (p : FVec F S8388608 .f32) : FVec F S512000 .f32 :=
  Host.scatterAdd scatter_S512000_S8388608x1_S8388608_n_0_0_1
    (broadcastInDim S512000 ![] bcast_S_S512000 (constant S_ .f32 0x00000000#32)) (col idx) p

/-- Column 2 of the node table as a vector. -/
def injP (x : FVec F S512000x4 .f32) : FVec F S512000 .f32 :=
  shapeCast S512000 (extractStridedSlice S512000x1 ![0, 2] x slices_S512000x4_S512000x1_0_2) shapeCasts_S512000x1_S512000

/-- Column 3 of the node table as a vector. -/
def injQ (x : FVec F S512000x4 .f32) : FVec F S512000 .f32 :=
  shapeCast S512000 (extractStridedSlice S512000x1 ![0, 3] x slices_S512000x4_S512000x1_0_3) shapeCasts_S512000x1_S512000

/-- The load-bus mask repeated over the snapshots, as floats. -/
def maskF (a11 : IVec S2000 1) : FVec F S512000 .f32 :=
  uitofp .f32 (shapeCast S512000 (broadcastInDim S256x2000 ![0, 1] bcast_S1x2000_S256x2000_0_1
    (shapeCast S1x2000 a11 shapeCasts_S2000_S1x2000)) shapeCasts_S256x2000_S512000)

/-- The loss from the error term, the aggregated flows, the injections and the mask:
    0.9·mse + 0.002·(∑ (dP² + dQ²)·mask / ∑ mask) with dP = −aggP + injP, dQ = −aggQ + injQ. -/
def loss (mse : FVec F S_ .f32) (aggP aggQ ip iq msk : FVec F S512000 .f32) : FVec F S_ .f32 :=
  addf (mulf (constant S_ .f32 0x3F666666#32) mse)
    (mulf (constant S_ .f32 0x3B03126F#32)
      (Host.divf
        (Host.reduceAdd
          (mulf (addf (mulf (addf (Host.negf aggP) ip) (addf (Host.negf aggP) ip))
                      (mulf (addf (Host.negf aggQ) iq) (addf (Host.negf aggQ) iq))) msk)
          (constant S_ .f32 0x00000000#32) reducesTo_S512000_S_d0 h_S_)
        (Host.reduceAdd msk (constant S_ .f32 0x00000000#32) reducesTo_S512000_S_d0 h_S_)))

end Cert.KernelIdeal.Terms

end
-- ==== Proof.KEval.lean ====
/-
  What the idealized kernel program's three host stretches leave in the buffers that matter, as the stages of the
  program applied to the contents the stretch starts from: the scale row before the first region; the error term's
  quotient, the node table, the edges' end points and the per-edge region's five operands between the regions; the loss
  after the second region. A buffer no operation of a stretch writes keeps its contents.
-/
import proofs.«118159_j69690139345431_2_alg».proof.Proof.Gen.KernelIdeal.Launch
import proofs.«118159_j69690139345431_2_alg».proof.Proof.KTerms
import Idealize.ShloMosaic.Lib.StableHlo.Run

set_option maxRecDepth 16384

noncomputable section

namespace Cert.KernelIdeal.Eval

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (X : Valuation τ sig (Elt F))

/-! ## Before the first region -/

theorem pre_v1 : after hostOps0 X (Proc.devRef .tc main_v1) = scaleRow (X (Proc.devRef .tc main_arg7)) := by
  after_results_simp <;> rfl

theorem pre_arg0 : after hostOps0 X (Proc.devRef .tc main_arg0) = X (Proc.devRef .tc main_arg0) := by
  after_results_simp <;> rfl
theorem pre_arg1 : after hostOps0 X (Proc.devRef .tc main_arg1) = X (Proc.devRef .tc main_arg1) := by
  after_results_simp <;> rfl
theorem pre_arg2 : after hostOps0 X (Proc.devRef .tc main_arg2) = X (Proc.devRef .tc main_arg2) := by
  after_results_simp <;> rfl
theorem pre_arg3 : after hostOps0 X (Proc.devRef .tc main_arg3) = X (Proc.devRef .tc main_arg3) := by
  after_results_simp <;> rfl
theorem pre_arg4 : after hostOps0 X (Proc.devRef .tc main_arg4) = X (Proc.devRef .tc main_arg4) := by
  after_results_simp <;> rfl
theorem pre_arg5 : after hostOps0 X (Proc.devRef .tc main_arg5) = X (Proc.devRef .tc main_arg5) := by
  after_results_simp <;> rfl
theorem pre_arg6 : after hostOps0 X (Proc.devRef .tc main_arg6) = X (Proc.devRef .tc main_arg6) := by
  after_results_simp <;> rfl
theorem pre_arg7 : after hostOps0 X (Proc.devRef .tc main_arg7) = X (Proc.devRef .tc main_arg7) := by
  after_results_simp <;> rfl
theorem pre_arg8 : after hostOps0 X (Proc.devRef .tc main_arg8) = X (Proc.devRef .tc main_arg8) := by
  after_results_simp <;> rfl
theorem pre_arg9 : after hostOps0 X (Proc.devRef .tc main_arg9) = X (Proc.devRef .tc main_arg9) := by
  after_results_simp <;> rfl
theorem pre_arg10 : after hostOps0 X (Proc.devRef .tc main_arg10) = X (Proc.devRef .tc main_arg10) := by
  after_results_simp <;> rfl
theorem pre_arg11 : after hostOps0 X (Proc.devRef .tc main_arg11) = X (Proc.devRef .tc main_arg11) := by
  after_results_simp <;> rfl

/-! ## Between the regions -/

set_option maxHeartbeats 4000000 in
theorem mid_v4 : after hostOps1 X (Proc.devRef .tc main_v4) = mseOf (X (Proc.devRef .tc main_v2)) := by
  after_results_simp <;> rfl

set_option maxHeartbeats 4000000 in
theorem mid_v27 : after hostOps1 X (Proc.devRef .tc main_v27) = (node (X (Proc.devRef .tc main_arg0)) (X (Proc.devRef .tc main_arg2)) (X (Proc.devRef .tc main_arg4)) (X (Proc.devRef .tc main_arg5)) (X (Proc.devRef .tc main_arg6)) (X (Proc.devRef .tc main_arg7))) := by
  after_results_simp <;> rfl

set_option maxHeartbeats 4000000 in
theorem mid_v29 : after hostOps1 X (Proc.devRef .tc main_v29) = ends0 (X (Proc.devRef .tc main_arg10)) := by
  after_results_simp <;> rfl

set_option maxHeartbeats 4000000 in
theorem mid_v39 : after hostOps1 X (Proc.devRef .tc main_v39) = atEnds (node (X (Proc.devRef .tc main_arg0)) (X (Proc.devRef .tc main_arg2)) (X (Proc.devRef .tc main_arg4)) (X (Proc.devRef .tc main_arg5)) (X (Proc.devRef .tc main_arg6)) (X (Proc.devRef .tc main_arg7))) (ends0 (X (Proc.devRef .tc main_arg10))) := by
  after_results_simp <;> rfl

set_option maxHeartbeats 4000000 in
theorem mid_v46 : after hostOps1 X (Proc.devRef .tc main_v46) = atEnds (node (X (Proc.devRef .tc main_arg0)) (X (Proc.devRef .tc main_arg2)) (X (Proc.devRef .tc main_arg4)) (X (Proc.devRef .tc main_arg5)) (X (Proc.devRef .tc main_arg6)) (X (Proc.devRef .tc main_arg7))) (ends1 (X (Proc.devRef .tc main_arg10))) := by
  after_results_simp <;> rfl

set_option maxHeartbeats 4000000 in
theorem mid_v47 : after hostOps1 X (Proc.devRef .tc main_v47) = attrT (X (Proc.devRef .tc main_arg3)) := by
  after_results_simp <;> rfl

set_option maxHeartbeats 4000000 in
theorem mid_v48 : after hostOps1 X (Proc.devRef .tc main_v48) = pairCol (X (Proc.devRef .tc main_arg8)) := by
  after_results_simp <;> rfl

set_option maxHeartbeats 4000000 in
theorem mid_v49 : after hostOps1 X (Proc.devRef .tc main_v49) = pairCol (X (Proc.devRef .tc main_arg9)) := by
  after_results_simp <;> rfl

set_option maxHeartbeats 4000000 in
theorem mid_arg11 : after hostOps1 X (Proc.devRef .tc main_arg11) = X (Proc.devRef .tc main_arg11) := by
  after_results_simp <;> rfl

/-! ## After the second region -/

set_option maxHeartbeats 4000000 in
theorem tail_v78 : after hostOps2 X (Proc.devRef .tc main_v78)
    = loss (X (Proc.devRef .tc main_v4)) (agg (X (Proc.devRef .tc main_v29)) (X (Proc.devRef .tc main_v50_0))) (agg (X (Proc.devRef .tc main_v29)) (X (Proc.devRef .tc main_v50_1)))
        (injP (X (Proc.devRef .tc main_v27))) (injQ (X (Proc.devRef .tc main_v27))) (maskF (X (Proc.devRef .tc main_arg11))) := by
  after_results_simp <;> rfl

end Cert.KernelIdeal.Eval

end
-- ==== Proof.KVal.lean ====
/-
  The result of the idealized kernel program, read back through the fold of its five stretches.

  Region 0 reads the two prediction arrays and the scale row and writes the [1,1] sum; region 1 reads the five per-edge
  operands and writes the two flow vectors; no host operation and no region writes an argument. So at region 0's entry
  the scale row is the scale table re-laid and the predictions are as launched; at region 1's entry its operands are the
  host stages of the launch arguments; and the final result is the loss of the error term's quotient of region 0's
  output array, the two scattered sums of region 1's output arrays, the node table's injection columns and the mask.
-/
import proofs.«118159_j69690139345431_2_alg».proof.Proof.Gen.KernelIdeal.Frame
import proofs.«118159_j69690139345431_2_alg».proof.Proof.KEval

set_option maxRecDepth 16384

noncomputable section

namespace Cert.KernelIdeal.Fold

open Cert.KernelIdeal Cert.KernelIdeal.Gen Cert.KernelIdeal.Terms Cert.KernelIdeal.Eval
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry -/

theorem V1_arg0 (c : Dev nD) : V1 m ρ c main_arg0 = (m ((c : Thread nD τ).loc main_arg0)) := pre_arg0 (W0 m ρ c)
theorem V1_arg1 (c : Dev nD) : V1 m ρ c main_arg1 = (m ((c : Thread nD τ).loc main_arg1)) := pre_arg1 (W0 m ρ c)
theorem V1_v1 (c : Dev nD) : V1 m ρ c main_v1 = scaleRow (m ((c : Thread nD τ).loc main_arg7)) := pre_v1 (W0 m ρ c)

/-! ## Region 0's exit: the arguments are as launched -/

theorem W2_arg0 (c : Dev nD) : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (V1_arg0 m ρ c)))
theorem W2_arg2 (c : Dev nD) : W2 m ρ c (Proc.devRef .tc main_arg2) = (m ((c : Thread nD τ).loc main_arg2)) :=
  (W2_of_ne m ρ c main_arg2 (by decide)).trans (pre_arg2 (W0 m ρ c))
theorem W2_arg3 (c : Dev nD) : W2 m ρ c (Proc.devRef .tc main_arg3) = (m ((c : Thread nD τ).loc main_arg3)) :=
  (W2_of_ne m ρ c main_arg3 (by decide)).trans (pre_arg3 (W0 m ρ c))
theorem W2_arg4 (c : Dev nD) : W2 m ρ c (Proc.devRef .tc main_arg4) = (m ((c : Thread nD τ).loc main_arg4)) :=
  (W2_of_ne m ρ c main_arg4 (by decide)).trans (pre_arg4 (W0 m ρ c))
theorem W2_arg5 (c : Dev nD) : W2 m ρ c (Proc.devRef .tc main_arg5) = (m ((c : Thread nD τ).loc main_arg5)) :=
  (W2_of_ne m ρ c main_arg5 (by decide)).trans (pre_arg5 (W0 m ρ c))
theorem W2_arg6 (c : Dev nD) : W2 m ρ c (Proc.devRef .tc main_arg6) = (m ((c : Thread nD τ).loc main_arg6)) :=
  (W2_of_ne m ρ c main_arg6 (by decide)).trans (pre_arg6 (W0 m ρ c))
theorem W2_arg7 (c : Dev nD) : W2 m ρ c (Proc.devRef .tc main_arg7) = (m ((c : Thread nD τ).loc main_arg7)) :=
  (W2_of_ne m ρ c main_arg7 (by decide)).trans (pre_arg7 (W0 m ρ c))
theorem W2_arg8 (c : Dev nD) : W2 m ρ c (Proc.devRef .tc main_arg8) = (m ((c : Thread nD τ).loc main_arg8)) :=
  (W2_of_ne m ρ c main_arg8 (by decide)).trans (pre_arg8 (W0 m ρ c))
theorem W2_arg9 (c : Dev nD) : W2 m ρ c (Proc.devRef .tc main_arg9) = (m ((c : Thread nD τ).loc main_arg9)) :=
  (W2_of_ne m ρ c main_arg9 (by decide)).trans (pre_arg9 (W0 m ρ c))
theorem W2_arg10 (c : Dev nD) : W2 m ρ c (Proc.devRef .tc main_arg10) = (m ((c : Thread nD τ).loc main_arg10)) :=
  (W2_of_ne m ρ c main_arg10 (by decide)).trans (pre_arg10 (W0 m ρ c))
theorem W2_arg11 (c : Dev nD) : W2 m ρ c (Proc.devRef .tc main_arg11) = (m ((c : Thread nD τ).loc main_arg11)) :=
  (W2_of_ne m ρ c main_arg11 (by decide)).trans (pre_arg11 (W0 m ρ c))

/-- Region 0's output array is the sum it wrote. -/
theorem W2_v2 (c : Dev nD) : W2 m ρ c (Proc.devRef .tc main_v2) = (dat0 (V1 m ρ) c).arrAt 3 cfg0.N := W2_arr m ρ c 3

/-! ## Region 1's entry -/

theorem W3_node (c : Dev nD) : W3 m ρ c (Proc.devRef .tc main_v27) = (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))) := by
  show after hostOps1 (W2 m ρ c) (Proc.devRef .tc main_v27) = _
  rw [mid_v27, W2_arg0, W2_arg2, W2_arg4, W2_arg5, W2_arg6, W2_arg7]

theorem V3_v39 (c : Dev nD) : V3 m ρ c main_v39 = atEnds (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))) (ends0 (m ((c : Thread nD τ).loc main_arg10))) := by
  show after hostOps1 (W2 m ρ c) (Proc.devRef .tc main_v39) = _
  rw [mid_v39, W2_arg0, W2_arg2, W2_arg4, W2_arg5, W2_arg6, W2_arg7, W2_arg10]

theorem V3_v46 (c : Dev nD) : V3 m ρ c main_v46 = atEnds (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))) (ends1 (m ((c : Thread nD τ).loc main_arg10))) := by
  show after hostOps1 (W2 m ρ c) (Proc.devRef .tc main_v46) = _
  rw [mid_v46, W2_arg0, W2_arg2, W2_arg4, W2_arg5, W2_arg6, W2_arg7, W2_arg10]

theorem V3_v47 (c : Dev nD) : V3 m ρ c main_v47 = attrT (m ((c : Thread nD τ).loc main_arg3)) := by
  show after hostOps1 (W2 m ρ c) (Proc.devRef .tc main_v47) = _
  rw [mid_v47, W2_arg3]

theorem V3_v48 (c : Dev nD) : V3 m ρ c main_v48 = pairCol (m ((c : Thread nD τ).loc main_arg8)) := by
  show after hostOps1 (W2 m ρ c) (Proc.devRef .tc main_v48) = _
  rw [mid_v48, W2_arg8]

theorem V3_v49 (c : Dev nD) : V3 m ρ c main_v49 = pairCol (m ((c : Thread nD τ).loc main_arg9)) := by
  show after hostOps1 (W2 m ρ c) (Proc.devRef .tc main_v49) = _
  rw [mid_v49, W2_arg9]

/-! ## Region 1's exit -/

theorem W4_v4 (c : Dev nD) : W4 m ρ c (Proc.devRef .tc main_v4) = mseOf ((dat0 (V1 m ρ) c).arrAt 3 cfg0.N) := by
  rw [W4_of_ne m ρ c main_v4 (by decide)]
  show after hostOps1 (W2 m ρ c) (Proc.devRef .tc main_v4) = _
  rw [mid_v4, W2_v2]

theorem W4_v27 (c : Dev nD) : W4 m ρ c (Proc.devRef .tc main_v27) = (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))) :=
  (W4_of_ne m ρ c main_v27 (by decide)).trans (W3_node m ρ c)

theorem W4_v29 (c : Dev nD) : W4 m ρ c (Proc.devRef .tc main_v29) = ends0 (m ((c : Thread nD τ).loc main_arg10)) := by
  rw [W4_of_ne m ρ c main_v29 (by decide)]
  show after hostOps1 (W2 m ρ c) (Proc.devRef .tc main_v29) = _
  rw [mid_v29, W2_arg10]

theorem W4_arg11 (c : Dev nD) : W4 m ρ c (Proc.devRef .tc main_arg11) = (m ((c : Thread nD τ).loc main_arg11)) := by
  rw [W4_of_ne m ρ c main_arg11 (by decide)]
  show after hostOps1 (W2 m ρ c) (Proc.devRef .tc main_arg11) = _
  rw [mid_arg11, W2_arg11]

theorem W4_v50_0 (c : Dev nD) : W4 m ρ c (Proc.devRef .tc main_v50_0) = (dat1 (V3 m ρ) c).arrAt 5 cfg1.N := W4_arr m ρ c 5
theorem W4_v50_1 (c : Dev nD) : W4 m ρ c (Proc.devRef .tc main_v50_1) = (dat1 (V3 m ρ) c).arrAt 6 cfg1.N := W4_arr m ρ c 6

/-! ## The result -/

/-- The result buffer's final contents: the loss of the two regions' output arrays and the launch arguments. -/
theorem result (c : Dev nD) : W5 m ρ c (Proc.devRef .tc main_v78)
    = loss (mseOf ((dat0 (V1 m ρ) c).arrAt 3 cfg0.N))
        (agg (ends0 (m ((c : Thread nD τ).loc main_arg10))) ((dat1 (V3 m ρ) c).arrAt 5 cfg1.N))
        (agg (ends0 (m ((c : Thread nD τ).loc main_arg10))) ((dat1 (V3 m ρ) c).arrAt 6 cfg1.N))
        (injP (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)))) (injQ (node (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)))) (maskF (m ((c : Thread nD τ).loc main_arg11))) := by
  show after hostOps2 (W4 m ρ c) (Proc.devRef .tc main_v78) = _
  rw [tail_v78, W4_v4, W4_v27, W4_v29, W4_arg11, W4_v50_0, W4_v50_1]

end Cert.KernelIdeal.Fold

end
-- ==== Proof.ScaleRow.lean ====
/-
  The error term's scale row read at a column.

  The [2000,2] table of target scales is cast to a vector of 4000 and then to a row [1,4000]; both casts keep the
  row-major position, so column q of the row is entry (q / 2, q % 2) of the table.
-/
import proofs.«118159_j69690139345431_2_alg».proof.Proof.KTerms
import Idealize.ShloMosaic.Lib.ValueIdx
import Idealize.ShloMosaic.Lib.ValueLayout
import Idealize.ShloMosaic.Lib.Pipeline.Value

noncomputable section

namespace Cert.KernelIdeal.Terms

open Cert.KernelIdeal Idealize.ShloMosaic Idealize.ShloMosaic.ValueIdx

variable [Cert.KernelIdeal.Facts]

/-- Column q of the scale row is entry (q / 2, q % 2) of the scale table. -/
theorem scaleRow_apply (a7 : FVec Ideal S2000x2 .f32) (u : Fin 1) (q : Fin 4000) :
    scaleRow a7 (ix2 u q) = a7 (ix2 ⟨q.val / 2, by omega⟩ ⟨q.val % 2, by omega⟩) := by
  unfold scaleRow
  rw [shapeCast_a_1a_apply]
  exact shapeCast_apply _ _ _ _ (by
    rw [Shape.rowMajor_val_two, Shape.rowMajor_val_one]
    show q.val / 2 * 2 + q.val % 2 = q.val
    omega)

end Cert.KernelIdeal.Terms

end
-- ==== Proof.Region0Value.lean ====
/-
  The squared-error kernel's output array in closed form.

  The kernel runs at one grid point on whole arrays: two [256,4000] arrays a, b and one [1,4000] row w. The body forms
  d = a − b, scales every row of d by w, squares entrywise, sums each row over its 4000 columns, and sums the 256 row
  sums. At the extended reals each lane sum is a finite sum from zero, so the one entry of the [1,1] output is
  Σ_b Σ_q ((a[b,q] − b[b,q]) · w[0,q])², the square written as a product. Whatever the arrays hold when the region is
  entered, the output array ends holding that number: the one point's block is the whole array.
-/
import proofs.«118159_j69690139345431_2_alg».proof.Proof.Gen.KernelIdeal.Frame
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic -/

/-- A vector cast to a column, `[a]` to `[a,1]`, reads at `(i, u)` the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The sum over the 4000 columns of a [256,4000] vector, from the zero word, read at row `b`. -/
theorem rowSum_apply (src : FVec Ideal S256x4000 .f32) (b : Fin 256) :
    multiReduction .add [1] S256 src 0x00000000#32 reduces_S256x4000_S256 (.inl rfl) rfl (ix1 b)
      = ∑ q : Fin 4000, src (ix2 b q) := by
  refine (Ideal.multiReduction_add_single src 0x00000000#32 reduces_S256x4000_S256 (.inl rfl) rfl (ix1 b)).trans ?_
  show (∑ q : Fin 4000, src (reduces_S256x4000_S256.lift (ix1 b) q)) = _
  refine Finset.sum_congr rfl fun q _ => congrArg src ?_
  funext a
  match a with
  | ⟨0, _⟩ => exact Fin.ext rfl
  | ⟨1, _⟩ => exact Fin.ext rfl

/-- The sum over the 256 rows of a [256,1] column, from the zero word, read at its one entry. -/
theorem colSum_apply (src : FVec Ideal S256x1 .f32) (u : Fin 1) :
    multiReduction .add [0] S1 src 0x00000000#32 reduces_S256x1_S1 (.inl rfl) rfl (ix1 u)
      = ∑ b : Fin 256, src (ix2 b u) := by
  refine (Ideal.multiReduction_add_single src 0x00000000#32 reduces_S256x1_S1 (.inl rfl) rfl (ix1 u)).trans ?_
  show (∑ b : Fin 256, src (reduces_S256x1_S1.lift (ix1 u) b)) = _
  refine Finset.sum_congr rfl fun b _ => congrArg src ?_
  funext a
  match a with
  | ⟨0, _⟩ => exact Fin.ext rfl
  | ⟨1, _⟩ => exact Fin.ext rfl

/-- The summed squared scaled difference of two [256,4000] arrays `a`, `b` and a [1,4000] row `w`:
    Σ_p Σ_q ((a[p,q] − b[p,q]) · w[0,q]) · ((a[p,q] − b[p,q]) · w[0,q]). -/
def sqErrOf (a b : S256x4000.Idx → EReal) (w : S1x4000.Idx → EReal) : EReal :=
  ∑ p : Fin 256, ∑ q : Fin 4000,
    ((a (ix2 p q) - b (ix2 p q)) * w (ix2 (0 : Fin 1) q)) * ((a (ix2 p q) - b (ix2 p q)) * w (ix2 (0 : Fin 1) q))

/-- THE PAYLOAD: the one entry of the body's result is the double sum of the squared scaled differences. -/
theorem mse_pay (x0 x1 : Vec Ideal S256x4000 .f32) (x2 : Vec Ideal S1x4000 .f32) (j : S1x1.Idx) :
    k0_pay1 x0 x1 x2 j = sqErrOf x0 x1 x2 := by
  obtain ⟨u, w, rfl⟩ : ∃ (u w : Fin 1), j = ix2 u w := ⟨j 0, j 1, eq_ix2 j⟩
  unfold sqErrOf k0_pay1
  dsimp only
  refine (shapeCast_a_1a_apply _ shapeCasts_S1_S1x1 u w).trans ?_
  refine (colSum_apply _ w).trans ?_
  refine Finset.sum_congr rfl fun b _ => ?_
  refine (shapeCast_a_a1_apply _ shapeCasts_S256_S256x1 b w).trans ?_
  refine (rowSum_apply _ b).trans ?_
  refine Finset.sum_congr rfl fun q _ => ?_
  rw [shapeCast_self]
  show ((x0 (ix2 b q) - x1 (ix2 b q)) * broadcastTo S256x4000 x2 broadcasts_S1x4000_S256x4000 (ix2 b q))
      * ((x0 (ix2 b q) - x1 (ix2 b q)) * broadcastTo S256x4000 x2 broadcasts_S1x4000_S256x4000 (ix2 b q)) = _
  rw [broadcastTo_1b_ab_apply]

/-! ## The function of the arrays -/

variable (V : (c : Dev nD) → (b : Ref sig .tc) → Buf (Elt Ideal) ((c : Thread nD τ).loc b))

/-- The summed squared scaled difference of the two arrays as the region finds them, at the output's one entry. -/
def sqErr (c : Dev nD) : S1x1.Idx → Elt Ideal .f32 := fun _ =>
  sqErrOf (V c main_arg0) (V c main_arg1) (V c main_v1)

/-- That function at an entry, written out. -/
theorem sqErr_apply (c : Dev nD) (i : S1x1.Idx) :
    sqErr V c i = sqErrOf (V c main_arg0) (V c main_arg1) (V c main_v1) := rfl

/-! ## Each window's block is its whole array -/

theorem hz : (![0, 0] : Fin 2 → Nat) = fun _ => 0 := funext fun a => by fin_cases a <;> rfl

/-- Every window's block index is zero on both axes at the one grid point. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first array's block read at `(b, q)` is the array there. -/
theorem arg0_blk (c : Dev nD) (t : Fin cfg0.N) (b : Fin 256) (q : Fin 4000) :
    (iblk0 V c 0 t : Vec Ideal S256x4000 .f32) (ix2 b q) = (V c main_arg0 : S256x4000.Idx → Elt Ideal .f32) (ix2 b q) := by
  obtain ⟨h0, h1, -⟩ := idx_facts0 t
  unfold iblk0
  rw [View.read_apply]
  show V c main_arg0 _ = V c main_arg0 _
  congr 1
  funext a
  apply Fin.ext
  match a with
  | ⟨0, _⟩ => show win0_0.index t (0 : Fin 2) * 256 + 1 * b.val = b.val; rw [h0]; omega
  | ⟨1, _⟩ => show win0_0.index t (1 : Fin 2) * 4000 + 1 * q.val = q.val; rw [h1]; omega

/-- The second array's block read at `(b, q)` is the array there. -/
theorem arg1_blk (c : Dev nD) (t : Fin cfg0.N) (b : Fin 256) (q : Fin 4000) :
    (iblk0 V c 1 t : Vec Ideal S256x4000 .f32) (ix2 b q) = (V c main_arg1 : S256x4000.Idx → Elt Ideal .f32) (ix2 b q) := by
  obtain ⟨-, -, h0, h1, -⟩ := idx_facts0 t
  unfold iblk0
  rw [View.read_apply]
  show V c main_arg1 _ = V c main_arg1 _
  congr 1
  funext a
  apply Fin.ext
  match a with
  | ⟨0, _⟩ => show win0_1.index t (0 : Fin 2) * 256 + 1 * b.val = b.val; rw [h0]; omega
  | ⟨1, _⟩ => show win0_1.index t (1 : Fin 2) * 4000 + 1 * q.val = q.val; rw [h1]; omega

/-- The row's block read at `(0, q)` is the row there. -/
theorem row_blk (c : Dev nD) (t : Fin cfg0.N) (q : Fin 4000) :
    (iblk0 V c 2 t : Vec Ideal S1x4000 .f32) (ix2 (0 : Fin 1) q) = (V c main_v1 : S1x4000.Idx → Elt Ideal .f32) (ix2 (0 : Fin 1) q) := by
  obtain ⟨-, -, -, -, h0, h1, -⟩ := idx_facts0 t
  unfold iblk0
  rw [View.read_apply]
  show V c main_v1 _ = V c main_v1 _
  congr 1
  funext a
  apply Fin.ext
  match a with
  | ⟨0, _⟩ => show win0_2.index t (0 : Fin 2) * 1 + 1 * 0 = 0; rw [h0]
  | ⟨1, _⟩ => show win0_2.index t (1 : Fin 2) * 4000 + 1 * q.val = q.val; rw [h1]; omega

/-! ## What the point writes back, and the array after the region -/

/-- The body's result on the windows' blocks is the summed squared scaled difference of the arrays. -/
theorem block_eq (c : Dev nD) (t : Fin cfg0.N) (j : S1x1.Idx) :
    k0_pay1 (iblk0 V c 0 t) (iblk0 V c 1 t) (iblk0 V c 2 t) j = sqErr V c (((cfg0.win 3).blk t).view.emb j) := by
  refine (mse_pay (iblk0 V c 0 t) (iblk0 V c 1 t) (iblk0 V c 2 t) j).trans ?_
  rw [sqErr_apply]
  unfold sqErrOf
  refine Finset.sum_congr rfl fun b _ => Finset.sum_congr rfl fun q _ => ?_
  rw [arg0_blk V c t b q, arg1_blk V c t b q, row_blk V c t q]

/-- WHAT THE POINT WRITES BACK is the block of that function. -/
theorem flushed_eq (c : Dev nD) (t : Fin cfg0.N) :
    (dat0 (F := Ideal) V c).flushed 3 t = ((cfg0.win 3).blk t).view.read (Elt Ideal) (sqErr V c) := by
  show (cfg0.win 3).cut (grid0.coords t) ((dat0 V c).after 3 t) = _
  rw [after0_3]
  unfold out0_3
  rw [View.canon_unit_zero hz]
  simp only [View.ld_unit_zero (S := S256x4000) hz, View.ld_unit_zero (S := S1x4000) hz]
  funext j
  exact block_eq V c t j

/-- An entry of the output array is in the point's block iff its coordinates are in the block's ranges. -/
theorem mem_blk (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v2).slice (win0_3.rect t)).set ↔ _
  rw [View.set_slice_whole, Rect.mem_set_unit]
  exact Iff.rfl

/-- The one point's block is the whole output array. -/
theorem cover (i : S1x1.Idx) : ∃ t : Fin cfg0.N, (cfg0.win 3).flush t = true ∧ i ∈ ((cfg0.win 3).blk t).view.set := by
  refine ⟨t0_0, flush0_3 t0_0, ?_⟩
  rw [mem_blk]
  obtain ⟨-, -, -, -, -, -, h0, h1⟩ := idx_facts0 t0_0
  have hi0 : (i 0).val < 1 := (i 0).isLt
  have hi1 : (i 1).val < 1 := (i 1).isLt
  intro a
  match a with
  | ⟨0, _⟩ => show win0_3.index t0_0 (0 : Fin 2) * 1 ≤ (i 0).val ∧ (i 0).val < win0_3.index t0_0 (0 : Fin 2) * 1 + 1; rw [h0]; omega
  | ⟨1, _⟩ => show win0_3.index t0_0 (1 : Fin 2) * 1 ≤ (i 1).val ∧ (i 1).val < win0_3.index t0_0 (1 : Fin 2) * 1 + 1; rw [h1]; omega

/-- THE OUTPUT ARRAY after the region: the summed squared scaled difference, at its one entry. -/
theorem mse_arr (c : Dev nD) : (dat0 (F := Ideal) V c).arrAt 3 cfg0.N = sqErr V c :=
  (dat0 (F := Ideal) V c).arrAt_eq_of_cover 3 (sqErr V c) (fun t _ => flushed_eq V c t) cover

/-- The output array at its one entry. -/
theorem mse_at (c : Dev nD) (i : S1x1.Idx) :
    ((dat0 (F := Ideal) V c).arrAt 3 cfg0.N : S1x1.Idx → Elt Ideal .f32) i
      = sqErrOf (V c main_arg0) (V c main_arg1) (V c main_v1) :=
  congrFun (mse_arr V c) i

end Cert.KernelIdeal.RegionValue

end
-- ==== Proof.EdgeFlow.lean ====
/-
  The per-edge AC power-flow message as a function on the extended reals.

  An edge carries two raw attributes (a0, a1), denormalised by a scale (s0, s1) and an offset (m0, m1) into a series
  resistance r = a0·s0 + m0 and reactance x = a1·s1 + m1; with d = r² + x² its conductance is g = r / d and its
  susceptance b = (−x) / d. Its two end buses carry a voltage magnitude and an angle in degrees; with the angle turned
  into radians by the single-precision constant π/180, a bus's voltage has the rectangular parts e = vm·cos va and
  f = vm·sin va. The active and reactive flows are

      P = g·(e_i e_j − e_i² + f_i f_j − f_i²) + b·(f_i e_j − e_i f_j)
      Q = g·(f_i e_j − e_i f_j) + b·(−e_i e_j + e_i² − f_i f_j + f_i²).

  Every operation is the exact one of the extended reals (the quotient is the ideal quotient with its conventions at a
  zero or infinite divisor), so the two functions are total. A program that writes a negation as "zero minus" computes
  the same functions: 0 − y = −y at every extended real.
-/
import Idealize.ShloMosaic.PureOps.Ideal

noncomputable section

namespace Cert.EdgeFlow

open Idealize.ShloMosaic

/-- The single-precision constant π/180 (degrees to radians), as its binary value. -/
def deg2rad : EReal := Ideal.ofBits .f32 0x3C8EFA35#32

/-- The real part vm·cos(va·π/180) of a bus voltage. -/
def re (vm va : EReal) : EReal := vm * Ideal.cos (va * deg2rad)

/-- The imaginary part vm·sin(va·π/180) of a bus voltage. -/
def im (vm va : EReal) : EReal := vm * Ideal.sin (va * deg2rad)

/-- The squared impedance magnitude r² + x². -/
def den (r x : EReal) : EReal := r * r + x * x

/-- The series conductance r / (r² + x²). -/
def cond (r x : EReal) : EReal := Ideal.div r (den r x)

/-- The series susceptance (−x) / (r² + x²). -/
def susc (r x : EReal) : EReal := Ideal.div (-x) (den r x)

/-- The active flow from the rectangular voltages and the admittance. -/
def pOf (g b ei fi ej fj : EReal) : EReal :=
  g * (ei * ej - ei * ei + fi * fj - fi * fi) + b * (fi * ej - ei * fj)

/-- The reactive flow from the rectangular voltages and the admittance. -/
def qOf (g b ei fi ej fj : EReal) : EReal :=
  g * (fi * ej - ei * fj) + b * (-ei * ej + ei * ei - fi * fj + fi * fi)

/-- The active flow of an edge from its end buses' (magnitude, angle) and its raw attributes, scales and offsets. -/
def flowP (vmi vai vmj vaj a0 a1 s0 s1 m0 m1 : EReal) : EReal :=
  pOf (cond (a0 * s0 + m0) (a1 * s1 + m1)) (susc (a0 * s0 + m0) (a1 * s1 + m1))
    (re vmi vai) (im vmi vai) (re vmj vaj) (im vmj vaj)

/-- The reactive flow of an edge from its end buses' (magnitude, angle) and its raw attributes, scales and offsets. -/
def flowQ (vmi vai vmj vaj a0 a1 s0 s1 m0 m1 : EReal) : EReal :=
  qOf (cond (a0 * s0 + m0) (a1 * s1 + m1)) (susc (a0 * s0 + m0) (a1 * s1 + m1))
    (re vmi vai) (im vmi vai) (re vmj vaj) (im vmj vaj)

/-- Zero minus y is the negative of y, at every extended real. -/
theorem zero_sub' (y : EReal) : (0 : EReal) - y = -y := by
  rw [sub_eq_add_neg, zero_add]

/-- The susceptance with its negation written as "zero minus". -/
theorem susc_zero_sub (r x : EReal) : Ideal.div (0 - x) (den r x) = susc r x := by
  rw [zero_sub']; rfl

/-- The reactive flow with its negation written as "zero minus". -/
theorem qOf_zero_sub (g b ei fi ej fj : EReal) :
    g * (fi * ej - ei * fj) + b * ((0 - ei) * ej + ei * ei - fi * fj + fi * fi) = qOf g b ei fi ej fj := by
  rw [zero_sub']; rfl

end Cert.EdgeFlow

end
-- ==== Proof.Region1Value.lean ====
/-
  The edge kernel's two output arrays in closed form.

  The kernel runs on a grid of 64 points. At point t it sees columns 131072·t … 131072·t + 131071 of the two bus
  arrays (rows: magnitude, angle, and two rows it never reads) and of the edge-attribute array (two rows), the whole
  of the two [2,1] arrays of offsets and scales, and it writes entries 131072·t … 131072·t + 131071 of each output.
  The body is pointwise along the long axis: entry q of a block of the first output is the active flow
  `EdgeFlow.flowP` of column q of the input blocks, and of the second the reactive flow `EdgeFlow.flowQ`.
  So whatever the arrays hold when the region is entered, entry e of the first output array ends at the active flow of
  column e of the input arrays, and of the second at the reactive flow: each point writes its block of that one
  function of the arrays, and the 64 blocks tile the 8388608 entries (entry e is in block e / 131072).
-/
import proofs.«118159_j69690139345431_2_alg».proof.Proof.Gen.KernelIdeal.Frame
import proofs.«118159_j69690139345431_2_alg».proof.Proof.EdgeFlow
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at one column -/

/-- Row `o` of a two-dimensional block, flattened, read at `q`. -/
theorem row_apply {α : Type} {n : Nat} (o : Nat) (X : (⟨2, ![n, 131072]⟩ : Shape).Idx → α)
    (h : (⟨2, ![n, 131072]⟩ : Shape).Slices ![o, 0] ⟨2, ![1, 131072]⟩)
    (h' : (⟨2, ![1, 131072]⟩ : Shape).ShapeCasts ⟨1, ![131072]⟩) (r : Fin n) (hr : r.val = o) (q : Fin 131072) :
    shapeCast ⟨1, ![131072]⟩ (extractStridedSlice ⟨2, ![1, 131072]⟩ ![o, 0] X h) h' (ix1 q) = X (ix2 r q) :=
  (shapeCast_1a_a_apply _ h' q).trans (slice2_axis0_apply o X h (0 : Fin 1) q r (by rw [hr]; rfl))

/-- A column of two entries broadcast along the long axis reads its entry of the row. -/
theorem bcastCol_apply {α : Type} (v : (⟨2, ![2, 1]⟩ : Shape).Idx → α)
    (h : (⟨2, ![2, 1]⟩ : Shape).Broadcasts ⟨2, ![2, 131072]⟩) (r : Fin 2) (q : Fin 131072) :
    broadcastTo ⟨2, ![2, 131072]⟩ v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- A cosine of a vector reads the cosine of the entry, and a sine the sine. -/
theorem cos_apply {s : Shape} {φ : FTy} (x : FVec Ideal s φ) (i : s.Idx) : cos x i = Ideal.cos (x i) := rfl
theorem sin_apply {s : Shape} {φ : FTy} (x : FVec Ideal s φ) (i : s.Idx) : sin x i = Ideal.sin (x i) := rfl

/-- The denormalised edge attributes: attribute times scale plus offset, row by row. -/
theorem attr_apply (x2 : Vec Ideal S2x131072 .f32) (x3 x4 : Vec Ideal S2x1 .f32) (r : Fin 2) (q : Fin 131072) :
    k1_pay5 x2 x3 x4 (ix2 r q) = x2 (ix2 r q) * x4 (ix2 r (0 : Fin 1)) + x3 (ix2 r (0 : Fin 1)) := by
  unfold k1_pay5
  rw [shapeCast_self, shapeCast_self, shapeCast_self]
  show x2 (ix2 r q) * broadcastTo S2x131072 x4 broadcasts_S2x1_S2x131072 (ix2 r q)
      + broadcastTo S2x131072 x3 broadcasts_S2x1_S2x131072 (ix2 r q) = _
  rw [bcastCol_apply, bcastCol_apply]

/-- The series resistance of the column's edge. -/
theorem res_apply (x2 : Vec Ideal S2x131072 .f32) (x3 x4 : Vec Ideal S2x1 .f32) (q : Fin 131072) :
    k1_pay6 x2 x3 x4 (ix1 q) = x2 (ix2 (0 : Fin 2) q) * x4 (ix2 (0 : Fin 2) (0 : Fin 1)) + x3 (ix2 (0 : Fin 2) (0 : Fin 1)) := by
  unfold k1_pay6
  exact (row_apply 0 _ _ _ (0 : Fin 2) rfl q).trans (attr_apply x2 x3 x4 0 q)

/-- The series reactance of the column's edge. -/
theorem rea_apply (x2 : Vec Ideal S2x131072 .f32) (x3 x4 : Vec Ideal S2x1 .f32) (q : Fin 131072) :
    k1_pay7 x2 x3 x4 (ix1 q) = x2 (ix2 (1 : Fin 2) q) * x4 (ix2 (1 : Fin 2) (0 : Fin 1)) + x3 (ix2 (1 : Fin 2) (0 : Fin 1)) := by
  unfold k1_pay7
  exact (row_apply 1 _ _ _ (1 : Fin 2) rfl q).trans (attr_apply x2 x3 x4 1 q)

/-- The conductance of the column's edge. -/
theorem cond_apply (x2 : Vec Ideal S2x131072 .f32) (x3 x4 : Vec Ideal S2x1 .f32) (q : Fin 131072) :
    k1_pay9 x2 x3 x4 (ix1 q)
      = EdgeFlow.cond (x2 (ix2 (0 : Fin 2) q) * x4 (ix2 (0 : Fin 2) (0 : Fin 1)) + x3 (ix2 (0 : Fin 2) (0 : Fin 1)))
          (x2 (ix2 (1 : Fin 2) q) * x4 (ix2 (1 : Fin 2) (0 : Fin 1)) + x3 (ix2 (1 : Fin 2) (0 : Fin 1))) := by
  show Ideal.div (k1_pay6 x2 x3 x4 (ix1 q))
      (k1_pay6 x2 x3 x4 (ix1 q) * k1_pay6 x2 x3 x4 (ix1 q) + k1_pay7 x2 x3 x4 (ix1 q) * k1_pay7 x2 x3 x4 (ix1 q)) = _
  rw [res_apply, rea_apply]
  rfl

/-- The susceptance of the column's edge (the body writes the negation as zero minus). -/
theorem susc_apply (x2 : Vec Ideal S2x131072 .f32) (x3 x4 : Vec Ideal S2x1 .f32) (q : Fin 131072) :
    k1_pay10 x2 x3 x4 (ix1 q)
      = EdgeFlow.susc (x2 (ix2 (0 : Fin 2) q) * x4 (ix2 (0 : Fin 2) (0 : Fin 1)) + x3 (ix2 (0 : Fin 2) (0 : Fin 1)))
          (x2 (ix2 (1 : Fin 2) q) * x4 (ix2 (1 : Fin 2) (0 : Fin 1)) + x3 (ix2 (1 : Fin 2) (0 : Fin 1))) := by
  show Ideal.div (Ideal.ofBits .f32 0x00000000#32 - k1_pay7 x2 x3 x4 (ix1 q))
      (k1_pay6 x2 x3 x4 (ix1 q) * k1_pay6 x2 x3 x4 (ix1 q) + k1_pay7 x2 x3 x4 (ix1 q) * k1_pay7 x2 x3 x4 (ix1 q)) = _
  rw [res_apply, rea_apply, Ideal.ofBits_zero_f32]
  exact EdgeFlow.susc_zero_sub _ _

/-- The real part of the voltage at the first end bus of the column's edge. -/
theorem re_i_apply (x0 : Vec Ideal S4x131072 .f32) (q : Fin 131072) :
    k1_pay15 x0 (ix1 q) = EdgeFlow.re (x0 (ix2 (0 : Fin 4) q)) (x0 (ix2 (1 : Fin 4) q)) := by
  have hm : k1_pay11 x0 (ix1 q) = x0 (ix2 (0 : Fin 4) q) := by
    unfold k1_pay11 k1_pay3; rw [shapeCast_self]; exact row_apply 0 _ _ _ (0 : Fin 4) rfl q
  have ha : k1_pay12 x0 (ix1 q) = x0 (ix2 (1 : Fin 4) q) * EdgeFlow.deg2rad := by
    unfold k1_pay12 k1_pay3; rw [shapeCast_self]
    exact congrArg (· * EdgeFlow.deg2rad) (row_apply 1 _ _ _ (1 : Fin 4) rfl q)
  show k1_pay11 x0 (ix1 q) * Ideal.cos (k1_pay12 x0 (ix1 q)) = _
  rw [hm, ha]; rfl

/-- Its imaginary part. -/
theorem im_i_apply (x0 : Vec Ideal S4x131072 .f32) (q : Fin 131072) :
    k1_pay16 x0 (ix1 q) = EdgeFlow.im (x0 (ix2 (0 : Fin 4) q)) (x0 (ix2 (1 : Fin 4) q)) := by
  have hm : k1_pay11 x0 (ix1 q) = x0 (ix2 (0 : Fin 4) q) := by
    unfold k1_pay11 k1_pay3; rw [shapeCast_self]; exact row_apply 0 _ _ _ (0 : Fin 4) rfl q
  have ha : k1_pay12 x0 (ix1 q) = x0 (ix2 (1 : Fin 4) q) * EdgeFlow.deg2rad := by
    unfold k1_pay12 k1_pay3; rw [shapeCast_self]
    exact congrArg (· * EdgeFlow.deg2rad) (row_apply 1 _ _ _ (1 : Fin 4) rfl q)
  show k1_pay11 x0 (ix1 q) * Ideal.sin (k1_pay12 x0 (ix1 q)) = _
  rw [hm, ha]; rfl

/-- The real part of the voltage at the second end bus of the column's edge. -/
theorem re_j_apply (x1 : Vec Ideal S4x131072 .f32) (q : Fin 131072) :
    k1_pay17 x1 (ix1 q) = EdgeFlow.re (x1 (ix2 (0 : Fin 4) q)) (x1 (ix2 (1 : Fin 4) q)) := by
  have hm : k1_pay13 x1 (ix1 q) = x1 (ix2 (0 : Fin 4) q) := by
    unfold k1_pay13 k1_pay4; rw [shapeCast_self]; exact row_apply 0 _ _ _ (0 : Fin 4) rfl q
  have ha : k1_pay14 x1 (ix1 q) = x1 (ix2 (1 : Fin 4) q) * EdgeFlow.deg2rad := by
    unfold k1_pay14 k1_pay4; rw [shapeCast_self]
    exact congrArg (· * EdgeFlow.deg2rad) (row_apply 1 _ _ _ (1 : Fin 4) rfl q)
  show k1_pay13 x1 (ix1 q) * Ideal.cos (k1_pay14 x1 (ix1 q)) = _
  rw [hm, ha]; rfl

/-- Its imaginary part. -/
theorem im_j_apply (x1 : Vec Ideal S4x131072 .f32) (q : Fin 131072) :
    k1_pay18 x1 (ix1 q) = EdgeFlow.im (x1 (ix2 (0 : Fin 4) q)) (x1 (ix2 (1 : Fin 4) q)) := by
  have hm : k1_pay13 x1 (ix1 q) = x1 (ix2 (0 : Fin 4) q) := by
    unfold k1_pay13 k1_pay4; rw [shapeCast_self]; exact row_apply 0 _ _ _ (0 : Fin 4) rfl q
  have ha : k1_pay14 x1 (ix1 q) = x1 (ix2 (1 : Fin 4) q) * EdgeFlow.deg2rad := by
    unfold k1_pay14 k1_pay4; rw [shapeCast_self]
    exact congrArg (· * EdgeFlow.deg2rad) (row_apply 1 _ _ _ (1 : Fin 4) rfl q)
  show k1_pay13 x1 (ix1 q) * Ideal.sin (k1_pay14 x1 (ix1 q)) = _
  rw [hm, ha]; rfl

/-- THE FIRST OUTPUT'S PAYLOAD AT A COLUMN: the active flow of the column's edge. -/
theorem payP_apply (x0 x1 : Vec Ideal S4x131072 .f32) (x2 : Vec Ideal S2x131072 .f32) (x3 x4 : Vec Ideal S2x1 .f32)
    (q : Fin 131072) :
    k1_pay1 (k1_pay9 x2 x3 x4) (k1_pay10 x2 x3 x4) (k1_pay15 x0) (k1_pay16 x0) (k1_pay17 x1) (k1_pay18 x1) (k1_pay19 x0 x1) (ix1 q)
      = EdgeFlow.flowP (x0 (ix2 (0 : Fin 4) q)) (x0 (ix2 (1 : Fin 4) q)) (x1 (ix2 (0 : Fin 4) q)) (x1 (ix2 (1 : Fin 4) q))
          (x2 (ix2 (0 : Fin 2) q)) (x2 (ix2 (1 : Fin 2) q))
          (x4 (ix2 (0 : Fin 2) (0 : Fin 1))) (x4 (ix2 (1 : Fin 2) (0 : Fin 1)))
          (x3 (ix2 (0 : Fin 2) (0 : Fin 1))) (x3 (ix2 (1 : Fin 2) (0 : Fin 1))) := by
  show k1_pay9 x2 x3 x4 (ix1 q) * (k1_pay15 x0 (ix1 q) * k1_pay17 x1 (ix1 q) - k1_pay15 x0 (ix1 q) * k1_pay15 x0 (ix1 q)
        + k1_pay16 x0 (ix1 q) * k1_pay18 x1 (ix1 q) - k1_pay16 x0 (ix1 q) * k1_pay16 x0 (ix1 q))
      + k1_pay10 x2 x3 x4 (ix1 q) * (k1_pay16 x0 (ix1 q) * k1_pay17 x1 (ix1 q) - k1_pay15 x0 (ix1 q) * k1_pay18 x1 (ix1 q)) = _
  rw [cond_apply, susc_apply, re_i_apply, im_i_apply, re_j_apply, im_j_apply]
  rfl

/-- THE SECOND OUTPUT'S PAYLOAD AT A COLUMN: the reactive flow of the column's edge. -/
theorem payQ_apply (x0 x1 : Vec Ideal S4x131072 .f32) (x2 : Vec Ideal S2x131072 .f32) (x3 x4 : Vec Ideal S2x1 .f32)
    (q : Fin 131072) :
    k1_pay2 (k1_pay9 x2 x3 x4) (k1_pay10 x2 x3 x4) (k1_pay15 x0) (k1_pay16 x0) (k1_pay17 x1) (k1_pay18 x1) (ix1 q)
      = EdgeFlow.flowQ (x0 (ix2 (0 : Fin 4) q)) (x0 (ix2 (1 : Fin 4) q)) (x1 (ix2 (0 : Fin 4) q)) (x1 (ix2 (1 : Fin 4) q))
          (x2 (ix2 (0 : Fin 2) q)) (x2 (ix2 (1 : Fin 2) q))
          (x4 (ix2 (0 : Fin 2) (0 : Fin 1))) (x4 (ix2 (1 : Fin 2) (0 : Fin 1)))
          (x3 (ix2 (0 : Fin 2) (0 : Fin 1))) (x3 (ix2 (1 : Fin 2) (0 : Fin 1))) := by
  show k1_pay9 x2 x3 x4 (ix1 q) * (k1_pay16 x0 (ix1 q) * k1_pay17 x1 (ix1 q) - k1_pay15 x0 (ix1 q) * k1_pay18 x1 (ix1 q))
      + k1_pay10 x2 x3 x4 (ix1 q) * ((Ideal.ofBits .f32 0x00000000#32 - k1_pay15 x0 (ix1 q)) * k1_pay17 x1 (ix1 q)
        + k1_pay15 x0 (ix1 q) * k1_pay15 x0 (ix1 q) - k1_pay16 x0 (ix1 q) * k1_pay18 x1 (ix1 q)
        + k1_pay16 x0 (ix1 q) * k1_pay16 x0 (ix1 q)) = _
  rw [cond_apply, susc_apply, re_i_apply, im_i_apply, re_j_apply, im_j_apply, Ideal.ofBits_zero_f32]
  exact EdgeFlow.qOf_zero_sub _ _ _ _ _ _

/-! ## The two functions of the arrays -/

variable (V : (c : Dev nD) → (b : Ref sig .tc) → Buf (Elt Ideal) ((c : Thread nD τ).loc b))

/-- The edge an entry of an output array belongs to: its one coordinate. -/
abbrev edge (i : S8388608.Idx) : Fin 8388608 := i 0

/-- The active flow of every edge, from the arrays as the region finds them: rows 0 and 1 of the two bus arrays are
    the magnitudes and angles at the edge's two ends, the two rows of the attribute array its raw attributes, and the
    two [2,1] arrays the scales and the offsets. -/
def activeFlow (c : Dev nD) : S8388608.Idx → Elt Ideal .f32 := fun i =>
  EdgeFlow.flowP ((V c main_v39 : S4x8388608.Idx → Elt Ideal .f32) (ix2 (0 : Fin 4) (edge i)))
    ((V c main_v39 : S4x8388608.Idx → Elt Ideal .f32) (ix2 (1 : Fin 4) (edge i)))
    ((V c main_v46 : S4x8388608.Idx → Elt Ideal .f32) (ix2 (0 : Fin 4) (edge i)))
    ((V c main_v46 : S4x8388608.Idx → Elt Ideal .f32) (ix2 (1 : Fin 4) (edge i)))
    ((V c main_v47 : S2x8388608.Idx → Elt Ideal .f32) (ix2 (0 : Fin 2) (edge i)))
    ((V c main_v47 : S2x8388608.Idx → Elt Ideal .f32) (ix2 (1 : Fin 2) (edge i)))
    ((V c main_v49 : S2x1.Idx → Elt Ideal .f32) (ix2 (0 : Fin 2) (0 : Fin 1)))
    ((V c main_v49 : S2x1.Idx → Elt Ideal .f32) (ix2 (1 : Fin 2) (0 : Fin 1)))
    ((V c main_v48 : S2x1.Idx → Elt Ideal .f32) (ix2 (0 : Fin 2) (0 : Fin 1)))
    ((V c main_v48 : S2x1.Idx → Elt Ideal .f32) (ix2 (1 : Fin 2) (0 : Fin 1)))

/-- The reactive flow of every edge, from the same arrays. -/
def reactiveFlow (c : Dev nD) : S8388608.Idx → Elt Ideal .f32 := fun i =>
  EdgeFlow.flowQ ((V c main_v39 : S4x8388608.Idx → Elt Ideal .f32) (ix2 (0 : Fin 4) (edge i)))
    ((V c main_v39 : S4x8388608.Idx → Elt Ideal .f32) (ix2 (1 : Fin 4) (edge i)))
    ((V c main_v46 : S4x8388608.Idx → Elt Ideal .f32) (ix2 (0 : Fin 4) (edge i)))
    ((V c main_v46 : S4x8388608.Idx → Elt Ideal .f32) (ix2 (1 : Fin 4) (edge i)))
    ((V c main_v47 : S2x8388608.Idx → Elt Ideal .f32) (ix2 (0 : Fin 2) (edge i)))
    ((V c main_v47 : S2x8388608.Idx → Elt Ideal .f32) (ix2 (1 : Fin 2) (edge i)))
    ((V c main_v49 : S2x1.Idx → Elt Ideal .f32) (ix2 (0 : Fin 2) (0 : Fin 1)))
    ((V c main_v49 : S2x1.Idx → Elt Ideal .f32) (ix2 (1 : Fin 2) (0 : Fin 1)))
    ((V c main_v48 : S2x1.Idx → Elt Ideal .f32) (ix2 (0 : Fin 2) (0 : Fin 1)))
    ((V c main_v48 : S2x1.Idx → Elt Ideal .f32) (ix2 (1 : Fin 2) (0 : Fin 1)))

/-- The active flow array at an entry, written out. -/
theorem activeFlow_apply (c : Dev nD) (i : S8388608.Idx) :
    activeFlow V c i = EdgeFlow.flowP ((V c main_v39 : S4x8388608.Idx → Elt Ideal .f32) (ix2 (0 : Fin 4) (edge i)))
      ((V c main_v39 : S4x8388608.Idx → Elt Ideal .f32) (ix2 (1 : Fin 4) (edge i)))
      ((V c main_v46 : S4x8388608.Idx → Elt Ideal .f32) (ix2 (0 : Fin 4) (edge i)))
      ((V c main_v46 : S4x8388608.Idx → Elt Ideal .f32) (ix2 (1 : Fin 4) (edge i)))
      ((V c main_v47 : S2x8388608.Idx → Elt Ideal .f32) (ix2 (0 : Fin 2) (edge i)))
      ((V c main_v47 : S2x8388608.Idx → Elt Ideal .f32) (ix2 (1 : Fin 2) (edge i)))
      ((V c main_v49 : S2x1.Idx → Elt Ideal .f32) (ix2 (0 : Fin 2) (0 : Fin 1)))
      ((V c main_v49 : S2x1.Idx → Elt Ideal .f32) (ix2 (1 : Fin 2) (0 : Fin 1)))
      ((V c main_v48 : S2x1.Idx → Elt Ideal .f32) (ix2 (0 : Fin 2) (0 : Fin 1)))
      ((V c main_v48 : S2x1.Idx → Elt Ideal .f32) (ix2 (1 : Fin 2) (0 : Fin 1))) := rfl

/-- The reactive flow array at an entry, written out. -/
theorem reactiveFlow_apply (c : Dev nD) (i : S8388608.Idx) :
    reactiveFlow V c i = EdgeFlow.flowQ ((V c main_v39 : S4x8388608.Idx → Elt Ideal .f32) (ix2 (0 : Fin 4) (edge i)))
      ((V c main_v39 : S4x8388608.Idx → Elt Ideal .f32) (ix2 (1 : Fin 4) (edge i)))
      ((V c main_v46 : S4x8388608.Idx → Elt Ideal .f32) (ix2 (0 : Fin 4) (edge i)))
      ((V c main_v46 : S4x8388608.Idx → Elt Ideal .f32) (ix2 (1 : Fin 4) (edge i)))
      ((V c main_v47 : S2x8388608.Idx → Elt Ideal .f32) (ix2 (0 : Fin 2) (edge i)))
      ((V c main_v47 : S2x8388608.Idx → Elt Ideal .f32) (ix2 (1 : Fin 2) (edge i)))
      ((V c main_v49 : S2x1.Idx → Elt Ideal .f32) (ix2 (0 : Fin 2) (0 : Fin 1)))
      ((V c main_v49 : S2x1.Idx → Elt Ideal .f32) (ix2 (1 : Fin 2) (0 : Fin 1)))
      ((V c main_v48 : S2x1.Idx → Elt Ideal .f32) (ix2 (0 : Fin 2) (0 : Fin 1)))
      ((V c main_v48 : S2x1.Idx → Elt Ideal .f32) (ix2 (1 : Fin 2) (0 : Fin 1))) := rfl

/-! ## Each window's block at a point, as columns of its array -/

theorem hz1 : (![0] : Fin 1 → Nat) = fun _ => 0 := funext fun a => by fin_cases a; rfl
theorem hz2 : (![0, 0] : Fin 2 → Nat) = fun _ => 0 := funext fun a => by fin_cases a <;> rfl

/-- The index maps over the grid: the three long inputs and the two outputs move with the point along the long axis,
    the two small inputs stay. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = t.val ∧ win1_6.index t (0 : Fin 1) = t.val :=
  (by decide +kernel : ∀ t : Fin grid1.N, _)

/-- Column `q` of the first bus array's block at point `t` is column `131072·t + q` of the array. -/
theorem busI_blk (c : Dev nD) (t : Fin cfg1.N) (r : Fin 4) (q : Fin 131072) (e : Fin 8388608)
    (he : e.val = t.val * 131072 + q.val) :
    (iblk1 V c 0 t : Vec Ideal S4x131072 .f32) (ix2 r q) = (V c main_v39 : S4x8388608.Idx → Elt Ideal .f32) (ix2 r e) := by
  obtain ⟨h0, h1, -⟩ := idx_facts t
  unfold iblk1
  rw [View.read_apply]
  show V c main_v39 _ = V c main_v39 _
  congr 1
  funext a
  apply Fin.ext
  match a with
  | ⟨0, _⟩ => show win1_0.index t (0 : Fin 2) * 4 + 1 * r.val = r.val; rw [h0]; omega
  | ⟨1, _⟩ => show win1_0.index t (1 : Fin 2) * 131072 + 1 * q.val = e.val; rw [h1, he]; omega

/-- The same for the second bus array. -/
theorem busJ_blk (c : Dev nD) (t : Fin cfg1.N) (r : Fin 4) (q : Fin 131072) (e : Fin 8388608)
    (he : e.val = t.val * 131072 + q.val) :
    (iblk1 V c 1 t : Vec Ideal S4x131072 .f32) (ix2 r q) = (V c main_v46 : S4x8388608.Idx → Elt Ideal .f32) (ix2 r e) := by
  obtain ⟨-, -, h0, h1, -⟩ := idx_facts t
  unfold iblk1
  rw [View.read_apply]
  show V c main_v46 _ = V c main_v46 _
  congr 1
  funext a
  apply Fin.ext
  match a with
  | ⟨0, _⟩ => show win1_1.index t (0 : Fin 2) * 4 + 1 * r.val = r.val; rw [h0]; omega
  | ⟨1, _⟩ => show win1_1.index t (1 : Fin 2) * 131072 + 1 * q.val = e.val; rw [h1, he]; omega

/-- The same for the attribute array. -/
theorem attr_blk (c : Dev nD) (t : Fin cfg1.N) (r : Fin 2) (q : Fin 131072) (e : Fin 8388608)
    (he : e.val = t.val * 131072 + q.val) :
    (iblk1 V c 2 t : Vec Ideal S2x131072 .f32) (ix2 r q) = (V c main_v47 : S2x8388608.Idx → Elt Ideal .f32) (ix2 r e) := by
  obtain ⟨-, -, -, -, h0, h1, -⟩ := idx_facts t
  unfold iblk1
  rw [View.read_apply]
  show V c main_v47 _ = V c main_v47 _
  congr 1
  funext a
  apply Fin.ext
  match a with
  | ⟨0, _⟩ => show win1_2.index t (0 : Fin 2) * 2 + 1 * r.val = r.val; rw [h0]; omega
  | ⟨1, _⟩ => show win1_2.index t (1 : Fin 2) * 131072 + 1 * q.val = e.val; rw [h1, he]; omega

/-- The offsets' block at every point is the whole [2,1] array. -/
theorem offs_blk (c : Dev nD) (t : Fin cfg1.N) (r : Fin 2) :
    (iblk1 V c 3 t : Vec Ideal S2x1 .f32) (ix2 r (0 : Fin 1)) = (V c main_v48 : S2x1.Idx → Elt Ideal .f32) (ix2 r (0 : Fin 1)) := by
  obtain ⟨-, -, -, -, -, -, h0, h1, -⟩ := idx_facts t
  unfold iblk1
  rw [View.read_apply]
  show V c main_v48 _ = V c main_v48 _
  congr 1
  funext a
  apply Fin.ext
  match a with
  | ⟨0, _⟩ => show win1_3.index t (0 : Fin 2) * 2 + 1 * r.val = r.val; rw [h0]; omega
  | ⟨1, _⟩ => show win1_3.index t (1 : Fin 2) * 1 + 1 * 0 = 0; rw [h1]

/-- The scales' block at every point is the whole [2,1] array. -/
theorem scal_blk (c : Dev nD) (t : Fin cfg1.N) (r : Fin 2) :
    (iblk1 V c 4 t : Vec Ideal S2x1 .f32) (ix2 r (0 : Fin 1)) = (V c main_v49 : S2x1.Idx → Elt Ideal .f32) (ix2 r (0 : Fin 1)) := by
  obtain ⟨-, -, -, -, -, -, -, -, h0, h1, -⟩ := idx_facts t
  unfold iblk1
  rw [View.read_apply]
  show V c main_v49 _ = V c main_v49 _
  congr 1
  funext a
  apply Fin.ext
  match a with
  | ⟨0, _⟩ => show win1_4.index t (0 : Fin 2) * 2 + 1 * r.val = r.val; rw [h0]; omega
  | ⟨1, _⟩ => show win1_4.index t (1 : Fin 2) * 1 + 1 * 0 = 0; rw [h1]

/-! ## What a point writes back -/

/-- The body's result for the first output at point `t`, entry by entry, is the active flow at the array entry under
    the block's entry. -/
theorem blockP_eq (c : Dev nD) (t : Fin cfg1.N) (j : S131072.Idx) :
    k1_pay1 (k1_pay9 (iblk1 V c 2 t) (iblk1 V c 3 t) (iblk1 V c 4 t)) (k1_pay10 (iblk1 V c 2 t) (iblk1 V c 3 t) (iblk1 V c 4 t))
        (k1_pay15 (iblk1 V c 0 t)) (k1_pay16 (iblk1 V c 0 t)) (k1_pay17 (iblk1 V c 1 t)) (k1_pay18 (iblk1 V c 1 t))
        (k1_pay19 (iblk1 V c 0 t) (iblk1 V c 1 t)) j
      = activeFlow V c (((cfg1.win 5).blk t).view.emb j) := by
  obtain ⟨q, rfl⟩ : ∃ q : Fin 131072, j = ix1 q := ⟨j 0, eq_ix1 j⟩
  have h5 := (idx_facts t).2.2.2.2.2.2.2.2.2.2.1
  have hN : t.val < 64 := lt_of_lt_of_eq t.isLt N_1
  obtain ⟨e, he⟩ : ∃ e : Fin 8388608, e.val = t.val * 131072 + q.val := ⟨⟨t.val * 131072 + q.val, by omega⟩, rfl⟩
  have hE : edge (((cfg1.win 5).blk t).view.emb (ix1 q)) = e :=
    Fin.ext (by show win1_5.index t (0 : Fin 1) * 131072 + 1 * q.val = e.val; rw [h5, he]; omega)
  refine (payP_apply (iblk1 V c 0 t) (iblk1 V c 1 t) (iblk1 V c 2 t) (iblk1 V c 3 t) (iblk1 V c 4 t) q).trans ?_
  unfold activeFlow
  rw [hE, busI_blk V c t 0 q e he, busI_blk V c t 1 q e he, busJ_blk V c t 0 q e he, busJ_blk V c t 1 q e he,
    attr_blk V c t 0 q e he, attr_blk V c t 1 q e he, offs_blk V c t 0, offs_blk V c t 1, scal_blk V c t 0, scal_blk V c t 1]

/-- The same for the second output and the reactive flow. -/
theorem blockQ_eq (c : Dev nD) (t : Fin cfg1.N) (j : S131072.Idx) :
    k1_pay2 (k1_pay9 (iblk1 V c 2 t) (iblk1 V c 3 t) (iblk1 V c 4 t)) (k1_pay10 (iblk1 V c 2 t) (iblk1 V c 3 t) (iblk1 V c 4 t))
        (k1_pay15 (iblk1 V c 0 t)) (k1_pay16 (iblk1 V c 0 t)) (k1_pay17 (iblk1 V c 1 t)) (k1_pay18 (iblk1 V c 1 t)) j
      = reactiveFlow V c (((cfg1.win 6).blk t).view.emb j) := by
  obtain ⟨q, rfl⟩ : ∃ q : Fin 131072, j = ix1 q := ⟨j 0, eq_ix1 j⟩
  have h6 := (idx_facts t).2.2.2.2.2.2.2.2.2.2.2
  have hN : t.val < 64 := lt_of_lt_of_eq t.isLt N_1
  obtain ⟨e, he⟩ : ∃ e : Fin 8388608, e.val = t.val * 131072 + q.val := ⟨⟨t.val * 131072 + q.val, by omega⟩, rfl⟩
  have hE : edge (((cfg1.win 6).blk t).view.emb (ix1 q)) = e :=
    Fin.ext (by show win1_6.index t (0 : Fin 1) * 131072 + 1 * q.val = e.val; rw [h6, he]; omega)
  refine (payQ_apply (iblk1 V c 0 t) (iblk1 V c 1 t) (iblk1 V c 2 t) (iblk1 V c 3 t) (iblk1 V c 4 t) q).trans ?_
  unfold reactiveFlow
  rw [hE, busI_blk V c t 0 q e he, busI_blk V c t 1 q e he, busJ_blk V c t 0 q e he, busJ_blk V c t 1 q e he,
    attr_blk V c t 0 q e he, attr_blk V c t 1 q e he, offs_blk V c t 0, offs_blk V c t 1, scal_blk V c t 0, scal_blk V c t 1]

/-- WHAT POINT `t` WRITES BACK to the first output is block `t` of the active flow. -/
theorem flushedP_eq (c : Dev nD) (t : Fin cfg1.N) :
    (dat1 (F := Ideal) V c).flushed 5 t = ((cfg1.win 5).blk t).view.read (Elt Ideal) (activeFlow V c) := by
  show (cfg1.win 5).cut (grid1.coords t) ((dat1 V c).after 5 t) = _
  rw [after1_5]
  unfold out1_5
  rw [View.canon_unit_zero hz1]
  simp only [View.ld_unit_zero (S := S4x131072) hz2, View.ld_unit_zero (S := S2x131072) hz2, View.ld_unit_zero (S := S2x1) hz2]
  funext j
  exact blockP_eq V c t j

/-- WHAT POINT `t` WRITES BACK to the second output is block `t` of the reactive flow. -/
theorem flushedQ_eq (c : Dev nD) (t : Fin cfg1.N) :
    (dat1 (F := Ideal) V c).flushed 6 t = ((cfg1.win 6).blk t).view.read (Elt Ideal) (reactiveFlow V c) := by
  show (cfg1.win 6).cut (grid1.coords t) ((dat1 V c).after 6 t) = _
  rw [after1_6]
  unfold out1_6
  rw [View.canon_unit_zero hz1]
  simp only [View.ld_unit_zero (S := S4x131072) hz2, View.ld_unit_zero (S := S2x131072) hz2, View.ld_unit_zero (S := S2x1) hz2]
  funext j
  exact blockQ_eq V c t j

/-! ## The blocks tile the arrays -/

/-- An entry of the first output array is in point `t`'s block iff its coordinate is in the block's range. -/
theorem mem_blkP (t : Fin cfg1.N) (i : S8388608.Idx) :
    i ∈ ((cfg1.win 5).blk t).view.set ↔ ∀ a : Fin 1, win1_5.index t a * S131072.size a ≤ (i a).val ∧ (i a).val < win1_5.index t a * S131072.size a + S131072.size a := by
  show i ∈ ((View.whole main_v50_0).slice (win1_5.rect t)).set ↔ _
  rw [View.set_slice_whole, Rect.mem_set_unit]
  exact Iff.rfl

/-- The same for the second output array. -/
theorem mem_blkQ (t : Fin cfg1.N) (i : S8388608.Idx) :
    i ∈ ((cfg1.win 6).blk t).view.set ↔ ∀ a : Fin 1, win1_6.index t a * S131072.size a ≤ (i a).val ∧ (i a).val < win1_6.index t a * S131072.size a + S131072.size a := by
  show i ∈ ((View.whole main_v50_1).slice (win1_6.rect t)).set ↔ _
  rw [View.set_slice_whole, Rect.mem_set_unit]
  exact Iff.rfl

/-- Entry `e` of the first output array is in the block of point `e / 131072`, which writes back. -/
theorem coverP (i : S8388608.Idx) : ∃ t : Fin cfg1.N, (cfg1.win 5).flush t = true ∧ i ∈ ((cfg1.win 5).blk t).view.set := by
  have hi : (i 0).val < 8388608 := (i 0).isLt
  have hN : cfg1.N = 64 := N_1
  refine ⟨⟨(i 0).val / 131072, by rw [hN]; omega⟩, flush1_5 _, ?_⟩
  rw [mem_blkP]
  intro a
  have h5 := (idx_facts ⟨(i 0).val / 131072, by rw [hN]; omega⟩).2.2.2.2.2.2.2.2.2.2.1
  match a with
  | ⟨0, _⟩ =>
    show win1_5.index _ (0 : Fin 1) * 131072 ≤ (i 0).val ∧ (i 0).val < win1_5.index _ (0 : Fin 1) * 131072 + 131072
    rw [h5]; show (i 0).val / 131072 * 131072 ≤ (i 0).val ∧ (i 0).val < (i 0).val / 131072 * 131072 + 131072; omega

/-- The same for the second output array. -/
theorem coverQ (i : S8388608.Idx) : ∃ t : Fin cfg1.N, (cfg1.win 6).flush t = true ∧ i ∈ ((cfg1.win 6).blk t).view.set := by
  have hi : (i 0).val < 8388608 := (i 0).isLt
  have hN : cfg1.N = 64 := N_1
  refine ⟨⟨(i 0).val / 131072, by rw [hN]; omega⟩, flush1_6 _, ?_⟩
  rw [mem_blkQ]
  intro a
  have h6 := (idx_facts ⟨(i 0).val / 131072, by rw [hN]; omega⟩).2.2.2.2.2.2.2.2.2.2.2
  match a with
  | ⟨0, _⟩ =>
    show win1_6.index _ (0 : Fin 1) * 131072 ≤ (i 0).val ∧ (i 0).val < win1_6.index _ (0 : Fin 1) * 131072 + 131072
    rw [h6]; show (i 0).val / 131072 * 131072 ≤ (i 0).val ∧ (i 0).val < (i 0).val / 131072 * 131072 + 131072; omega

/-! ## The arrays after the region -/

/-- THE FIRST OUTPUT ARRAY after the region: the active flow of every edge. -/
theorem p_arr (c : Dev nD) : (dat1 (F := Ideal) V c).arrAt 5 cfg1.N = activeFlow V c :=
  (dat1 (F := Ideal) V c).arrAt_eq_of_cover 5 (activeFlow V c) (fun t _ => flushedP_eq V c t) coverP

/-- THE SECOND OUTPUT ARRAY after the region: the reactive flow of every edge. -/
theorem q_arr (c : Dev nD) : (dat1 (F := Ideal) V c).arrAt 6 cfg1.N = reactiveFlow V c :=
  (dat1 (F := Ideal) V c).arrAt_eq_of_cover 6 (reactiveFlow V c) (fun t _ => flushedQ_eq V c t) coverQ

/-- The first output array at edge `e`: the active flow of column `e` of the arrays as the region finds them. -/
theorem p_at (c : Dev nD) (e : Fin 8388608) :
    ((dat1 (F := Ideal) V c).arrAt 5 cfg1.N : S8388608.Idx → Elt Ideal .f32) (ix1 e)
      = EdgeFlow.flowP ((V c main_v39 : S4x8388608.Idx → Elt Ideal .f32) (ix2 (0 : Fin 4) e))
        ((V c main_v39 : S4x8388608.Idx → Elt Ideal .f32) (ix2 (1 : Fin 4) e))
        ((V c main_v46 : S4x8388608.Idx → Elt Ideal .f32) (ix2 (0 : Fin 4) e))
        ((V c main_v46 : S4x8388608.Idx → Elt Ideal .f32) (ix2 (1 : Fin 4) e))
        ((V c main_v47 : S2x8388608.Idx → Elt Ideal .f32) (ix2 (0 : Fin 2) e))
        ((V c main_v47 : S2x8388608.Idx → Elt Ideal .f32) (ix2 (1 : Fin 2) e))
        ((V c main_v49 : S2x1.Idx → Elt Ideal .f32) (ix2 (0 : Fin 2) (0 : Fin 1)))
        ((V c main_v49 : S2x1.Idx → Elt Ideal .f32) (ix2 (1 : Fin 2) (0 : Fin 1)))
        ((V c main_v48 : S2x1.Idx → Elt Ideal .f32) (ix2 (0 : Fin 2) (0 : Fin 1)))
        ((V c main_v48 : S2x1.Idx → Elt Ideal .f32) (ix2 (1 : Fin 2) (0 : Fin 1))) :=
  congrFun (p_arr V c) (ix1 e)

/-- The second output array at edge `e`: the reactive flow of column `e`. -/
theorem q_at (c : Dev nD) (e : Fin 8388608) :
    ((dat1 (F := Ideal) V c).arrAt 6 cfg1.N : S8388608.Idx → Elt Ideal .f32) (ix1 e)
      = EdgeFlow.flowQ ((V c main_v39 : S4x8388608.Idx → Elt Ideal .f32) (ix2 (0 : Fin 4) e))
        ((V c main_v39 : S4x8388608.Idx → Elt Ideal .f32) (ix2 (1 : Fin 4) e))
        ((V c main_v46 : S4x8388608.Idx → Elt Ideal .f32) (ix2 (0 : Fin 4) e))
        ((V c main_v46 : S4x8388608.Idx → Elt Ideal .f32) (ix2 (1 : Fin 4) e))
        ((V c main_v47 : S2x8388608.Idx → Elt Ideal .f32) (ix2 (0 : Fin 2) e))
        ((V c main_v47 : S2x8388608.Idx → Elt Ideal .f32) (ix2 (1 : Fin 2) e))
        ((V c main_v49 : S2x1.Idx → Elt Ideal .f32) (ix2 (0 : Fin 2) (0 : Fin 1)))
        ((V c main_v49 : S2x1.Idx → Elt Ideal .f32) (ix2 (1 : Fin 2) (0 : Fin 1)))
        ((V c main_v48 : S2x1.Idx → Elt Ideal .f32) (ix2 (0 : Fin 2) (0 : Fin 1)))
        ((V c main_v48 : S2x1.Idx → Elt Ideal .f32) (ix2 (1 : Fin 2) (0 : Fin 1))) :=
  congrFun (q_arr V c) (ix1 e)

end Cert.KernelIdeal.RegionValue

end
-- ==== Proof.LibColumn.lean ====
/-
  Columns and rows read at coordinates, for any extents and any element type.

  * a column [n,1] cast to a vector [n] reads the column at (i, 0), and a vector [n] cast to a column [n,1] reads the
    vector at i;
  * column k of an [n,c] matrix taken as a vector (the [n,1] cut at offset (0,k), cast to [n]) reads the matrix at (i,k);
  * a length-c vector laid out as the row [1,c] and repeated over n rows reads the vector at the column's number;
  * a vector stood up as a column by a broadcast along axis 0 reads the vector at the row's number.
-/
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- A column [n,1] cast to a vector [n] reads the column at (i, 0). -/
theorem shapeCast_a1_a_apply {n : ℕ} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-- A vector [n] cast to a column [n,1] reads the vector at the row's number. -/
theorem shapeCast_a_a1_apply {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Column k of an [n,c] matrix taken as a vector reads the matrix at (i, k). -/
theorem column_apply {n c : ℕ} (k : ℕ) (X : (⟨2, ![n, c]⟩ : Shape).Idx → α)
    (hs : (⟨2, ![n, c]⟩ : Shape).Slices ![0, k] ⟨2, ![n, 1]⟩)
    (hc : (⟨2, ![n, 1]⟩ : Shape).ShapeCasts ⟨1, ![n]⟩) (i : Fin n) (hk : k < c) :
    shapeCast ⟨1, ![n]⟩ (extractStridedSlice ⟨2, ![n, 1]⟩ ![0, k] X hs) hc (ix1 i) = X (ix2 i ⟨k, hk⟩) := by
  rw [shapeCast_a1_a_apply]
  exact slice2_axis1_apply k X hs i (0 : Fin 1) ⟨k, hk⟩ rfl

/-- A length-c vector laid out as the row [1,c] reads the vector at the column's number. -/
theorem rowOf_apply {c : ℕ} (v : (⟨1, ![c]⟩ : Shape).Idx → α)
    (h1 : (⟨1, ![c]⟩ : Shape).BroadcastsInDim ⟨2, ![1, c]⟩ ![1]) (u : Fin 1) (k : Fin c) :
    broadcastInDim ⟨2, ![1, c]⟩ ![1] h1 v (ix2 u k) = v (ix1 k) :=
  broadcastInDim_apply _ h1 v _ _ (fun a => by
    match a with
    | ⟨0, _⟩ =>
      show k.val = if c = 1 then 0 else k.val
      split
      · have := k.isLt; omega
      · rfl)

/-- A row [1,c] repeated over n rows reads the row at the column's number. -/
theorem repeatRows_apply {n c : ℕ} (r : (⟨2, ![1, c]⟩ : Shape).Idx → α)
    (h2 : (⟨2, ![1, c]⟩ : Shape).BroadcastsInDim ⟨2, ![n, c]⟩ ![0, 1]) (i : Fin n) (k : Fin c) :
    broadcastInDim ⟨2, ![n, c]⟩ ![0, 1] h2 r (ix2 i k) = r (ix2 (0 : Fin 1) k) :=
  broadcastInDim_apply _ h2 r _ _ (fun a => by
    match a with
    | ⟨0, _⟩ => rfl
    | ⟨1, _⟩ =>
      show k.val = if c = 1 then 0 else k.val
      split
      · have := k.isLt; omega
      · rfl)

/-- A length-c vector laid out as a row and repeated over n rows reads the vector at the column's number. -/
theorem rowRepeat_apply {n c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1]) (i : Fin n) (k : Fin c) :
    broadcastInDim ⟨2, ![n, c]⟩ ![0, 1] h2 (broadcastInDim ⟨2, ![1, c]⟩ ![1] h1 v) (ix2 i k) = v (ix1 k) := by
  rw [repeatRows_apply, rowOf_apply]

/-- A vector stood up as a column [n,1] by a broadcast along axis 0 reads the vector at the row's number. -/
theorem colOf_apply {n : ℕ} (v : (⟨1, ![n]⟩ : Shape).Idx → α)
    (h : (⟨1, ![n]⟩ : Shape).BroadcastsInDim ⟨2, ![n, 1]⟩ ![0]) (i : Fin n) (u : Fin 1) :
    broadcastInDim ⟨2, ![n, 1]⟩ ![0] h v (ix2 i u) = v (ix1 i) :=
  broadcastInDim_apply _ h v _ _ (fun a => by
    match a with
    | ⟨0, _⟩ =>
      show i.val = if n = 1 then 0 else i.val
      split
      · have := i.isLt; omega
      · rfl)

end Cert.LibColumn

end
-- ==== Proof.RefEdge.lean ====
/-
  The reference's per-edge flows read at an edge.

  The reference denormalises the edge attributes row-wise, r = a[e,0]·s[0] + m[0] and x = a[e,1]·s[1] + m[1], forms
  the conductance r/(r²+x²) and the susceptance (−x)/(r²+x²), reads each end bus's voltage magnitude and angle off the
  gathered node rows (columns 0 and 1), turns the angle to radians, takes the rectangular parts, and combines them into
  the active and the reactive flow. Read at edge e every stage is the corresponding function of Cert.EdgeFlow at the
  entries of edge e, and the two flows are flowP and flowQ there.
-/
import proofs.«118159_j69690139345431_2_alg».proof.Proof.RefRunPatched
import proofs.«118159_j69690139345431_2_alg».proof.Proof.EdgeFlow
import proofs.«118159_j69690139345431_2_alg».proof.Proof.LibColumn
import Idealize.ShloMosaic.Lib.IdealHost

set_option maxRecDepth 16384

noncomputable section

namespace Cert.ReferenceIdeal.EdgeRead

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx Cert.LibColumn Cert.EdgeFlow

/-- The host's negation read at an index is the extended reals' own. -/
theorem hostNegf_apply {s : Shape} {φ : FTy} (a : FVec Ideal s φ) (i : s.Idx) : Host.negf a i = -(a i) := rfl

/-- The host's cosine read at an index is the extended reals' own. -/
theorem hostCos_apply {s : Shape} {φ : FTy} (a : FVec Ideal s φ) (i : s.Idx) : Host.cos a i = Ideal.cos (a i) := rfl

/-- The host's sine read at an index is the extended reals' own. -/
theorem hostSin_apply {s : Shape} {φ : FTy} (a : FVec Ideal s φ) (i : s.Idx) : Host.sin a i = Ideal.sin (a i) := rfl

/-- A raw attribute denormalised by its scale and its offset: a·s + m. -/
def lin (a s m : EReal) : EReal := a * s + m

/-- An angle in degrees turned into radians by the single-precision constant π/180. -/
def rad (va : EReal) : EReal := va * deg2rad

variable (V0 : Valuation τ sig (Elt Ideal))

/-- The reference's active flow per edge, as its program composes it. -/
def refP : FVec Ideal S8388608 .f32 :=
  addf (mulf (res_main_v64 V0) (subf (addf (subf (mulf (res_main_v80 V0) (res_main_v84 V0)) (mulf (res_main_v80 V0) (res_main_v80 V0))) (mulf (res_main_v82 V0) (res_main_v86 V0))) (mulf (res_main_v82 V0) (res_main_v82 V0)))) (mulf (res_main_v66 V0) (subf (mulf (res_main_v82 V0) (res_main_v84 V0)) (mulf (res_main_v80 V0) (res_main_v86 V0))))

/-- The reference's reactive flow per edge, as its program composes it. -/
def refQ : FVec Ideal S8388608 .f32 :=
  addf (mulf (res_main_v64 V0) (subf (mulf (res_main_v82 V0) (res_main_v84 V0)) (mulf (res_main_v80 V0) (res_main_v86 V0)))) (mulf (res_main_v66 V0) (addf (subf (addf (mulf (Host.negf (res_main_v80 V0)) (res_main_v84 V0)) (mulf (res_main_v80 V0) (res_main_v80 V0))) (mulf (res_main_v82 V0) (res_main_v86 V0))) (mulf (res_main_v82 V0) (res_main_v82 V0))))

/-- The scattered sums are the scatter of the two flows stood up as columns and joined. -/
theorem v119_eq : res_main_v119 V0
    = Host.scatterAdd scatter_S512000x2_S8388608x1_S8388608x2_1_0_0_1
        (broadcastInDim S512000x2 ![] bcast_S_S512000x2 (constant S_ .f32 0x00000000#32))
        (broadcastInDim S8388608x1 ![0] bcast_S8388608_S8388608x1_0 (res_main_v40 V0))
        (concatenate S8388608x2 1 [⟨S8388608x1, broadcastInDim S8388608x1 ![0] bcast_S8388608_S8388608x1_0 (refP V0)⟩,
          ⟨S8388608x1, broadcastInDim S8388608x1 ![0] bcast_S8388608_S8388608x1_0 (refQ V0)⟩]
          concatenates_S8388608x1_S8388608x1_S8388608x2_d1) := rfl

variable (e : Fin 8388608)

/-- The denormalised attribute k of edge e. -/
theorem v38_apply (k : Fin 2) : res_main_v38 V0 (ix2 e k)
    = lin ((V0 (Proc.devRef .tc main_arg3)) (ix2 e k)) ((V0 (Proc.devRef .tc main_arg9)) (ix1 k)) ((V0 (Proc.devRef .tc main_arg8)) (ix1 k)) := by
  unfold res_main_v38
  rw [addf_apply, mulf_apply, rowRepeat_apply, rowRepeat_apply]
  rfl

theorem v58_apply : res_main_v58 V0 (ix1 e) = res_main_v38 V0 (ix2 e 0) := by
  unfold res_main_v58
  exact column_apply 0 _ _ _ e (by decide)

theorem v60_apply : res_main_v60 V0 (ix1 e) = res_main_v38 V0 (ix2 e 1) := by
  unfold res_main_v60
  exact column_apply 1 _ _ _ e (by decide)

theorem v63_apply : res_main_v63 V0 (ix1 e) = den (res_main_v38 V0 (ix2 e 0)) (res_main_v38 V0 (ix2 e 1)) := by
  unfold res_main_v63
  rw [addf_apply, mulf_apply, mulf_apply, v58_apply, v60_apply]
  rfl

theorem v64_apply : res_main_v64 V0 (ix1 e) = cond (res_main_v38 V0 (ix2 e 0)) (res_main_v38 V0 (ix2 e 1)) := by
  unfold res_main_v64
  rw [hostDivf_apply, v58_apply, v63_apply]
  rfl

theorem v66_apply : res_main_v66 V0 (ix1 e) = susc (res_main_v38 V0 (ix2 e 0)) (res_main_v38 V0 (ix2 e 1)) := by
  unfold res_main_v66
  rw [hostDivf_apply, hostNegf_apply, v60_apply, v63_apply]
  rfl

theorem v68_apply : res_main_v68 V0 (ix1 e) = res_main_v49 V0 (ix2 e 0) := by
  unfold res_main_v68
  exact column_apply 0 _ _ _ e (by decide)

theorem v72_apply : res_main_v72 V0 (ix1 e) = rad (res_main_v49 V0 (ix2 e 1)) := by
  unfold res_main_v72
  rw [mulf_apply]
  exact congrArg (fun x : EReal => x * deg2rad) (column_apply 1 _ _ _ e (show 1 < 4 by decide))

theorem v74_apply : res_main_v74 V0 (ix1 e) = res_main_v56 V0 (ix2 e 0) := by
  unfold res_main_v74
  exact column_apply 0 _ _ _ e (by decide)

theorem v78_apply : res_main_v78 V0 (ix1 e) = rad (res_main_v56 V0 (ix2 e 1)) := by
  unfold res_main_v78
  rw [mulf_apply]
  exact congrArg (fun x : EReal => x * deg2rad) (column_apply 1 _ _ _ e (show 1 < 4 by decide))

theorem v80_apply : res_main_v80 V0 (ix1 e) = re (res_main_v49 V0 (ix2 e 0)) (res_main_v49 V0 (ix2 e 1)) := by
  unfold res_main_v80
  rw [mulf_apply, hostCos_apply, v68_apply, v72_apply]
  rfl

theorem v82_apply : res_main_v82 V0 (ix1 e) = im (res_main_v49 V0 (ix2 e 0)) (res_main_v49 V0 (ix2 e 1)) := by
  unfold res_main_v82
  rw [mulf_apply, hostSin_apply, v68_apply, v72_apply]
  rfl

theorem v84_apply : res_main_v84 V0 (ix1 e) = re (res_main_v56 V0 (ix2 e 0)) (res_main_v56 V0 (ix2 e 1)) := by
  unfold res_main_v84
  rw [mulf_apply, hostCos_apply, v74_apply, v78_apply]
  rfl

theorem v86_apply : res_main_v86 V0 (ix1 e) = im (res_main_v56 V0 (ix2 e 0)) (res_main_v56 V0 (ix2 e 1)) := by
  unfold res_main_v86
  rw [mulf_apply, hostSin_apply, v74_apply, v78_apply]
  rfl

/-- The reference's active flow of edge e. -/
theorem refP_apply : refP V0 (ix1 e)
    = flowP (res_main_v49 V0 (ix2 e 0)) (res_main_v49 V0 (ix2 e 1)) (res_main_v56 V0 (ix2 e 0)) (res_main_v56 V0 (ix2 e 1))
        ((V0 (Proc.devRef .tc main_arg3)) (ix2 e 0)) ((V0 (Proc.devRef .tc main_arg3)) (ix2 e 1)) ((V0 (Proc.devRef .tc main_arg9)) (ix1 0)) ((V0 (Proc.devRef .tc main_arg9)) (ix1 1))
        ((V0 (Proc.devRef .tc main_arg8)) (ix1 0)) ((V0 (Proc.devRef .tc main_arg8)) (ix1 1)) := by
  unfold refP
  simp only [addf_apply, mulf_apply, subf_apply]
  rw [v64_apply, v66_apply, v80_apply, v82_apply, v84_apply, v86_apply, v38_apply, v38_apply]
  rfl

/-- The reference's reactive flow of edge e. -/
theorem refQ_apply : refQ V0 (ix1 e)
    = flowQ (res_main_v49 V0 (ix2 e 0)) (res_main_v49 V0 (ix2 e 1)) (res_main_v56 V0 (ix2 e 0)) (res_main_v56 V0 (ix2 e 1))
        ((V0 (Proc.devRef .tc main_arg3)) (ix2 e 0)) ((V0 (Proc.devRef .tc main_arg3)) (ix2 e 1)) ((V0 (Proc.devRef .tc main_arg9)) (ix1 0)) ((V0 (Proc.devRef .tc main_arg9)) (ix1 1))
        ((V0 (Proc.devRef .tc main_arg8)) (ix1 0)) ((V0 (Proc.devRef .tc main_arg8)) (ix1 1)) := by
  unfold refQ
  simp only [addf_apply, mulf_apply, subf_apply, hostNegf_apply]
  rw [v64_apply, v66_apply, v80_apply, v82_apply, v84_apply, v86_apply, v38_apply, v38_apply]
  rfl

end Cert.ReferenceIdeal.EdgeRead

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibRowSum.lean ====
/-
  A scatter that adds rows onto a matrix, read at one entry as a sum over the rows that land there.

  Update row `e` of `u : [R, C]` lands on row `idx[e, 0]` (read signed, not clamped) of the operand `[N, C]`, its
  columns kept. So update entry `(e, c')` lands on operand entry `(p, c)` exactly when `idx[e, 0] = p` and `c' = c`,
  and the scattered sum at `(p, c)` is the operand's entry plus the sum, over the update rows `e` whose row number is
  `p`, of `u[e, c]`. The set of those rows does not depend on the column nor on the number of columns: two scatters of
  different widths at the same row numbers sum over the same rows.
-/
import proofs.«118159_j69690139345431_2_alg».proof.Proof.LibRows
import Idealize.ShloMosaic.PureOps.Ideal.Laws

noncomputable section

namespace Cert.LibRowSum

open Idealize.ShloMosaic Idealize.ShloMosaic.ValueIdx Cert.LibRows
open scoped BigOperators

/-- The update rows whose row number, read signed, is `p`. -/
def rowsAt {R w : ℕ} (idx : IVec ⟨2, ![R, 1]⟩ w) (p : ℕ) : Finset (Fin R) :=
  Finset.univ.filter fun e : Fin R => (idx (ix2 e 0)).toInt = (p : Int)

/-- WHERE A SCATTERED ROW LANDS, both ways: update entry `j` lands at operand index `i` exactly when `j`'s row number,
    read signed, is `i`'s row and the columns agree. -/
theorem rowsScatter_lands_iff {N R C w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N R C wf).resultIdx? j idx = some i
      ↔ (idx (ix2 (j 0) 0)).toInt = ((i 0).val : Int) ∧ (j 1).val = (i 1).val := by
  constructor
  · intro h
    have := scatter_rows_result wf idx j i h
    exact ⟨this.1, this.2.symm⟩
  · rintro ⟨h0, h1⟩
    have hi0 := (i 0).isLt
    have hi1 := (i 1).isLt
    have hs0 := rowsScatter_start_row wf idx j
    have hw0 := rowsScatter_window_row wf j
    have hs1 := rowsScatter_start_col wf idx j
    have hw1 := rowsScatter_window_col wf j
    have hin : ∀ a, 0 ≤ (rowsScatter N R C wf).start j idx a + ((rowsScatter N R C wf).window j a : Int)
        ∧ (rowsScatter N R C wf).start j idx a + ((rowsScatter N R C wf).window j a : Int)
            < ((⟨2, ![N, C]⟩ : Shape).size a : Int) := by
      refine Fin.forall_fin_two.mpr ⟨?_, ?_⟩
      · rw [hs0, hw0, h0]; constructor <;> omega
      · rw [hs1, hw1, h1]; constructor <;> omega
    unfold ScatterDims.resultIdx?
    rw [dif_pos hin]
    refine congrArg some (funext (Fin.forall_fin_two.mpr ⟨Fin.ext ?_, Fin.ext ?_⟩))
    · show ((rowsScatter N R C wf).start j idx 0 + ((rowsScatter N R C wf).window j 0 : Int)).toNat = (i 0).val
      rw [hs0, hw0, h0]; omega
    · show ((rowsScatter N R C wf).start j idx 1 + ((rowsScatter N R C wf).window j 1 : Int)).toNat = (i 1).val
      rw [hs1, hw1, h1]; omega

/-- THE ROW SCATTER-ADD READ AT `(p, c)`: the operand's entry plus the sum over the update rows whose row number is `p`
    of their entry in column `c`. -/
theorem scatterAdd_rows_apply {N R C w : ℕ} (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (c : Fin C) :
    Host.scatterAdd (F := Ideal) (φ := .f32) (rowsScatter N R C wf) z idx upd (ix2 p c)
      = z (ix2 p c) + ∑ e ∈ rowsAt idx p.val, upd (ix2 e c) := by
  show z (ix2 p c) + ∑ j ∈ Finset.univ.filter (fun j => (rowsScatter N R C wf).resultIdx? j idx = some (ix2 p c)), upd j = _
  congr 1
  rw [Finset.filter_congr (fun j _ => rowsScatter_lands_iff wf idx j (ix2 p c)), Finset.sum_filter, sum_idx2]
  unfold rowsAt
  rw [Finset.sum_filter]
  refine Finset.sum_congr rfl fun e _ => ?_
  by_cases he : (idx (ix2 e 0)).toInt = (p.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Cert.LibRowSum

end
-- ==== Proof.LibEntriesScatter.lean ====
/-
  A scatter that adds single entries onto a vector, read at one index as a sum over the updates that land there.

  Update `e` of `u : [R]` lands on entry `idx[e, 0]` (read signed, not clamped) of the operand `[N]`. So the scattered
  sum at `p` is the operand's entry plus the sum, over the updates `e` whose number is `p`, of `u[e]`. The set of those
  updates is the one a scatter of whole rows at the same column of numbers sums over: a degree vector and an aggregated
  feature matrix scattered at one column of node numbers sum over the same edges.
-/
import proofs.«118159_j69690139345431_2_alg».proof.Proof.LibRowSum

noncomputable section

namespace Cert.LibEntriesScatter

open Idealize.ShloMosaic Idealize.ShloMosaic.ValueIdx Cert.LibRowSum
open scoped BigOperators

/-- A rank-1 index is its one coordinate. -/
def idx1Equiv (n : ℕ) : Fin n ≃ (⟨1, ![n]⟩ : Shape).Idx where
  toFun := ix1
  invFun j := j 0
  left_inv _ := rfl
  right_inv j := (eq_ix1 j).symm

/-- A sum over a rank-1 index set is the sum over its coordinate. -/
theorem sum_idx1 {M : Type*} [AddCommMonoid M] {n : ℕ} (f : (⟨1, ![n]⟩ : Shape).Idx → M) :
    ∑ j, f j = ∑ a : Fin n, f (ix1 a) :=
  (Fintype.sum_equiv (idx1Equiv n) _ _ fun _ => rfl).symm

/-- The dimension numbers of a scatter of single entries: operand `[N]`, scatter indices `[R, 1]` (one entry number
    each), updates `[R]`; there is no window axis. -/
abbrev entriesScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The start along the one operand axis is the entry number `idx[e, 0]`, read signed. -/
theorem entriesScatter_start {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (entriesScatter N R wf).start j idx 0 = (idx (ix2 (j 0) 0)).toInt := by
  unfold ScatterDims.start
  rw [dif_pos (show (0 : Fin 1) ∈ (entriesScatter N R wf).scatterDimsToOperandDims from List.mem_singleton.mpr rfl)]
  have hsi : (entriesScatter N R wf).siIdx j ⟨List.idxOf (0 : Fin 1) (entriesScatter N R wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window coordinate along the one operand axis is `0`: the axis is inserted, an update is one entry. -/
theorem entriesScatter_window {N R : Nat} (wf : ScatterDims.WF ⟨1, ![N]⟩ ⟨2, ![R, 1]⟩ ⟨1, ![R]⟩ [] [0] [0] 1)
    (j : (⟨1, ![R]⟩ : Shape).Idx) : (entriesScatter N R wf).window j 0 = 0 := by
  unfold ScatterDims.window
  rw [dif_neg (show (0 : Fin 1) ∉ (entriesScatter N R wf).sKept from
    (show (0 : Fin 1) ∉ (List.finRange 1).filter (· ∉ ([0] : List (Fin 1))) from by decide))]

/-- WHERE A SCATTERED ENTRY LANDS, both ways: update `j` lands at operand index `i` exactly when `j`'s entry number,
    read signed, is `i` (an update whose number is outside the operand lands nowhere). -/
theorem entriesScatter_lands_iff {N R w : ℕ} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (entriesScatter N R wf).resultIdx? j idx = some i ↔ (idx (ix2 (j 0) 0)).toInt = ((i 0).val : Int) := by
  have hs0 := entriesScatter_start wf idx j
  have hw0 := entriesScatter_window wf j
  constructor
  · intro h
    unfold ScatterDims.resultIdx? at h
    split at h
    · rename_i hin
      have hi := Option.some.inj h
      have h0 : ((entriesScatter N R wf).start j idx 0 + ((entriesScatter N R wf).window j 0 : Int)).toNat = (i 0).val :=
        congrArg (fun f : (⟨1, ![N]⟩ : Shape).Idx => (f 0).val) hi
      have hb := (hin 0).1
      rw [hs0, hw0] at h0 hb
      omega
    · exact absurd h (by simp)
  · intro h0
    have hi0 := (i 0).isLt
    have hin : ∀ a, 0 ≤ (entriesScatter N R wf).start j idx a + ((entriesScatter N R wf).window j a : Int)
        ∧ (entriesScatter N R wf).start j idx a + ((entriesScatter N R wf).window j a : Int)
            < ((⟨1, ![N]⟩ : Shape).size a : Int) := by
      refine Fin.forall_fin_one.mpr ?_
      rw [hs0, hw0, h0]; constructor <;> omega
    unfold ScatterDims.resultIdx?
    rw [dif_pos hin]
    refine congrArg some (funext (Fin.forall_fin_one.mpr (Fin.ext ?_)))
    show ((entriesScatter N R wf).start j idx 0 + ((entriesScatter N R wf).window j 0 : Int)).toNat = (i 0).val
    rw [hs0, hw0, h0]; omega

/-- THE ENTRY SCATTER-ADD READ AT `p`: the operand's entry plus the sum over the updates whose entry number is `p` —
    the same set `rowsAt idx p` a scatter of rows at the column `idx` sums over. -/
theorem scatterAdd_entries_apply {N R w : ℕ} (wf : ScatterDims.WF ⟨1, ![N]⟩ ⟨2, ![R, 1]⟩ ⟨1, ![R]⟩ [] [0] [0] 1)
    (z : (⟨1, ![N]⟩ : Shape).Idx → EReal) (idx : IVec ⟨2, ![R, 1]⟩ w) (upd : (⟨1, ![R]⟩ : Shape).Idx → EReal)
    (p : Fin N) :
    Host.scatterAdd (F := Ideal) (φ := .f32) (entriesScatter N R wf) z idx upd (ix1 p)
      = z (ix1 p) + ∑ e ∈ rowsAt idx p.val, upd (ix1 e) := by
  show z (ix1 p) + ∑ j ∈ Finset.univ.filter (fun j => (entriesScatter N R wf).resultIdx? j idx = some (ix1 p)), upd j = _
  congr 1
  rw [Finset.filter_congr (fun j _ => entriesScatter_lands_iff wf idx j (ix1 p)), Finset.sum_filter, sum_idx1]
  unfold rowsAt
  rw [Finset.sum_filter]
  exact Finset.sum_congr rfl fun a _ => rfl

end Cert.LibEntriesScatter

end
-- ==== Proof.LibColGather.lean ====
/-
  Column gathers of the host, read at coordinates.

  A gather of whole columns of a matrix `x : [C, N]` at a column of column numbers `idx : [R, 1]` is the matrix
  `[C, R]` whose column `r` is column `idx r` of `x`, the column number read as a signed integer and clamped into
  `[0, N − 1]`. It is the row gather of the transposed matrix, transposed: the slice is one column, its column axis
  collapsed, its row axis the result's first axis.
-/
import Idealize.ShloMosaic.PureOps.Ideal
import Idealize.ShloMosaic.Lib.ValueIdx

noncomputable section

namespace Cert.LibColGather

open Idealize.ShloMosaic Idealize.ShloMosaic.ValueIdx

variable {α : Type}

/-- The dimension numbers of a gather of whole columns: operand `[C, N]`, start indices `[R, 1]` (one column number
    each), result `[C, R]`; the slice is one column, its column axis collapsed, its row axis the result's first axis.
    The conditions `wf` are decided on a program's literal shapes. -/
abbrev colsDims (C N R : Nat) (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, r)`: the operand at row `c` and column `idx[r, 0]`, read signed and clamped into
    `[0, N − 1]`. -/
theorem gather_cols_apply {C N R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (j : (⟨2, ![C, R]⟩ : Shape).Idx) :
    Host.gather (colsDims C N R wf) x idx j
      = x (ix2 (j 0) ⟨min (idx (ix2 (j 1) 0)).toInt.toNat (N - 1), by omega⟩) := by
  unfold Host.gather
  congr 1
  funext a
  refine Fin.ext ?_
  match a with
  | ⟨0, _⟩ =>
    show (colsDims C N R wf).start j idx 0 + (colsDims C N R wf).batchCoord j 0 + (colsDims C N R wf).offCoord j 0 = _
    rw [GatherDims.batchCoord_eq_zero _ _ _ List.not_mem_nil]
    unfold GatherDims.start
    rw [dif_neg (show (0 : Fin 2) ∉ (colsDims C N R wf).startIndexMap from
      (show (0 : Fin 2) ∉ ([1] : List (Fin 2)) from by decide))]
    simp only [Nat.add_zero, Nat.zero_add]
    unfold GatherDims.offCoord
    rw [dif_pos ((GatherDims.mem_sKept (colsDims C N R wf) 0).mpr
      ⟨(show (0 : Fin 2) ∉ ([1] : List (Fin 2)) from by decide), List.not_mem_nil⟩)]
    rfl
  | ⟨1, _⟩ =>
    show (colsDims C N R wf).start j idx 1 + (colsDims C N R wf).batchCoord j 1 + (colsDims C N R wf).offCoord j 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims C N R wf).startIndexMap from List.mem_singleton.mpr rfl)]
    have hsi : (colsDims C N R wf).siIdx j ⟨List.idxOf (1 : Fin 2) (colsDims C N R wf).startIndexMap,
        List.idxOf_lt_length_iff.2 (List.mem_singleton.mpr rfl)⟩ = ix2 (j 1) 0 := by
      funext b; refine Fin.ext ?_
      match b with
      | ⟨0, _⟩ => rfl
      | ⟨1, _⟩ => rfl
    rw [hsi]
    rfl

end Cert.LibColGather

end
-- ==== Proof.GatherScatter.lean ====
/-
  The gather bridge and the scatter-add bridge between a program that keeps its node table transposed and scatters one
  vector at a time, and a program that keeps it row by row and scatters two vectors as the two columns of one matrix.

  Gather. Gathering columns of the transposed table `Xᵀ : [C, N]` at a column of node numbers reads, at `(c, r)`,
  `X[clamp(idx r), c]`; gathering rows of `X : [N, C]` at the same node numbers reads the same entry at `(r, c)`. Both
  clamp the node number, read signed, into `[0, N − 1]`.

  Scatter-add. Adding the rows of the two-column matrix `[P | Q] : [R, 2]` onto a zero matrix `[N, 2]` at a column of
  node numbers, and then reading column `0` (or `1`) as a vector, is adding the entries of `P` (or `Q`) onto a zero
  vector `[N]` at the same node numbers: both are, at node `p`, the sum of the entries of the updates whose node number,
  read signed and not clamped, is `p`.
-/
import proofs.«118159_j69690139345431_2_alg».proof.KernelIdeal
import proofs.«118159_j69690139345431_2_alg».proof.ReferenceIdeal
import proofs.«118159_j69690139345431_2_alg».proof.Proof.LibRows
import proofs.«118159_j69690139345431_2_alg».proof.Proof.LibRowSum
import proofs.«118159_j69690139345431_2_alg».proof.Proof.LibEntriesScatter
import proofs.«118159_j69690139345431_2_alg».proof.Proof.LibColGather
import Idealize.ShloMosaic.Lib.ValueLayout
import Idealize.ShloMosaic.Lib.Pipeline.Value

noncomputable section

namespace Cert.GatherScatter

open Idealize.ShloMosaic Idealize.ShloMosaic.ValueIdx
open Cert.LibRows Cert.LibRowSum Cert.LibEntriesScatter Cert.LibColGather
open scoped BigOperators

/-! ## Layout reads -/

section Layout

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector stood up as a column reads, at `(e, 0)`, the vector at `e`. -/
theorem column_apply {R : ℕ} (v : (⟨1, ![R]⟩ : Shape).Idx → α)
    (hb : (⟨1, ![R]⟩ : Shape).BroadcastsInDim ⟨2, ![R, 1]⟩ (![0] : Fin 1 → Fin 2)) (e : Fin R) (u : Fin 1) :
    broadcastInDim ⟨2, ![R, 1]⟩ ![0] hb v (ix2 e u) = v (ix1 e) :=
  broadcastInDim_apply _ hb v _ _ (fun a => by
    match a with
    | ⟨0, _⟩ =>
      show e.val = if R = 1 then 0 else e.val
      have := e.isLt
      split <;> omega)

/-- Two columns side by side: column `0` of the pair is the first column. -/
theorem pair_col0 {R : ℕ} (x₁ x₂ : (⟨2, ![R, 1]⟩ : Shape).Idx → α)
    (hc : Shape.Concatenates [(⟨2, ![R, 1]⟩ : Shape), ⟨2, ![R, 1]⟩] ⟨2, ![R, 2]⟩ 1) (e : Fin R) :
    concatenate ⟨2, ![R, 2]⟩ 1 [⟨⟨2, ![R, 1]⟩, x₁⟩, ⟨⟨2, ![R, 1]⟩, x₂⟩] hc (ix2 e (0 : Fin 2)) = x₁ (ix2 e (0 : Fin 1)) :=
  concatenate_pair_apply_left 1 x₁ x₂ hc _ rfl _ (fun b => by
    match b with
    | ⟨0, _⟩ => rfl
    | ⟨1, _⟩ => rfl)

/-- Two columns side by side: column `1` of the pair is the second column. -/
theorem pair_col1 {R : ℕ} (x₁ x₂ : (⟨2, ![R, 1]⟩ : Shape).Idx → α)
    (hc : Shape.Concatenates [(⟨2, ![R, 1]⟩ : Shape), ⟨2, ![R, 1]⟩] ⟨2, ![R, 2]⟩ 1) (e : Fin R) :
    concatenate ⟨2, ![R, 2]⟩ 1 [⟨⟨2, ![R, 1]⟩, x₁⟩, ⟨⟨2, ![R, 1]⟩, x₂⟩] hc (ix2 e (1 : Fin 2)) = x₂ (ix2 e (0 : Fin 1)) :=
  concatenate_pair_apply_right 1 x₁ x₂ hc _ rfl rfl _ (fun b hb => by
    match b, hb with
    | ⟨0, _⟩, _ => rfl
    | ⟨1, _⟩, hb => exact absurd rfl hb) rfl

/-! ## The gather of columns of a transposed table is the gather of rows of the table -/

/-- Columns of `Xᵀ` gathered at a column of numbers, read at `(c, r)`, are rows of `X` gathered at the same numbers,
    read at `(r, c)`: both are `X` at the number of `r`, read signed and clamped into `[0, N − 1]`, and column `c`. -/
theorem gather_cols_transpose {C N R w : ℕ} (hN : 0 < N)
    (wfc : GatherDims.WF ⟨2, ![C, N]⟩ ⟨2, ![R, 1]⟩ ⟨2, ![C, R]⟩ [0] [1] [] [1] [] 1 ![C, 1])
    (wfr : GatherDims.WF ⟨2, ![N, C]⟩ ⟨2, ![R, 1]⟩ ⟨2, ![R, C]⟩ [1] [0] [] [0] [] 1 ![1, C])
    (X : (⟨2, ![N, C]⟩ : Shape).Idx → α) (ht : (⟨2, ![N, C]⟩ : Shape).Transposes [1, 0] ⟨2, ![C, N]⟩)
    (idx : IVec ⟨2, ![R, 1]⟩ w) (c : Fin C) (r : Fin R) :
    Host.gather (colsDims C N R wfc) (transpose ⟨2, ![C, N]⟩ [1, 0] X ht) idx (ix2 c r)
      = Host.gather (rowsDims N R C wfr) X idx (ix2 r c) := by
  rw [gather_cols_apply hN, gather_rows_apply hN]
  exact transpose_ix2_apply X ht _ _

end Layout

/-! ## One column of a two-column scatter-add is the scatter-add of that column -/

/-- Rows of `U : [R, 2]` added onto `z2 : [N, 2]` at a column of numbers, column `k` then cut out and read as a vector,
    is the entries of `V : [R]` added onto `z1 : [N]` at the same numbers, when `V` is column `k` of `U` and `z1` is column
    `k` of `z2`: the same updates land on a node in both. -/
theorem scatterAdd_column {N R w : ℕ} (o : ℕ) (k : Fin 2) (hk : k.val = o)
    (wf2 : ScatterDims.WF ⟨2, ![N, 2]⟩ ⟨2, ![R, 1]⟩ ⟨2, ![R, 2]⟩ [1] [0] [0] 1)
    (wf1 : ScatterDims.WF ⟨1, ![N]⟩ ⟨2, ![R, 1]⟩ ⟨1, ![R]⟩ [] [0] [0] 1)
    (z2 : (⟨2, ![N, 2]⟩ : Shape).Idx → EReal) (z1 : (⟨1, ![N]⟩ : Shape).Idx → EReal)
    (hz : ∀ p : Fin N, z2 (ix2 p k) = z1 (ix1 p))
    (ci : IVec ⟨2, ![R, 1]⟩ w) (U : (⟨2, ![R, 2]⟩ : Shape).Idx → EReal) (V : (⟨1, ![R]⟩ : Shape).Idx → EReal)
    (hU : ∀ e : Fin R, U (ix2 e k) = V (ix1 e))
    (hs : (⟨2, ![N, 2]⟩ : Shape).Slices ![0, o] ⟨2, ![N, 1]⟩) (hc : (⟨2, ![N, 1]⟩ : Shape).ShapeCasts ⟨1, ![N]⟩) :
    shapeCast ⟨1, ![N]⟩ (extractStridedSlice ⟨2, ![N, 1]⟩ ![0, o]
        (Host.scatterAdd (F := Ideal) (φ := .f32) (rowsScatter N R 2 wf2) z2 ci U) hs) hc
      = Host.scatterAdd (F := Ideal) (φ := .f32) (entriesScatter N R wf1) z1 ci V := by
  funext p
  obtain ⟨q, rfl⟩ : ∃ q : Fin N, p = ix1 q := ⟨p 0, eq_ix1 p⟩
  rw [shapeCast_a1_a_apply,
    slice2_axis1_apply o _ hs q (0 : Fin 1) k (by rw [hk]; rfl),
    scatterAdd_rows_apply, scatterAdd_entries_apply, hz]
  exact congrArg _ (Finset.sum_congr rfl fun e _ => hU e)

/-! ## The two programs' operations -/

section Programs

variable [Cert.KernelIdeal.Facts] [Cert.ReferenceIdeal.Facts]

/-- THE GATHER BRIDGE: the kernel program's gather of columns of the transposed node table at the node numbers `idx`,
    read at `(k, e)`, is the reference's gather of rows of the table at the same node numbers, read at `(e, k)`. -/
theorem gather_bridge {α : Type} (X : (Cert.KernelIdeal.S512000x4).Idx → α) (idx : IVec Cert.KernelIdeal.S8388608 32)
    (k : Fin 4) (e : Fin 8388608) :
    Host.gather Cert.KernelIdeal.gather_S4x512000_S8388608x1_S4x8388608_0_1_n_n_1_1_41
        (transpose Cert.KernelIdeal.S4x512000 [1, 0] X Cert.KernelIdeal.Facts₀.transposes_S512000x4_S4x512000_1_0)
        (broadcastInDim Cert.KernelIdeal.S8388608x1 ![0] Cert.KernelIdeal.Facts₀.bcast_S8388608_S8388608x1_0 idx) (ix2 k e)
      = Host.gather Cert.ReferenceIdeal.gather_S512000x4_S8388608x1_S8388608x4_1_0_n_n_0_1_14 X
        (broadcastInDim Cert.ReferenceIdeal.S8388608x1 ![0] Cert.ReferenceIdeal.Facts₀.bcast_S8388608_S8388608x1_0 idx) (ix2 e k) := by
  have h := gather_cols_transpose (C := 4) (N := 512000) (R := 8388608) (by omega)
    Cert.KernelIdeal.Facts₀.gather_S4x512000_S8388608x1_S4x8388608_0_1_n_n_1_1_41_wf
    Cert.ReferenceIdeal.Facts₀.gather_S512000x4_S8388608x1_S8388608x4_1_0_n_n_0_1_14_wf
    X Cert.KernelIdeal.Facts₀.transposes_S512000x4_S4x512000_1_0
    (broadcastInDim Cert.KernelIdeal.S8388608x1 ![0] Cert.KernelIdeal.Facts₀.bcast_S8388608_S8388608x1_0 idx) k e
  exact h

/-- THE SCATTER-ADD BRIDGE, column `0`: the reference adds the rows of `[P | Q]` onto a zero matrix at the node numbers
    `idx` and reads column `0` as a vector; the kernel program adds the entries of `P` onto a zero vector at the same node
    numbers. Both are, at node `p`, the sum of `P e` over the updates `e` whose node number, read signed, is `p`. -/
theorem scatter_bridge_0 (idx : IVec Cert.KernelIdeal.S8388608 32) (P Q : (Cert.KernelIdeal.S8388608).Idx → EReal) :
    shapeCast Cert.ReferenceIdeal.S512000
        (extractStridedSlice Cert.ReferenceIdeal.S512000x1 ![0, 0]
          (Host.scatterAdd (F := Ideal) (φ := .f32) Cert.ReferenceIdeal.scatter_S512000x2_S8388608x1_S8388608x2_1_0_0_1
            (broadcastInDim Cert.ReferenceIdeal.S512000x2 ![] Cert.ReferenceIdeal.Facts₀.bcast_S_S512000x2 (constant (F := Ideal) Cert.ReferenceIdeal.S_ .f32 0x00000000#32))
            (broadcastInDim Cert.ReferenceIdeal.S8388608x1 ![0] Cert.ReferenceIdeal.Facts₀.bcast_S8388608_S8388608x1_0 idx)
            (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1))
          Cert.ReferenceIdeal.Facts₀.slices_S512000x2_S512000x1_0_0)
        Cert.ReferenceIdeal.Facts₀.shapeCasts_S512000x1_S512000
      = Host.scatterAdd (F := Ideal) (φ := .f32) Cert.KernelIdeal.scatter_S512000_S8388608x1_S8388608_n_0_0_1
          (broadcastInDim Cert.KernelIdeal.S512000 ![] Cert.KernelIdeal.Facts₀.bcast_S_S512000 (constant (F := Ideal) Cert.KernelIdeal.S_ .f32 0x00000000#32))
          (broadcastInDim Cert.KernelIdeal.S8388608x1 ![0] Cert.KernelIdeal.Facts₀.bcast_S8388608_S8388608x1_0 idx) P := by
  have h := scatterAdd_column (N := 512000) (R := 8388608) 0 (0 : Fin 2) rfl
    Cert.ReferenceIdeal.Facts₀.scatter_S512000x2_S8388608x1_S8388608x2_1_0_0_1_wf
    Cert.KernelIdeal.Facts₀.scatter_S512000_S8388608x1_S8388608_n_0_0_1_wf
    (broadcastInDim Cert.ReferenceIdeal.S512000x2 ![] Cert.ReferenceIdeal.Facts₀.bcast_S_S512000x2 (constant (F := Ideal) Cert.ReferenceIdeal.S_ .f32 0x00000000#32))
    (broadcastInDim Cert.KernelIdeal.S512000 ![] Cert.KernelIdeal.Facts₀.bcast_S_S512000 (constant (F := Ideal) Cert.KernelIdeal.S_ .f32 0x00000000#32))
    (fun _ => rfl)
    (broadcastInDim Cert.ReferenceIdeal.S8388608x1 ![0] Cert.ReferenceIdeal.Facts₀.bcast_S8388608_S8388608x1_0 idx)
    (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1)
    P
    (fun e => (pair_col0 _ _ _ e).trans (column_apply P _ e 0))
    Cert.ReferenceIdeal.Facts₀.slices_S512000x2_S512000x1_0_0
    Cert.ReferenceIdeal.Facts₀.shapeCasts_S512000x1_S512000
  exact h

/-- THE SCATTER-ADD BRIDGE, column `1`: the reference adds the rows of `[P | Q]` onto a zero matrix at the node numbers
    `idx` and reads column `1` as a vector; the kernel program adds the entries of `Q` onto a zero vector at the same node
    numbers. Both are, at node `p`, the sum of `Q e` over the updates `e` whose node number, read signed, is `p`. -/
theorem scatter_bridge_1 (idx : IVec Cert.KernelIdeal.S8388608 32) (P Q : (Cert.KernelIdeal.S8388608).Idx → EReal) :
    shapeCast Cert.ReferenceIdeal.S512000
        (extractStridedSlice Cert.ReferenceIdeal.S512000x1 ![0, 1]
          (Host.scatterAdd (F := Ideal) (φ := .f32) Cert.ReferenceIdeal.scatter_S512000x2_S8388608x1_S8388608x2_1_0_0_1
            (broadcastInDim Cert.ReferenceIdeal.S512000x2 ![] Cert.ReferenceIdeal.Facts₀.bcast_S_S512000x2 (constant (F := Ideal) Cert.ReferenceIdeal.S_ .f32 0x00000000#32))
            (broadcastInDim Cert.ReferenceIdeal.S8388608x1 ![0] Cert.ReferenceIdeal.Facts₀.bcast_S8388608_S8388608x1_0 idx)
            (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1))
          Cert.ReferenceIdeal.Facts₀.slices_S512000x2_S512000x1_0_1)
        Cert.ReferenceIdeal.Facts₀.shapeCasts_S512000x1_S512000
      = Host.scatterAdd (F := Ideal) (φ := .f32) Cert.KernelIdeal.scatter_S512000_S8388608x1_S8388608_n_0_0_1
          (broadcastInDim Cert.KernelIdeal.S512000 ![] Cert.KernelIdeal.Facts₀.bcast_S_S512000 (constant (F := Ideal) Cert.KernelIdeal.S_ .f32 0x00000000#32))
          (broadcastInDim Cert.KernelIdeal.S8388608x1 ![0] Cert.KernelIdeal.Facts₀.bcast_S8388608_S8388608x1_0 idx) Q := by
  have h := scatterAdd_column (N := 512000) (R := 8388608) 1 (1 : Fin 2) rfl
    Cert.ReferenceIdeal.Facts₀.scatter_S512000x2_S8388608x1_S8388608x2_1_0_0_1_wf
    Cert.KernelIdeal.Facts₀.scatter_S512000_S8388608x1_S8388608_n_0_0_1_wf
    (broadcastInDim Cert.ReferenceIdeal.S512000x2 ![] Cert.ReferenceIdeal.Facts₀.bcast_S_S512000x2 (constant (F := Ideal) Cert.ReferenceIdeal.S_ .f32 0x00000000#32))
    (broadcastInDim Cert.KernelIdeal.S512000 ![] Cert.KernelIdeal.Facts₀.bcast_S_S512000 (constant (F := Ideal) Cert.KernelIdeal.S_ .f32 0x00000000#32))
    (fun _ => rfl)
    (broadcastInDim Cert.ReferenceIdeal.S8388608x1 ![0] Cert.ReferenceIdeal.Facts₀.bcast_S8388608_S8388608x1_0 idx)
    (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1)
    Q
    (fun e => (pair_col1 _ _ _ e).trans (column_apply Q _ e 0))
    Cert.ReferenceIdeal.Facts₀.slices_S512000x2_S512000x1_0_1
    Cert.ReferenceIdeal.Facts₀.shapeCasts_S512000x1_S512000
  exact h

end Programs

end Cert.GatherScatter

end
-- ==== Proof.Operands.lean ====
/-
  The kernel program's host stages around its per-edge region, read against the reference's.

  * the edge attributes transposed read, at `(k, e)`, the attributes at `(e, k)`;
  * a pair of statistics stood up as a column reads, at `(k, 0)`, the pair at `k`;
  * the node table's columns gathered at the wrapped end points read, at `(k, e)`, what the reference's gather of the
    table's rows at the same wrapped end points reads at `(e, k)`;
  * a flow summed onto its target buses is one column of the reference's two flows summed together as the two columns
    of one matrix.
-/
import proofs.«118159_j69690139345431_2_alg».proof.KernelIdeal
import proofs.«118159_j69690139345431_2_alg».proof.ReferenceIdeal
import proofs.«118159_j69690139345431_2_alg».proof.Proof.KTerms
import proofs.«118159_j69690139345431_2_alg».proof.Proof.LibColumn
import proofs.«118159_j69690139345431_2_alg».proof.Proof.GatherScatter
import Idealize.ShloMosaic.Lib.ValueLayout

noncomputable section

namespace Cert.Operands

open Idealize.ShloMosaic Idealize.ShloMosaic.ValueIdx

variable [Cert.KernelIdeal.Facts] [Cert.ReferenceIdeal.Facts]

/-- The edge attributes edge-major read, at `(k, e)`, the attributes at `(e, k)`. -/
theorem attrT_apply (a3 : FVec Ideal Cert.KernelIdeal.S8388608x2 .f32) (k : Fin 2) (e : Fin 8388608) :
    Cert.KernelIdeal.Terms.attrT a3 (ix2 k e) = a3 (ix2 e k) := by
  have h := transpose_ix2_apply (a := 8388608) (b := 2) a3 Cert.KernelIdeal.Facts₀.transposes_S8388608x2_S2x8388608_1_0 k e
  exact h

/-- A pair of statistics stood up as a column reads, at `(k, 0)`, the pair at `k`. -/
theorem pairCol_apply (a : FVec Ideal Cert.KernelIdeal.S2 .f32) (k : Fin 2) (u : Fin 1) :
    Cert.KernelIdeal.Terms.pairCol a (ix2 k u) = a (ix1 k) := by
  have h := Cert.LibColumn.shapeCast_a_a1_apply (n := 2) a Cert.KernelIdeal.Facts₀.shapeCasts_S2_S2x1 k u
  exact h

/-- The node table's columns at the wrapped end points, read at `(k, e)`, are the reference's rows of the table at the
    same wrapped end points, read at `(e, k)`. -/
theorem atEnds_apply (X : FVec Ideal Cert.KernelIdeal.S512000x4 .f32) (idx : IVec Cert.KernelIdeal.S8388608 32) (k : Fin 4) (e : Fin 8388608) :
    Cert.KernelIdeal.Terms.atEnds X idx (ix2 k e)
      = Host.gather Cert.ReferenceIdeal.gather_S512000x4_S8388608x1_S8388608x4_1_0_n_n_0_1_14 X
          (broadcastInDim Cert.ReferenceIdeal.S8388608x1 ![0] Cert.ReferenceIdeal.Facts₀.bcast_S8388608_S8388608x1_0
            (select (cmpi .slt idx (broadcastInDim Cert.ReferenceIdeal.S8388608 ![] Cert.ReferenceIdeal.Facts₀.bcast_S_S8388608 (constantI Cert.ReferenceIdeal.S_ 32 0#32)))
            (addi idx (broadcastInDim Cert.ReferenceIdeal.S8388608 ![] Cert.ReferenceIdeal.Facts₀.bcast_S_S8388608 (constantI Cert.ReferenceIdeal.S_ 32 512000#32))) idx)) (ix2 e k) := by
  have h := Cert.GatherScatter.gather_bridge X (Cert.KernelIdeal.Terms.wrap idx) k e
  exact h

/-- The first flow summed onto its target buses is column `0` of the reference's two flows summed as one matrix. -/
theorem aggP_eq (idx : IVec Cert.KernelIdeal.S8388608 32) (P Q : FVec Ideal Cert.KernelIdeal.S8388608 .f32) :
    Cert.KernelIdeal.Terms.agg idx P
      = shapeCast Cert.ReferenceIdeal.S512000
        (extractStridedSlice Cert.ReferenceIdeal.S512000x1 ![0, 0]
          (Host.scatterAdd (F := Ideal) (φ := .f32) Cert.ReferenceIdeal.scatter_S512000x2_S8388608x1_S8388608x2_1_0_0_1
            (broadcastInDim Cert.ReferenceIdeal.S512000x2 ![] Cert.ReferenceIdeal.Facts₀.bcast_S_S512000x2 (constant (F := Ideal) Cert.ReferenceIdeal.S_ .f32 0x00000000#32))
            (broadcastInDim Cert.ReferenceIdeal.S8388608x1 ![0] Cert.ReferenceIdeal.Facts₀.bcast_S8388608_S8388608x1_0 idx)
            (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1))
          Cert.ReferenceIdeal.Facts₀.slices_S512000x2_S512000x1_0_0)
        Cert.ReferenceIdeal.Facts₀.shapeCasts_S512000x1_S512000 := by
  have h := (Cert.GatherScatter.scatter_bridge_0 idx P Q).symm
  exact h

/-- The second flow summed onto its target buses is column `1` of the reference's two flows summed as one matrix. -/
theorem aggQ_eq (idx : IVec Cert.KernelIdeal.S8388608 32) (P Q : FVec Ideal Cert.KernelIdeal.S8388608 .f32) :
    Cert.KernelIdeal.Terms.agg idx Q
      = shapeCast Cert.ReferenceIdeal.S512000
        (extractStridedSlice Cert.ReferenceIdeal.S512000x1 ![0, 1]
          (Host.scatterAdd (F := Ideal) (φ := .f32) Cert.ReferenceIdeal.scatter_S512000x2_S8388608x1_S8388608x2_1_0_0_1
            (broadcastInDim Cert.ReferenceIdeal.S512000x2 ![] Cert.ReferenceIdeal.Facts₀.bcast_S_S512000x2 (constant (F := Ideal) Cert.ReferenceIdeal.S_ .f32 0x00000000#32))
            (broadcastInDim Cert.ReferenceIdeal.S8388608x1 ![0] Cert.ReferenceIdeal.Facts₀.bcast_S8388608_S8388608x1_0 idx)
            (concatenate Cert.ReferenceIdeal.S8388608x2 1
              [⟨Cert.ReferenceIdeal.S8388608x1, (broadcastInDim Cert.ReferenceIdeal.S8388608x1 ![0] Cert.ReferenceIdeal.Facts₀.bcast_S8388608_S8388608x1_0 P)⟩,
               ⟨Cert.ReferenceIdeal.S8388608x1, (broadcastInDim Cert.ReferenceIdeal.S8388608x1 ![0] Cert.ReferenceIdeal.Facts₀.bcast_S8388608_S8388608x1_0 Q)⟩]
              Cert.ReferenceIdeal.Facts₀.concatenates_S8388608x1_S8388608x1_S8388608x2_d1))
          Cert.ReferenceIdeal.Facts₀.slices_S512000x2_S512000x1_0_1)
        Cert.ReferenceIdeal.Facts₀.shapeCasts_S512000x1_S512000 := by
  have h := (Cert.GatherScatter.scatter_bridge_1 idx P Q).symm
  exact h

end Cert.Operands

end
-- ==== Proof.NodeTable.lean ====
import proofs.«118159_j69690139345431_2_alg».proof.KernelIdeal
import proofs.«118159_j69690139345431_2_alg».proof.ReferenceIdeal
import Idealize.ShloMosaic.Lib.ValueIdx
import Idealize.ShloMosaic.Lib.ValueLayout
import Idealize.ShloMosaic.Lib.Pipeline.Value
import Idealize.ShloMosaic.Lib.IdealHost

/-!
# The node-feature table is the same array in both programs

Node n = b * 2000 + j (snapshot b < 256, bus j < 2000) and column k < 4 of the table x_phys : [512000, 4]:

* k < 2 :  y_pred[b, 2 j + k] * y_std[j, k] + y_mean[j, k]
* k ≥ 2 : (x_input[n, k - 2] * x_std[j, k - 2] + x_mean[j, k - 2]) / 100

The two programs reach it through different layout operations (the per-bus tables are repeated over the
snapshots through a rank-4 array on one side and a rank-3 array on the other; the node axis is split on one side and
kept flat on the other). Both are a join of two [512000, 2] halves along the columns; each half is read at an index
(n, k) on both sides and found to be the same expression of the arguments.
-/

noncomputable section

namespace Cert.NodeTable

open Idealize.ShloMosaic Idealize.ShloMosaic.ValueIdx

/-! ## The kernel's side -/

section Kernel
variable [KernelIdeal.Facts]
open KernelIdeal KernelIdeal.Facts₀ KernelIdeal.Facts

/-- A per-bus table [2000, 2] repeated over the 256 snapshots and flattened to [512000, 2]:
cast to [1, 2000, 1, 2], broadcast to [256, 2000, 1, 2], cast to [512000, 2]. -/
def kTab (t : FVec Ideal S2000x2 .f32) : FVec Ideal S512000x2 .f32 :=
  shapeCast S512000x2
    (broadcastInDim S256x2000x1x2 ![0, 1, 2, 3] bcast_S1x2000x1x2_S256x2000x1x2_0_1_2_3
      (shapeCast S1x2000x1x2 t shapeCasts_S2000x2_S1x2000x1x2))
    shapeCasts_S256x2000x1x2_S512000x2

/-- The first two columns: y_pred * y_std + y_mean. -/
def kA (a0 : FVec Ideal S256x4000 .f32) (a6 a7 : FVec Ideal S2000x2 .f32) : FVec Ideal S512000x2 .f32 :=
  addf (mulf (shapeCast S512000x2 a0 shapeCasts_S256x4000_S512000x2) (kTab a7)) (kTab a6)

/-- The last two columns: (x_input * x_std + x_mean) / 100 on the first two input features. -/
def kB (a2 : FVec Ideal S512000x7 .f32) (a4 a5 : FVec Ideal S2000x7 .f32) : FVec Ideal S512000x2 .f32 :=
  Host.divf (F := Ideal)
    (addf (mulf (extractStridedSlice S512000x2 ![0, 0] a2 slices_S512000x7_S512000x2_0_0)
                (kTab (extractStridedSlice S2000x2 ![0, 0] a5 slices_S2000x7_S2000x2_0_0)))
          (kTab (extractStridedSlice S2000x2 ![0, 0] a4 slices_S2000x7_S2000x2_0_0)))
    (broadcastInDim S512000x2 ![] bcast_S_S512000x2 (constant (F := Ideal) S_ .f32 0x42C80000#32))

/-- The kernel's node table: the two halves joined along the columns. -/
def kX (a0 : FVec Ideal S256x4000 .f32) (a2 : FVec Ideal S512000x7 .f32) (a4 a5 : FVec Ideal S2000x7 .f32)
    (a6 a7 : FVec Ideal S2000x2 .f32) : FVec Ideal S512000x4 .f32 :=
  concatenate S512000x4 1 [⟨S512000x2, kA a0 a6 a7⟩, ⟨S512000x2, kB a2 a4 a5⟩]
    concatenates_S512000x2_S512000x2_S512000x4_d1

/-- The repeated table at node n reads the table at bus n % 2000. -/
theorem kTab_apply (t : FVec Ideal S2000x2 .f32) (n : Fin 512000) (k : Fin 2) (j : Fin 2000)
    (hj : j.val = n.val % 2000) : kTab t (ix2 n k) = t (ix2 j k) := by
  have hn := n.isLt
  have hb : n.val / 2000 < 256 := by omega
  unfold kTab
  refine (shapeCast_apply _ _ (ix2 n k) (ix4 (⟨n.val / 2000, hb⟩ : Fin 256) j (0 : Fin 1) k) ?_).trans ?_
  · rw [Shape.rowMajor_val_two, Shape.rowMajor_val_four]
    show ((n.val / 2000 * 2000 + j.val) * 1 + 0) * 2 + k.val = n.val * 2 + k.val
    omega
  refine (broadcastInDim_apply _ _ _ _ (ix4 (0 : Fin 1) j (0 : Fin 1) k) ?_).trans ?_
  · intro a
    match a with
    | ⟨0, _⟩ => rfl
    | ⟨1, _⟩ => rfl
    | ⟨2, _⟩ => rfl
    | ⟨3, _⟩ => rfl
  refine shapeCast_apply _ _ _ (ix2 j k) ?_
  rw [Shape.rowMajor_val_two, Shape.rowMajor_val_four]
  show j.val * 2 + k.val = ((0 * 2000 + j.val) * 1 + 0) * 2 + k.val
  omega

/-- The kernel's first half at node n = b * 2000 + j and column k, with q = 2 j + k the column of y_pred. -/
theorem kA_apply (a0 : FVec Ideal S256x4000 .f32) (a6 a7 : FVec Ideal S2000x2 .f32)
    (n : Fin 512000) (k : Fin 2) (b : Fin 256) (j : Fin 2000) (q : Fin 4000)
    (hn : n.val = b.val * 2000 + j.val) (hq : q.val = 2 * j.val + k.val) :
    kA a0 a6 a7 (ix2 n k) = a0 (ix2 b q) * a7 (ix2 j k) + a6 (ix2 j k) := by
  have hj := j.isLt
  have hjn : j.val = n.val % 2000 := by omega
  unfold kA
  rw [addf_apply, mulf_apply, kTab_apply a7 n k j hjn, kTab_apply a6 n k j hjn]
  congr 2
  refine shapeCast_apply _ _ _ (ix2 b q) ?_
  rw [Shape.rowMajor_val_two, Shape.rowMajor_val_two]
  show b.val * 4000 + q.val = n.val * 2 + k.val
  omega

/-- The kernel's second half at node n (bus j = n % 2000) and column k; k7 is k as a column of the 7 input features. -/
theorem kB_apply (a2 : FVec Ideal S512000x7 .f32) (a4 a5 : FVec Ideal S2000x7 .f32)
    (n : Fin 512000) (k : Fin 2) (j : Fin 2000) (k7 : Fin 7)
    (hj : j.val = n.val % 2000) (hk : k7.val = k.val) :
    kB a2 a4 a5 (ix2 n k)
      = Ideal.div (a2 (ix2 n k7) * a5 (ix2 j k7) + a4 (ix2 j k7)) (Ideal.ofBits .f32 0x42C80000#32) := by
  have hk0 : k7.val = 0 + k.val := by omega
  unfold kB
  rw [hostDivf_apply, addf_apply, mulf_apply, kTab_apply _ n k j hj, kTab_apply _ n k j hj,
    broadcastInDim_scalar_apply, constant_apply,
    slice2_axis1_apply 0 a2 slices_S512000x7_S512000x2_0_0 n k k7 hk0,
    slice2_axis1_apply 0 a5 slices_S2000x7_S2000x2_0_0 j k k7 hk0,
    slice2_axis1_apply 0 a4 slices_S2000x7_S2000x2_0_0 j k k7 hk0]

end Kernel

/-! ## The reference's side -/

section Reference
variable [ReferenceIdeal.Facts]
open ReferenceIdeal ReferenceIdeal.Facts₀ ReferenceIdeal.Facts

/-- A per-bus table [2000, 2] repeated over the 256 snapshots as a [256, 2000, 2] array:
laid out as [1, 2000, 2], then repeated along the first axis. -/
def rTab (t : FVec Ideal S2000x2 .f32) : FVec Ideal S256x2000x2 .f32 :=
  broadcastInDim S256x2000x2 ![0, 1, 2] bcast_S1x2000x2_S256x2000x2_0_1_2
    (broadcastInDim S1x2000x2 ![1, 2] bcast_S2000x2_S1x2000x2_1_2 t)

/-- A prediction-shaped array [256, 4000] de-normalised, y * y_std + y_mean, on [256, 2000, 2]. -/
def r6 (a0 : FVec Ideal S256x4000 .f32) (a6 a7 : FVec Ideal S2000x2 .f32) : FVec Ideal S256x2000x2 .f32 :=
  addf (mulf (shapeCast S256x2000x2 a0 shapeCasts_S256x4000_S256x2000x2) (rTab a7)) (rTab a6)

/-- The first two columns: the de-normalised prediction, flattened to [512000, 2]. -/
def rA (a0 : FVec Ideal S256x4000 .f32) (a6 a7 : FVec Ideal S2000x2 .f32) : FVec Ideal S512000x2 .f32 :=
  shapeCast S512000x2 (r6 a0 a6 a7) shapeCasts_S256x2000x2_S512000x2

/-- The last two columns: (x_input * x_std + x_mean) / 100 on the first two input features. -/
def rB (a2 : FVec Ideal S512000x7 .f32) (a4 a5 : FVec Ideal S2000x7 .f32) : FVec Ideal S512000x2 .f32 :=
  Host.divf (F := Ideal)
    (shapeCast S512000x2
      (addf (mulf (extractStridedSlice S256x2000x2 ![0, 0, 0]
                    (shapeCast S256x2000x7 a2 shapeCasts_S512000x7_S256x2000x7) slices_S256x2000x7_S256x2000x2_0_0_0)
                  (rTab (extractStridedSlice S2000x2 ![0, 0] a5 slices_S2000x7_S2000x2_0_0)))
            (rTab (extractStridedSlice S2000x2 ![0, 0] a4 slices_S2000x7_S2000x2_0_0)))
      shapeCasts_S256x2000x2_S512000x2)
    (broadcastInDim S512000x2 ![] bcast_S_S512000x2 (constant (F := Ideal) S_ .f32 0x42C80000#32))

/-- The reference's node table: the two halves joined along the columns. -/
def rX (a0 : FVec Ideal S256x4000 .f32) (a2 : FVec Ideal S512000x7 .f32) (a4 a5 : FVec Ideal S2000x7 .f32)
    (a6 a7 : FVec Ideal S2000x2 .f32) : FVec Ideal S512000x4 .f32 :=
  concatenate S512000x4 1 [⟨S512000x2, rA a0 a6 a7⟩, ⟨S512000x2, rB a2 a4 a5⟩]
    concatenates_S512000x2_S512000x2_S512000x4_d1

/-- The repeated table at (b, j, k) reads the table at (j, k). -/
theorem rTab_apply (t : FVec Ideal S2000x2 .f32) (b : Fin 256) (j : Fin 2000) (k : Fin 2) :
    rTab t (ix3 b j k) = t (ix2 j k) := by
  unfold rTab
  refine (broadcastInDim_apply _ _ _ _ (ix3 (0 : Fin 1) j k) ?_).trans ?_
  · intro a
    match a with
    | ⟨0, _⟩ => rfl
    | ⟨1, _⟩ => rfl
    | ⟨2, _⟩ => rfl
  refine broadcastInDim_apply _ _ _ _ (ix2 j k) ?_
  intro a
  match a with
  | ⟨0, _⟩ => rfl
  | ⟨1, _⟩ => rfl

/-- The de-normalised array at (b, j, k), with q = 2 j + k the column of the [256, 4000] operand. -/
theorem r6_apply (a0 : FVec Ideal S256x4000 .f32) (a6 a7 : FVec Ideal S2000x2 .f32)
    (b : Fin 256) (j : Fin 2000) (k : Fin 2) (q : Fin 4000) (hq : q.val = 2 * j.val + k.val) :
    r6 a0 a6 a7 (ix3 b j k) = a0 (ix2 b q) * a7 (ix2 j k) + a6 (ix2 j k) := by
  unfold r6
  rw [addf_apply, mulf_apply, rTab_apply, rTab_apply]
  congr 2
  refine shapeCast_apply _ _ _ (ix2 b q) ?_
  rw [Shape.rowMajor_val_two, Shape.rowMajor_val_three]
  show b.val * 4000 + q.val = (b.val * 2000 + j.val) * 2 + k.val
  omega

/-- A [256, 2000, 2] array flattened to [512000, 2] reads, at node n = b * 2000 + j, the entry (b, j, k). -/
theorem flat_apply (Z : FVec Ideal S256x2000x2 .f32) (n : Fin 512000) (k : Fin 2) (b : Fin 256) (j : Fin 2000)
    (hn : n.val = b.val * 2000 + j.val) :
    shapeCast S512000x2 Z shapeCasts_S256x2000x2_S512000x2 (ix2 n k) = Z (ix3 b j k) := by
  refine shapeCast_apply _ _ _ (ix3 b j k) ?_
  rw [Shape.rowMajor_val_two, Shape.rowMajor_val_three]
  show (b.val * 2000 + j.val) * 2 + k.val = n.val * 2 + k.val
  omega

/-- The reference's first half at node n = b * 2000 + j and column k. -/
theorem rA_apply (a0 : FVec Ideal S256x4000 .f32) (a6 a7 : FVec Ideal S2000x2 .f32)
    (n : Fin 512000) (k : Fin 2) (b : Fin 256) (j : Fin 2000) (q : Fin 4000)
    (hn : n.val = b.val * 2000 + j.val) (hq : q.val = 2 * j.val + k.val) :
    rA a0 a6 a7 (ix2 n k) = a0 (ix2 b q) * a7 (ix2 j k) + a6 (ix2 j k) := by
  unfold rA
  rw [flat_apply _ n k b j hn, r6_apply a0 a6 a7 b j k q hq]

/-- The reference's second half at node n = b * 2000 + j and column k. -/
theorem rB_apply (a2 : FVec Ideal S512000x7 .f32) (a4 a5 : FVec Ideal S2000x7 .f32)
    (n : Fin 512000) (k : Fin 2) (b : Fin 256) (j : Fin 2000) (k7 : Fin 7)
    (hn : n.val = b.val * 2000 + j.val) (hk : k7.val = k.val) :
    rB a2 a4 a5 (ix2 n k)
      = Ideal.div (a2 (ix2 n k7) * a5 (ix2 j k7) + a4 (ix2 j k7)) (Ideal.ofBits .f32 0x42C80000#32) := by
  have hk0 : k7.val = 0 + k.val := by omega
  unfold rB
  rw [hostDivf_apply, flat_apply _ n k b j hn, addf_apply, mulf_apply, rTab_apply, rTab_apply,
    broadcastInDim_scalar_apply, constant_apply,
    slice2_axis1_apply 0 a5 slices_S2000x7_S2000x2_0_0 j k k7 hk0,
    slice2_axis1_apply 0 a4 slices_S2000x7_S2000x2_0_0 j k k7 hk0]
  congr 3
  refine (extractStridedSlice_apply _ _ _ (ix3 b j k) (ix3 b j k7) ?_).trans ?_
  · intro a
    match a with
    | ⟨0, _⟩ => exact (Nat.zero_add _).symm
    | ⟨1, _⟩ => exact (Nat.zero_add _).symm
    | ⟨2, _⟩ => exact hk0
  refine shapeCast_apply _ _ _ (ix2 n k7) ?_
  rw [Shape.rowMajor_val_two, Shape.rowMajor_val_three]
  show n.val * 7 + k7.val = (b.val * 2000 + j.val) * 7 + k7.val
  omega

end Reference

/-! ## The two tables are equal -/

section Both
variable [KernelIdeal.Facts] [ReferenceIdeal.Facts]

/-- The first halves agree. -/
theorem kA_eq_rA (a0 : FVec Ideal KernelIdeal.S256x4000 .f32) (a6 a7 : FVec Ideal KernelIdeal.S2000x2 .f32) :
    kA a0 a6 a7 = rA a0 a6 a7 := by
  funext i
  obtain ⟨n, k, rfl⟩ : ∃ (n : Fin 512000) (k : Fin 2), i = ix2 n k := ⟨i 0, i 1, eq_ix2 i⟩
  have hn := n.isLt
  have hk := k.isLt
  have hb : n.val / 2000 < 256 := by omega
  have hj : n.val % 2000 < 2000 := by omega
  have hq : 2 * (n.val % 2000) + k.val < 4000 := by omega
  have e : n.val = n.val / 2000 * 2000 + n.val % 2000 := by omega
  rw [kA_apply a0 a6 a7 n k ⟨n.val / 2000, hb⟩ ⟨n.val % 2000, hj⟩ ⟨2 * (n.val % 2000) + k.val, hq⟩ e rfl,
    rA_apply a0 a6 a7 n k ⟨n.val / 2000, hb⟩ ⟨n.val % 2000, hj⟩ ⟨2 * (n.val % 2000) + k.val, hq⟩ e rfl]

/-- The second halves agree. -/
theorem kB_eq_rB (a2 : FVec Ideal KernelIdeal.S512000x7 .f32) (a4 a5 : FVec Ideal KernelIdeal.S2000x7 .f32) :
    kB a2 a4 a5 = rB a2 a4 a5 := by
  funext i
  obtain ⟨n, k, rfl⟩ : ∃ (n : Fin 512000) (k : Fin 2), i = ix2 n k := ⟨i 0, i 1, eq_ix2 i⟩
  have hn := n.isLt
  have hk := k.isLt
  have hb : n.val / 2000 < 256 := by omega
  have hj : n.val % 2000 < 2000 := by omega
  have hk7 : k.val < 7 := by omega
  have e : n.val = n.val / 2000 * 2000 + n.val % 2000 := by omega
  rw [kB_apply a2 a4 a5 n k ⟨n.val % 2000, hj⟩ ⟨k.val, hk7⟩ rfl rfl,
    rB_apply a2 a4 a5 n k ⟨n.val / 2000, hb⟩ ⟨n.val % 2000, hj⟩ ⟨k.val, hk7⟩ e rfl]

/-- The node-feature table is the same array in both programs. -/
theorem kX_eq_rX (a0 : FVec Ideal KernelIdeal.S256x4000 .f32) (a2 : FVec Ideal KernelIdeal.S512000x7 .f32)
    (a4 a5 : FVec Ideal KernelIdeal.S2000x7 .f32) (a6 a7 : FVec Ideal KernelIdeal.S2000x2 .f32) :
    kX a0 a2 a4 a5 a6 a7 = rX a0 a2 a4 a5 a6 a7 := by
  unfold kX rX
  rw [kA_eq_rA, kB_eq_rB]

end Both

end Cert.NodeTable
-- ==== Proof.NodeTableRef.lean ====
import proofs.«118159_j69690139345431_2_alg».proof.Proof.NodeTable
import proofs.«118159_j69690139345431_2_alg».proof.Proof.RefRunPatched

/-!
# The reference's node table, as composed from its operations, is the function of the arguments named in NodeTable

The reference program's node-feature table is its operations' composed term over the contents of the argument
buffers; that term is the table rX of NodeTable at those contents, operation for operation.
-/

noncomputable section

namespace Cert.NodeTable

open Idealize.ShloMosaic Idealize.SL.Sem

variable [ReferenceIdeal.Facts]

/-- The reference's de-normalised prediction is r6 of the contents of y_pred, y_mean and y_std. -/
theorem r6_eq_res (V0 : Valuation ReferenceIdeal.τ ReferenceIdeal.sig (Elt Ideal)) :
    ReferenceIdeal.ValueP.res_main_v6 (F := Ideal) V0
      = r6 (V0 (Proc.devRef .tc ReferenceIdeal.main_arg0)) (V0 (Proc.devRef .tc ReferenceIdeal.main_arg6))
          (V0 (Proc.devRef .tc ReferenceIdeal.main_arg7)) := rfl

/-- The reference's difference of the de-normalised prediction and target is the difference of r6 at y_pred and
at y_true, over the same two tables. -/
theorem r14_eq_res (V0 : Valuation ReferenceIdeal.τ ReferenceIdeal.sig (Elt Ideal)) :
    ReferenceIdeal.ValueP.res_main_v14 (F := Ideal) V0
      = subf (r6 (V0 (Proc.devRef .tc ReferenceIdeal.main_arg0)) (V0 (Proc.devRef .tc ReferenceIdeal.main_arg6))
                (V0 (Proc.devRef .tc ReferenceIdeal.main_arg7)))
             (r6 (V0 (Proc.devRef .tc ReferenceIdeal.main_arg1)) (V0 (Proc.devRef .tc ReferenceIdeal.main_arg6))
                (V0 (Proc.devRef .tc ReferenceIdeal.main_arg7))) := rfl

/-- The reference's node table is rX of the contents of the six argument buffers it reads. -/
theorem rX_eq_res (V0 : Valuation ReferenceIdeal.τ ReferenceIdeal.sig (Elt Ideal)) :
    ReferenceIdeal.ValueP.res_main_v32 (F := Ideal) V0
      = rX (V0 (Proc.devRef .tc ReferenceIdeal.main_arg0)) (V0 (Proc.devRef .tc ReferenceIdeal.main_arg2))
          (V0 (Proc.devRef .tc ReferenceIdeal.main_arg4)) (V0 (Proc.devRef .tc ReferenceIdeal.main_arg5))
          (V0 (Proc.devRef .tc ReferenceIdeal.main_arg6)) (V0 (Proc.devRef .tc ReferenceIdeal.main_arg7)) := rfl

end Cert.NodeTable
-- ==== Proof.LibIdx3.lean ====
/-
  Sums over a rank-3 index set.

  An index of a rank-3 shape [a, b, c] is its three coordinates, so a sum over the index set is the triple sum over the
  coordinates' ranges, outermost axis first.
-/
import Idealize.ShloMosaic.Lib.ValueIdx
import Mathlib.Algebra.BigOperators.Fin

open Idealize.ShloMosaic Idealize.ShloMosaic.ValueIdx
open Finset

namespace Cert.LibIdx3

/-- A rank-3 index set is the product of its coordinates' ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {a b c : Nat} (f : (⟨3, ![a, b, c]⟩ : Shape).Idx → M) :
    ∑ i, f i = ∑ p : Fin a, ∑ q : Fin b, ∑ r : Fin c, f (ix3 p q r) := by
  rw [← Equiv.sum_comp (idxEquiv3 (a := a) (b := b) (c := c)).symm f, Fintype.sum_prod_type]
  refine sum_congr rfl fun p _ => ?_
  rw [Fintype.sum_prod_type]
  rfl

end Cert.LibIdx3
-- ==== Proof.MseRef.lean ====
import proofs.«118159_j69690139345431_2_alg».proof.Proof.NodeTable
import proofs.«118159_j69690139345431_2_alg».proof.Proof.LibIdx3
import Idealize.ShloMosaic.PureOps.Ideal.Laws

/-!
# The reference's mean-squared-error sum as a double sum

The reference de-normalises the prediction and the target, y * y_std + y_mean on [256, 2000, 2], subtracts, squares
and sums over every entry. On real entries the offsets cancel, (p s + m) - (t s + m) = (p - t) s, and a bus j with a
component k is the column 2 j + k of the [256, 4000] arrays, so the sum is the double sum over snapshots and columns
of ((y_pred - y_true) * y_std)², the scale table read as a row of 4000.
-/

noncomputable section

namespace Cert.MseRef

open Idealize.ShloMosaic Idealize.ShloMosaic.ValueIdx Cert.NodeTable
open scoped BigOperators

/-! ## Pairs (bus, component) as one column of the [256, 4000] arrays -/

/-- A bus j < 2000 and a component k < 2 name the column 2 j + k < 4000, and every column is so named once. -/
def pairEquiv : Fin 2000 × Fin 2 ≃ Fin 4000 where
  toFun p := ⟨2 * p.1.val + p.2.val, by have := p.1.isLt; have := p.2.isLt; omega⟩
  invFun q := (⟨q.val / 2, by have := q.isLt; omega⟩, ⟨q.val % 2, by omega⟩)
  left_inv p := by
    have h1 := p.1.isLt
    have h2 := p.2.isLt
    exact Prod.ext (Fin.ext (by show (2 * p.1.val + p.2.val) / 2 = p.1.val; omega))
      (Fin.ext (by show (2 * p.1.val + p.2.val) % 2 = p.2.val; omega))
  right_inv q := Fin.ext (by show 2 * (q.val / 2) + q.val % 2 = q.val; omega)

/-- A double sum over buses and components is the sum over the 4000 columns. -/
theorem sum_pairs {M : Type*} [AddCommMonoid M] (g : Fin 4000 → M) :
    ∑ j : Fin 2000, ∑ k : Fin 2, g (pairEquiv (j, k)) = ∑ q : Fin 4000, g q := by
  rw [← Fintype.sum_prod_type' (fun j k => g (pairEquiv (j, k)))]
  exact Equiv.sum_comp pairEquiv g

/-! ## The algebra of one term -/

/-- On real entries, (p s + m) - (t s + m) = (p - t) s. -/
theorem denorm_sub {p t s m : EReal} (hp : ∃ r : ℝ, p = r) (ht : ∃ r : ℝ, t = r) (hs : ∃ r : ℝ, s = r)
    (hm : ∃ r : ℝ, m = r) : (p * s + m) - (t * s + m) = (p - t) * s := by
  obtain ⟨p', rfl⟩ := hp
  obtain ⟨t', rfl⟩ := ht
  obtain ⟨s', rfl⟩ := hs
  obtain ⟨m', rfl⟩ := hm
  rw [← EReal.coe_mul, ← EReal.coe_mul, ← EReal.coe_add, ← EReal.coe_add, ← EReal.coe_sub, ← EReal.coe_sub,
    ← EReal.coe_mul]
  congr 1
  ring

/-! ## The reference's squared-error sum -/

section Reference
variable [ReferenceIdeal.Facts]
open ReferenceIdeal ReferenceIdeal.Facts₀ ReferenceIdeal.Facts

/-- The per-bus scale table [2000, 2] read as a row of 4000 columns. -/
def ystdRow (a7 : FVec Ideal S2000x2 .f32) (q : Fin 4000) : EReal :=
  a7 (ix2 (⟨q.val / 2, by have := q.isLt; omega⟩ : Fin 2000) (⟨q.val % 2, by omega⟩ : Fin 2))

/-- At the column 2 j + k the row reads the table's entry (j, k). -/
theorem ystdRow_pair (a7 : FVec Ideal S2000x2 .f32) (j : Fin 2000) (k : Fin 2) :
    ystdRow a7 (pairEquiv (j, k)) = a7 (ix2 j k) := by
  show a7 (ix2 (pairEquiv.symm (pairEquiv (j, k))).1 (pairEquiv.symm (pairEquiv (j, k))).2) = _
  rw [Equiv.symm_apply_apply]

/-- The reference's sum of squared differences of the two de-normalised arrays, over all of [256, 2000, 2],
is the double sum over snapshots and columns of the squared scaled differences of the normalised arrays. -/
theorem mse_sum (a0 a1 : FVec Ideal S256x4000 .f32) (a6 a7 : FVec Ideal S2000x2 .f32)
    (h0 : ∀ i, ∃ r : ℝ, a0 i = r) (h1 : ∀ i, ∃ r : ℝ, a1 i = r)
    (h6 : ∀ i, ∃ r : ℝ, a6 i = r) (h7 : ∀ i, ∃ r : ℝ, a7 i = r) :
    Host.reduceAdd (F := Ideal)
        (mulf (subf (r6 a0 a6 a7) (r6 a1 a6 a7)) (subf (r6 a0 a6 a7) (r6 a1 a6 a7)))
        (constant (F := Ideal) S_ .f32 0x00000000#32) reducesTo_S256x2000x2_S_d0_1_2 h_S_ ix0
      = ∑ b : Fin 256, ∑ q : Fin 4000,
          ((a0 (ix2 b q) - a1 (ix2 b q)) * ystdRow a7 q) * ((a0 (ix2 b q) - a1 (ix2 b q)) * ystdRow a7 q) := by
  rw [hostReduceAdd_apply, Ideal.hostReduceAdd_total _ (fun b => b.elim0), constant_apply, Ideal.ofBits_zero_f32,
    zero_add, LibIdx3.sum_idx3]
  refine Finset.sum_congr rfl fun b _ => ?_
  rw [← sum_pairs]
  refine Finset.sum_congr rfl fun j _ => Finset.sum_congr rfl fun k _ => ?_
  have hq : (pairEquiv (j, k)).val = 2 * j.val + k.val := rfl
  rw [mulf_apply, subf_apply, r6_apply a0 a6 a7 b j k _ hq, r6_apply a1 a6 a7 b j k _ hq, ystdRow_pair,
    denorm_sub (h0 _) (h1 _) (h7 _) (h6 _)]

end Reference

end Cert.MseRef
-- ==== Proof.MseBridge.lean ====
import proofs.«118159_j69690139345431_2_alg».proof.Proof.MseRef
import proofs.«118159_j69690139345431_2_alg».proof.Proof.ScaleRow

/-!
# The error term is the same scalar in both programs

The kernel's first region leaves the sum, over snapshots b and columns q, of ((y_pred - y_true) * scale)², the scale
table read as a row of 4000; the program then reads that [1, 1] array as a scalar and divides by the number of entries.
The reference sums the squared differences of the de-normalised arrays over [256, 2000, 2] and divides by the same
number. On real entries the two sums are equal (the offsets cancel and a bus with a component is one column), hence
so are the quotients.
-/

noncomputable section

namespace Cert.MseBridge

open Idealize.ShloMosaic Idealize.ShloMosaic.ValueIdx Cert.NodeTable Cert.MseRef
open scoped BigOperators

variable [Cert.KernelIdeal.Facts] [Cert.ReferenceIdeal.Facts]

/-- The kernel's error term — its region's sum of squared scaled differences, as a scalar, over the number of
entries — is the reference's: the sum of the squared differences of the de-normalised arrays over the same number. -/
theorem mse_bridge (a0 a1 : FVec Ideal KernelIdeal.S256x4000 .f32) (a6 a7 : FVec Ideal KernelIdeal.S2000x2 .f32)
    (h0 : ∀ i, ∃ r : ℝ, a0 i = r) (h1 : ∀ i, ∃ r : ℝ, a1 i = r)
    (h6 : ∀ i, ∃ r : ℝ, a6 i = r) (h7 : ∀ i, ∃ r : ℝ, a7 i = r) :
    KernelIdeal.Terms.mseOf (F := Ideal) (fun _ =>
        ∑ b : Fin 256, ∑ q : Fin 4000,
          ((a0 (ix2 b q) - a1 (ix2 b q)) * KernelIdeal.Terms.scaleRow (F := Ideal) a7 (ix2 (0 : Fin 1) q))
            * ((a0 (ix2 b q) - a1 (ix2 b q)) * KernelIdeal.Terms.scaleRow (F := Ideal) a7 (ix2 (0 : Fin 1) q)))
      = Host.divf (F := Ideal)
          (Host.reduceAdd (F := Ideal)
            (mulf (subf (r6 a0 a6 a7) (r6 a1 a6 a7)) (subf (r6 a0 a6 a7) (r6 a1 a6 a7)))
            (constant (F := Ideal) ReferenceIdeal.S_ .f32 0x00000000#32)
            ReferenceIdeal.Facts₀.reducesTo_S256x2000x2_S_d0_1_2 ReferenceIdeal.Facts₀.h_S_)
          (constant (F := Ideal) ReferenceIdeal.S_ .f32 0x497A0000#32) := by
  unfold KernelIdeal.Terms.mseOf
  funext i
  obtain rfl := eq_ix0 i
  rw [hostDivf_apply, hostDivf_apply, mse_sum a0 a1 a6 a7 h0 h1 h6 h7]
  congr 1
  unfold shapeCast
  refine Finset.sum_congr rfl fun b _ => Finset.sum_congr rfl fun q _ => ?_
  rw [KernelIdeal.Terms.scaleRow_apply]
  rfl

end Cert.MseBridge
-- ==== Proof.MseBridgeRef.lean ====
import proofs.«118159_j69690139345431_2_alg».proof.Proof.MseBridge
import proofs.«118159_j69690139345431_2_alg».proof.Proof.NodeTableRef

/-!
# The error term against the reference's composed term

The reference's run states its error term over the contents of the argument buffers; with those contents named, it is
the quotient of MseBridge.
-/

noncomputable section

namespace Cert.MseBridge

open Idealize.ShloMosaic Idealize.ShloMosaic.ValueIdx Idealize.SL.Sem Cert.NodeTable Cert.MseRef
open scoped BigOperators

variable [Cert.KernelIdeal.Facts] [Cert.ReferenceIdeal.Facts]

/-- The same, against the reference's error term as its run composes it from the argument buffers' contents. -/
theorem mse_bridge_res (V0 : Valuation ReferenceIdeal.τ ReferenceIdeal.sig (Elt Ideal))
    (a0 a1 : FVec Ideal KernelIdeal.S256x4000 .f32) (a6 a7 : FVec Ideal KernelIdeal.S2000x2 .f32)
    (e0 : V0 (Proc.devRef .tc ReferenceIdeal.main_arg0) = a0) (e1 : V0 (Proc.devRef .tc ReferenceIdeal.main_arg1) = a1)
    (e6 : V0 (Proc.devRef .tc ReferenceIdeal.main_arg6) = a6) (e7 : V0 (Proc.devRef .tc ReferenceIdeal.main_arg7) = a7)
    (h0 : ∀ i, ∃ r : ℝ, a0 i = r) (h1 : ∀ i, ∃ r : ℝ, a1 i = r)
    (h6 : ∀ i, ∃ r : ℝ, a6 i = r) (h7 : ∀ i, ∃ r : ℝ, a7 i = r) :
    KernelIdeal.Terms.mseOf (F := Ideal) (fun _ =>
        ∑ b : Fin 256, ∑ q : Fin 4000,
          ((a0 (ix2 b q) - a1 (ix2 b q)) * KernelIdeal.Terms.scaleRow (F := Ideal) a7 (ix2 (0 : Fin 1) q))
            * ((a0 (ix2 b q) - a1 (ix2 b q)) * KernelIdeal.Terms.scaleRow (F := Ideal) a7 (ix2 (0 : Fin 1) q)))
      = Host.divf (F := Ideal)
          (Host.reduceAdd (F := Ideal)
            (mulf (ReferenceIdeal.ValueP.res_main_v14 (F := Ideal) V0) (ReferenceIdeal.ValueP.res_main_v14 (F := Ideal) V0))
            (constant (F := Ideal) ReferenceIdeal.S_ .f32 0x00000000#32)
            ReferenceIdeal.Gen.reducesTo_S256x2000x2_S_d0_1_2 ReferenceIdeal.Gen.h_S_)
          (constant (F := Ideal) ReferenceIdeal.S_ .f32 0x497A0000#32) := by
  subst e0 e1 e6 e7
  rw [r14_eq_res]
  exact mse_bridge _ _ _ _ h0 h1 h6 h7

end Cert.MseBridge
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  From the precondition to real entries.

  The precondition computes, for each float argument array, the conjunction over all its entries of "the absolute value
  is below the single-precision word of +infinity", and the conjunction of these over the ten float arguments; it holds
  when that bit is one. On the extended reals an absolute value max(x, −x) below +∞ says x is a real number. So under
  the precondition every entry of every float argument is real; the arrays named here are the ones the error term's
  identity needs (predictions, targets, target offsets and scales).
-/
import proofs.«118159_j69690139345431_2_alg».proof.Pre_finite_inputs
import proofs.«118159_j69690139345431_2_alg».proof.Proof.LibSums
import Idealize.ShloMosaic.Lib.ReduceAll
import Idealize.ShloMosaic.Lib.ValueIdx

noncomputable section

namespace Cert.Finite

open Idealize.ShloMosaic Idealize.ShloMosaic.ValueIdx Cert.Pre_finite_inputs Cert.LibSums

variable [Cert.Pre_finite_inputs.Facts]

instance : Subsingleton Cert.Pre_finite_inputs.S_.Idx := ⟨fun a b => funext fun d => d.elim0⟩

/-- An array whose "every entry is finite" bit is one has real entries. -/
theorem reals_of_all {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) rd hu ix0 = 1#1) :
    ∀ i, ∃ r : ℝ, x i = r := fun i =>
  real_of_finite_bit (x i) (Host.reduce_andi_all _ _ rd hu ix0 e i)

/-- Under the precondition the predictions, the targets and the target statistics have real entries. -/
theorem reals_of_pre (a0 a1 : FVec Ideal S256x4000 .f32) (a2 : FVec Ideal S512000x7 .f32) (a3 : FVec Ideal S8388608x2 .f32)
    (a4 a5 : FVec Ideal S2000x7 .f32) (a6 a7 : FVec Ideal S2000x2 .f32) (a8 a9 : FVec Ideal S2 .f32)
    (a10 : IVec S2x8388608 32) (a11 : IVec S2000 1)
    (h : fn (F := Ideal) a0 a1 a2 a3 a4 a5 a6 a7 a8 a9 a10 a11 = fun _ => 1#1) :
    (∀ i, ∃ r : ℝ, a0 i = r) ∧ (∀ i, ∃ r : ℝ, a1 i = r) ∧ (∀ i, ∃ r : ℝ, a6 i = r) ∧ (∀ i, ∃ r : ℝ, a7 i = r) := by
  have h0 := congrFun h ix0
  dsimp only [fn, fn_part1, fn_part2] at h0
  obtain ⟨h43, -⟩ := IntOp.andi_eq_one.1 h0
  obtain ⟨h38, -⟩ := IntOp.andi_eq_one.1 h43
  obtain ⟨h33, h37⟩ := IntOp.andi_eq_one.1 h38
  obtain ⟨h28, h32⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  exact ⟨reals_of_all a0 _ _ _ h3, reals_of_all a1 _ _ _ h7, reals_of_all a6 _ _ _ h32, reals_of_all a7 _ _ _ h37⟩

end Cert.Finite

end
-- ==== Proof.Algebraic.lean ====
/-
  The two idealized programs compute the same loss.

  Run from memories that agree on the twelve arguments, the kernel program ends with its result at the loss of: the
  quotient by 1 024 000 of the first region's sum of squared scaled differences; the two sums of the second region's
  per-edge flows scattered onto the edges' first end points; the node table's two injection columns; and the mask.
  The reference ends with the same loss of its own stages, and stage by stage these are the same arrays:
  * the node table is the same array (two layouts of one table);
  * an edge's end-bus rows, gathered from the transposed table by the kernel program and from the table by the
    reference, hold the same entries; the attributes and the statistics are read at the same places; so the kernel's
    flow of edge e and the reference's are the same function of the same ten numbers;
  * scattering two vectors separately, or as the two columns of one matrix, sums the same edges onto each bus;
  * the error term: (p·s + m) − (t·s + m) = (p − t)·s on real numbers — here, and only here, the precondition is used —
    and a sum over (snapshot, bus, component) is the sum over (snapshot, column).
-/
import proofs.«118159_j69690139345431_2_alg».proof.Defs
import proofs.«118159_j69690139345431_2_alg».proof.Proof.KRun
import proofs.«118159_j69690139345431_2_alg».proof.Proof.KVal
import proofs.«118159_j69690139345431_2_alg».proof.Proof.ScaleRow
import proofs.«118159_j69690139345431_2_alg».proof.Proof.Region0Value
import proofs.«118159_j69690139345431_2_alg».proof.Proof.Region1Value
import proofs.«118159_j69690139345431_2_alg».proof.Proof.RefEdge
import proofs.«118159_j69690139345431_2_alg».proof.Proof.Operands
import proofs.«118159_j69690139345431_2_alg».proof.Proof.NodeTableRef
import proofs.«118159_j69690139345431_2_alg».proof.Proof.MseBridgeRef
import proofs.«118159_j69690139345431_2_alg».proof.Proof.Finite
import proofs.«118159_j69690139345431_2_alg».proof.Proof.Gen.Pre_finite_inputs
import proofs.«118159_j69690139345431_2_alg».proof.Proof.Gen.ReferenceIdeal
import proofs.«118159_j69690139345431_2_alg».proof.Proof.Gen.KernelIdeal

set_option maxRecDepth 16384

noncomputable section

namespace Cert.Proof.Algebraic

open Idealize.ShloMosaic Idealize.ShloMosaic.TcCoe Idealize.SL.Sem Idealize.ShloMosaic.StableHlo
open Idealize.ShloMosaic.ValueIdx

/-! ## The reference's result as a function of its launch contents -/

section RefTerm
open Cert.ReferenceIdeal Cert.ReferenceIdeal.Gen Cert.ReferenceIdeal.ValueP

/-- The reference's result, as its run states it. -/
def refOut (V0 : Valuation Cert.ReferenceIdeal.τ Cert.ReferenceIdeal.sig (Elt Ideal)) : FVec Ideal Cert.ReferenceIdeal.S_ .f32 :=
  addf (mulf (constant S_ .f32 0x3F666666#32) (Host.divf (Host.reduceAdd (mulf (res_main_v14 V0) (res_main_v14 V0)) (constant S_ .f32 0x00000000#32) reducesTo_S256x2000x2_S_d0_1_2 h_S_) (constant S_ .f32 0x497A0000#32))) (mulf (constant S_ .f32 0x3B03126F#32) (Host.divf (Host.reduceAdd (mulf (addf (mulf (res_main_v125 V0) (res_main_v125 V0)) (mulf (res_main_v131 V0) (res_main_v131 V0))) (res_main_v138 V0)) (constant S_ .f32 0x00000000#32) reducesTo_S512000_S_d0 h_S_) (Host.reduceAdd (res_main_v138 V0) (constant S_ .f32 0x00000000#32) reducesTo_S512000_S_d0 h_S_)))

end RefTerm

open Cert.KernelIdeal.Terms Cert.KernelIdeal.Fold
open Cert.ReferenceIdeal.ValueP Cert.ReferenceIdeal.EdgeRead

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD) (V0 : Valuation Cert.ReferenceIdeal.τ Cert.ReferenceIdeal.sig (Elt Ideal))

/-- The reference's launch contents are the kernel program's arguments. -/
structure Agree : Prop where
  e0 : (V0 (Proc.devRef .tc Cert.ReferenceIdeal.main_arg0)) = (m ((c.tc : Thread Cert.KernelIdeal.nD Cert.KernelIdeal.τ).loc Cert.KernelIdeal.main_arg0))
  e1 : (V0 (Proc.devRef .tc Cert.ReferenceIdeal.main_arg1)) = (m ((c.tc : Thread Cert.KernelIdeal.nD Cert.KernelIdeal.τ).loc Cert.KernelIdeal.main_arg1))
  e2 : (V0 (Proc.devRef .tc Cert.ReferenceIdeal.main_arg2)) = (m ((c.tc : Thread Cert.KernelIdeal.nD Cert.KernelIdeal.τ).loc Cert.KernelIdeal.main_arg2))
  e3 : (V0 (Proc.devRef .tc Cert.ReferenceIdeal.main_arg3)) = (m ((c.tc : Thread Cert.KernelIdeal.nD Cert.KernelIdeal.τ).loc Cert.KernelIdeal.main_arg3))
  e4 : (V0 (Proc.devRef .tc Cert.ReferenceIdeal.main_arg4)) = (m ((c.tc : Thread Cert.KernelIdeal.nD Cert.KernelIdeal.τ).loc Cert.KernelIdeal.main_arg4))
  e5 : (V0 (Proc.devRef .tc Cert.ReferenceIdeal.main_arg5)) = (m ((c.tc : Thread Cert.KernelIdeal.nD Cert.KernelIdeal.τ).loc Cert.KernelIdeal.main_arg5))
  e6 : (V0 (Proc.devRef .tc Cert.ReferenceIdeal.main_arg6)) = (m ((c.tc : Thread Cert.KernelIdeal.nD Cert.KernelIdeal.τ).loc Cert.KernelIdeal.main_arg6))
  e7 : (V0 (Proc.devRef .tc Cert.ReferenceIdeal.main_arg7)) = (m ((c.tc : Thread Cert.KernelIdeal.nD Cert.KernelIdeal.τ).loc Cert.KernelIdeal.main_arg7))
  e8 : (V0 (Proc.devRef .tc Cert.ReferenceIdeal.main_arg8)) = (m ((c.tc : Thread Cert.KernelIdeal.nD Cert.KernelIdeal.τ).loc Cert.KernelIdeal.main_arg8))
  e9 : (V0 (Proc.devRef .tc Cert.ReferenceIdeal.main_arg9)) = (m ((c.tc : Thread Cert.KernelIdeal.nD Cert.KernelIdeal.τ).loc Cert.KernelIdeal.main_arg9))
  e10 : (V0 (Proc.devRef .tc Cert.ReferenceIdeal.main_arg10)) = (m ((c.tc : Thread Cert.KernelIdeal.nD Cert.KernelIdeal.τ).loc Cert.KernelIdeal.main_arg10))
  e11 : (V0 (Proc.devRef .tc Cert.ReferenceIdeal.main_arg11)) = (m ((c.tc : Thread Cert.KernelIdeal.nD Cert.KernelIdeal.τ).loc Cert.KernelIdeal.main_arg11))

variable {m ρ c V0}

/-! ## The shared stages -/

theorem node_eq (h : Agree m c V0) : (node (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = res_main_v32 V0 := by
  rw [Cert.NodeTable.rX_eq_res V0, h.e0, h.e2, h.e4, h.e5, h.e6, h.e7]
  exact Cert.NodeTable.kX_eq_rX _ _ _ _ _ _

theorem ends0_eq (h : Agree m c V0) : ends0 (m ((c.tc : Thread Cert.KernelIdeal.nD Cert.KernelIdeal.τ).loc Cert.KernelIdeal.main_arg10)) = res_main_v40 V0 := by
  rw [← h.e10]; rfl

theorem ends1_eq (h : Agree m c V0) : ends1 (m ((c.tc : Thread Cert.KernelIdeal.nD Cert.KernelIdeal.τ).loc Cert.KernelIdeal.main_arg10)) = res_main_v42 V0 := by
  rw [← h.e10]; rfl

theorem mask_eq (h : Agree m c V0) : maskF (F := Ideal) (m ((c.tc : Thread Cert.KernelIdeal.nD Cert.KernelIdeal.τ).loc Cert.KernelIdeal.main_arg11)) = res_main_v138 V0 := by
  rw [← h.e11]; rfl

/-! ## The per-edge region's operands, read at an edge -/

theorem v39_at (h : Agree m c V0) (k : Fin 4) (e : Fin 8388608) :
    Cert.KernelIdeal.Gen.V3 m ρ c Cert.KernelIdeal.main_v39 (ix2 k e) = res_main_v49 V0 (ix2 e k) := by
  rw [V3_v39, Cert.Operands.atEnds_apply, node_eq h, ends0_eq h]
  rfl

theorem v46_at (h : Agree m c V0) (k : Fin 4) (e : Fin 8388608) :
    Cert.KernelIdeal.Gen.V3 m ρ c Cert.KernelIdeal.main_v46 (ix2 k e) = res_main_v56 V0 (ix2 e k) := by
  rw [V3_v46, Cert.Operands.atEnds_apply, node_eq h, ends1_eq h]
  rfl

theorem v47_at (h : Agree m c V0) (k : Fin 2) (e : Fin 8388608) :
    Cert.KernelIdeal.Gen.V3 m ρ c Cert.KernelIdeal.main_v47 (ix2 k e) = (V0 (Proc.devRef .tc Cert.ReferenceIdeal.main_arg3)) (ix2 e k) := by
  rw [V3_v47, Cert.Operands.attrT_apply, h.e3]

theorem v48_at (h : Agree m c V0) (k : Fin 2) (u : Fin 1) :
    Cert.KernelIdeal.Gen.V3 m ρ c Cert.KernelIdeal.main_v48 (ix2 k u) = (V0 (Proc.devRef .tc Cert.ReferenceIdeal.main_arg8)) (ix1 k) := by
  rw [V3_v48, Cert.Operands.pairCol_apply, h.e8]

theorem v49_at (h : Agree m c V0) (k : Fin 2) (u : Fin 1) :
    Cert.KernelIdeal.Gen.V3 m ρ c Cert.KernelIdeal.main_v49 (ix2 k u) = (V0 (Proc.devRef .tc Cert.ReferenceIdeal.main_arg9)) (ix1 k) := by
  rw [V3_v49, Cert.Operands.pairCol_apply, h.e9]

/-! ## The flows -/

theorem activeFlow_eq (h : Agree m c V0) :
    (Cert.KernelIdeal.Gen.dat1 (F := Ideal) (Cert.KernelIdeal.Gen.V3 m ρ) c).arrAt 5 Cert.KernelIdeal.cfg1.N = refP V0 := by
  funext i
  obtain ⟨e, rfl⟩ : ∃ e : Fin 8388608, i = ix1 e := ⟨i 0, eq_ix1 i⟩
  rw [Cert.KernelIdeal.RegionValue.p_at (Cert.KernelIdeal.Gen.V3 m ρ) c e, refP_apply V0 e,
    v39_at h, v39_at h, v46_at h, v46_at h, v47_at h, v47_at h, v49_at h, v49_at h, v48_at h, v48_at h]

theorem reactiveFlow_eq (h : Agree m c V0) :
    (Cert.KernelIdeal.Gen.dat1 (F := Ideal) (Cert.KernelIdeal.Gen.V3 m ρ) c).arrAt 6 Cert.KernelIdeal.cfg1.N = refQ V0 := by
  funext i
  obtain ⟨e, rfl⟩ : ∃ e : Fin 8388608, i = ix1 e := ⟨i 0, eq_ix1 i⟩
  rw [Cert.KernelIdeal.RegionValue.q_at (Cert.KernelIdeal.Gen.V3 m ρ) c e, refQ_apply V0 e,
    v39_at h, v39_at h, v46_at h, v46_at h, v47_at h, v47_at h, v49_at h, v49_at h, v48_at h, v48_at h]

/-! ## The error term -/

theorem mse_eq (h : Agree m c V0)
    (h0 : ∀ i, ∃ r : ℝ, (m ((c.tc : Thread Cert.KernelIdeal.nD Cert.KernelIdeal.τ).loc Cert.KernelIdeal.main_arg0)) i = (r : EReal)) (h1 : ∀ i, ∃ r : ℝ, (m ((c.tc : Thread Cert.KernelIdeal.nD Cert.KernelIdeal.τ).loc Cert.KernelIdeal.main_arg1)) i = (r : EReal))
    (h6 : ∀ i, ∃ r : ℝ, (m ((c.tc : Thread Cert.KernelIdeal.nD Cert.KernelIdeal.τ).loc Cert.KernelIdeal.main_arg6)) i = (r : EReal)) (h7 : ∀ i, ∃ r : ℝ, (m ((c.tc : Thread Cert.KernelIdeal.nD Cert.KernelIdeal.τ).loc Cert.KernelIdeal.main_arg7)) i = (r : EReal)) :
    mseOf ((Cert.KernelIdeal.Gen.dat0 (F := Ideal) (Cert.KernelIdeal.Gen.V1 m ρ) c).arrAt 3 Cert.KernelIdeal.cfg0.N)
      = Host.divf (F := Ideal) (Host.reduceAdd (F := Ideal) (mulf (res_main_v14 V0) (res_main_v14 V0))
          (constant (F := Ideal) Cert.ReferenceIdeal.S_ .f32 0x00000000#32) Cert.ReferenceIdeal.Gen.reducesTo_S256x2000x2_S_d0_1_2 Cert.ReferenceIdeal.Gen.h_S_)
          (constant (F := Ideal) Cert.ReferenceIdeal.S_ .f32 0x497A0000#32) := by
  rw [Cert.KernelIdeal.RegionValue.mse_arr (Cert.KernelIdeal.Gen.V1 m ρ) c]
  show mseOf (F := Ideal) (fun _ => Cert.KernelIdeal.RegionValue.sqErrOf (Cert.KernelIdeal.Gen.V1 m ρ c Cert.KernelIdeal.main_arg0) (Cert.KernelIdeal.Gen.V1 m ρ c Cert.KernelIdeal.main_arg1)
    (Cert.KernelIdeal.Gen.V1 m ρ c Cert.KernelIdeal.main_v1)) = _
  rw [V1_arg0, V1_arg1, V1_v1]
  exact Cert.MseBridge.mse_bridge_res V0 _ _ _ _ h.e0 h.e1 h.e6 h.e7 h0 h1 h6 h7

/-! ## The result -/

/-- The kernel program's result is the reference's. -/
theorem bridge (h : Agree m c V0)
    (h0 : ∀ i, ∃ r : ℝ, (m ((c.tc : Thread Cert.KernelIdeal.nD Cert.KernelIdeal.τ).loc Cert.KernelIdeal.main_arg0)) i = (r : EReal)) (h1 : ∀ i, ∃ r : ℝ, (m ((c.tc : Thread Cert.KernelIdeal.nD Cert.KernelIdeal.τ).loc Cert.KernelIdeal.main_arg1)) i = (r : EReal))
    (h6 : ∀ i, ∃ r : ℝ, (m ((c.tc : Thread Cert.KernelIdeal.nD Cert.KernelIdeal.τ).loc Cert.KernelIdeal.main_arg6)) i = (r : EReal)) (h7 : ∀ i, ∃ r : ℝ, (m ((c.tc : Thread Cert.KernelIdeal.nD Cert.KernelIdeal.τ).loc Cert.KernelIdeal.main_arg7)) i = (r : EReal)) :
    Cert.KernelIdeal.Gen.W5 m ρ c (Proc.devRef .tc Cert.KernelIdeal.main_v78) = refOut V0 := by
  rw [Cert.KernelIdeal.Fold.result m ρ c, mse_eq (ρ := ρ) h h0 h1 h6 h7, activeFlow_eq (ρ := ρ) h, reactiveFlow_eq (ρ := ρ) h,
    node_eq h, ends0_eq h, mask_eq h,
    Cert.Operands.aggP_eq (res_main_v40 V0) (refP V0) (refQ V0), Cert.Operands.aggQ_eq (res_main_v40 V0) (refP V0) (refQ V0)]
  rfl

/-- Run from memories agreeing on the arguments, both idealized programs end with equal results. -/
theorem algebraic : Cert.algebraic_KernelIdeal_ReferenceIdeal := by
  intro m ρ m' ρ' hpre hagree
  refine ⟨fun c => refOut (launchContents m' c), ?_, Cert.ReferenceIdeal.ValueP.run (F := Ideal) m' ρ'⟩
  refine (θ_run Cert.KernelIdeal.defs _ _).mono (fun r hr c => ⟨(hr c).1.trans ?_, (hr c).2⟩)
    (Cert.KernelIdeal.RunValue.run (F := Ideal) m ρ)
  obtain ⟨g0, g1, g2, g3, g4, g5, g6, g7, g8, g9, g10, g11⟩ := hagree c
  obtain ⟨r0, r1, r6, r7⟩ := Cert.Finite.reals_of_pre _ _ _ _ _ _ _ _ _ _ _ _ (hpre c)
  exact bridge (ρ := ρ) ⟨g0, g1, g2, g3, g4, g5, g6, g7, g8, g9, g10, g11⟩ r0 r1 r6 r7

end Cert.Proof.Algebraic

end
-- ==== Proof.lean ====
/-
  The certificate of the mixed mean-squared-error / power-imbalance loss.

  The loss of a batch of 256 grid snapshots of 2000 buses is 0.9 times the mean squared error of the denormalised
  predictions against the denormalised targets, plus 0.002 times the masked mean over the buses of dP² + dQ², where
  dP and dQ are a bus's active and reactive injection minus the sum of the AC power flows of the edges that end there.

  The kernel program computes the error term's sum in one region, the 8 388 608 per-edge flows in a second region over
  64 tiles of 131 072 edges, and everything else on the host; the reference computes everything on the host. The three
  frame claims are the programs' runs with the results forgotten (Proof/Frames.lean). No operation was rewritten when
  the kernel program was idealized, so the preservation claim has nothing to state. The algebraic claim
  (Proof/Algebraic.lean) reads the kernel program's result back through its five stretches, the two regions' output
  arrays in closed form, and matches it stage by stage with the reference's: one node table in two layouts, the same
  ten numbers per edge, the same edges summed onto each bus, and the identity (p·s + m) − (t·s + m) = (p − t)·s on the
  real entries the precondition provides.
-/
import proofs.«118159_j69690139345431_2_alg».proof.Defs
import proofs.«118159_j69690139345431_2_alg».proof.Proof.Frames
import proofs.«118159_j69690139345431_2_alg».proof.Proof.Algebraic
import proofs.«118159_j69690139345431_2_alg».proof.Proof.Gen.Kernel
import proofs.«118159_j69690139345431_2_alg».proof.Proof.Gen.KernelIdeal
import proofs.«118159_j69690139345431_2_alg».proof.Proof.Gen.ReferenceIdeal
import proofs.«118159_j69690139345431_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Algebraic.algebraic⟩

end Cert.Proof

end
